-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128x47 .f32) (main_arg13 : FVec F S47 .f32) (main_arg14 : FVec F S128x47 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x47 .f32 := Host.absf main_arg12
  let main_cst_20 : FVec F S_ .f32 := constant S_ .f32 0x7F800000#32
  let main_v55 : FVec F S128x47 .f32 := broadcastInDim S128x47 ![] bcast_S_S128x47 main_cst_20
  let main_v56 : IVec S128x47 1 := cmpf .olt main_v54 main_v55
  let main_c_21 : IVec S_ 1 := constantI S_ 1 1#1
  let main_v57 : IVec S_ 1 := (fun x v => Host.reduce IntOp.andi x v reducesTo_S128x47_S_d0_1 h_S_) main_v56 main_c_21
  let main_v58 : IVec S_ 1 := andi main_v53 main_v57
  let main_v59 : FVec F S47 .f32 := Host.absf main_arg13
  let main_cst_22 : FVec F S_ .f32 := constant S_ .f32 0x7F800000#32
  let main_v60 : FVec F S47 .f32 := broadcastInDim S47 ![] bcast_S_S47 main_cst_22
  let main_v61 : IVec S47 1 := cmpf .olt main_v59 main_v60
  let main_c_23 : IVec S_ 1 := constantI S_ 1 1#1
  let main_v62 : IVec S_ 1 := (fun x v => Host.reduce IntOp.andi x v reducesTo_S47_S_d0 h_S_) main_v61 main_c_23
  let main_v63 : IVec S_ 1 := andi main_v58 main_v62
  let main_v64 : FVec F S128x47 .f32 := Host.absf main_arg14
  let main_cst_24 : FVec F S_ .f32 := constant S_ .f32 0x7F800000#32
  let main_v65 : FVec F S128x47 .f32 := broadcastInDim S128x47 ![] bcast_S_S128x47 main_cst_24
  let main_v66 : IVec S128x47 1 := cmpf .olt main_v64 main_v65
  let main_c_25 : IVec S_ 1 := constantI S_ 1 1#1
  let main_v67 : IVec S_ 1 := (fun x v => Host.reduce IntOp.andi x v reducesTo_S128x47_S_d0_1 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x47 .f32) (main_arg13 : FVec F S47 .f32) (main_arg14 : FVec F S128x47 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x47 .f32) (main_arg13 : FVec F S47 .f32) (main_arg14 : FVec F S128x47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x47 .f32) (main_arg13 : FVec F S47 .f32) (main_arg14 : FVec F S128x47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x47 : Shape := ⟨2, ![1, 47]⟩
abbrev S100000x47 : Shape := ⟨2, ![100000, 47]⟩
abbrev S5000x47 : Shape := ⟨2, ![5000, 47]⟩
abbrev S5000 : Shape := ⟨1, ![5000]⟩

abbrev nBuf : Space → Nat
  | .hbm => 149
  | .vmem => 49
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x47, .f32⟩
  | 13 => ⟨S47, .f32⟩
  | 14 => ⟨S128x47, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S1x128, .f32⟩
  | 46 => ⟨S100000x128, .f32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S1x128, .f32⟩
  | 69 => ⟨S1x128, .f32⟩
  | 70 => ⟨S1x128, .f32⟩
  | 71 => ⟨S_, .f32⟩
  | 72 => ⟨S_, .i1⟩
  | 73 => ⟨S_, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1x128, .f32⟩
  | 97 => ⟨S100000x128, .f32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S_, .f32⟩
  | 116 => ⟨S_, .f32⟩
  | 117 => ⟨S_, .f32⟩
  | 118 => ⟨S128, .f32⟩
  | 119 => ⟨S1x128, .f32⟩
  | 120 => ⟨S1x128, .f32⟩
  | 121 => ⟨S1x128, .f32⟩
  | 122 => ⟨S_, .f32⟩
  | 123 => ⟨S_, .i1⟩
  | 124 => ⟨S_, .f32⟩
  | 125 => ⟨S_, .f32⟩
  | 126 => ⟨S1x128, .f32⟩
  | 127 => ⟨S1x128, .f32⟩
  | _ => ⟨S100000x128, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S1x47, .f32⟩
  | 20 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S5000x128, .f32⟩
  | .local _ .vmem, ⟨43, _⟩ => ⟨S5000x128, .f32⟩
  | .local _ .vmem, ⟨44, _⟩ => ⟨S128x47, .f32⟩
  | .local _ .vmem, ⟨45, _⟩ => ⟨S1x47, .f32⟩
  | .local _ .vmem, ⟨46, _⟩ => ⟨S128x47, .f32⟩
  | .local _ .vmem, ⟨47, _⟩ => ⟨S5000x47, .f32⟩
  | .local _ .vmem, ⟨48, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v29 : Ref sig .tc := ⟨.hbm, 76, rfl⟩
abbrev main_cst_8 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_9 : Ref sig .tc := ⟨.hbm, 83, rfl⟩
abbrev main_v35 : Ref sig .tc := ⟨.hbm, 84, rfl⟩
abbrev main_v36 : Ref sig .tc := ⟨.hbm, 85, rfl⟩
abbrev main_c_10 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_11 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_12 : Ref sig .tc := ⟨.hbm, 98, rfl⟩
abbrev main_v47 : Ref sig .tc := ⟨.hbm, 99, rfl⟩
abbrev main_v48 : Ref sig .tc := ⟨.hbm, 100, rfl⟩
abbrev main_cst_13 : Ref sig .tc := ⟨.hbm, 101, rfl⟩
abbrev main_v49 : Ref sig .tc := ⟨.hbm, 102, rfl⟩
abbrev main_v50 : Ref sig .tc := ⟨.hbm, 103, rfl⟩
abbrev main_c_14 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_v12 : Ref sig .tc := ⟨.hbm, 121, rfl⟩
abbrev main_call1_cst_3 : Ref sig .tc := ⟨.hbm, 122, rfl⟩
abbrev main_call1_v13 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v51 : Ref sig .tc := ⟨.hbm, 127, rfl⟩
abbrev main_cst_15 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_c_16 : Ref sig .tc := ⟨.hbm, 134, rfl⟩
abbrev main_v57 : Ref sig .tc := ⟨.hbm, 135, rfl⟩
abbrev main_v58 : Ref sig .tc := ⟨.hbm, 136, rfl⟩
abbrev main_c_17 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_cst_18 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x47 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x47 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x47 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x47 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x47.size a ≤ S128x47.size a
  hwx4_3 : ∀ i : grid4.Coords, EltTy.bits .f32 = 32 ∨ (Rect.block (s := S128x47) S128x47.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x47.size a ≤ S1x47.size a
  hwx4_4 : ∀ i : grid4.Coords, EltTy.bits .f32 = 32 ∨ (Rect.block (s := S1x47) S1x47.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x47.size a ≤ S128x47.size a
  hwx4_5 : ∀ i : grid4.Coords, EltTy.bits .f32 = 32 ∨ (Rect.block (s := S128x47) S128x47.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x47.size a ≤ S100000x47.size a
  hwx4_6 : ∀ i : grid4.Coords, EltTy.bits .f32 = 32 ∨ (Rect.block (s := S100000x47) S5000x47.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x47.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x47.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x47.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S5000x47.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x47 : Shape := ⟨2, ![100000, 47]⟩
abbrev S1x47 : Shape := ⟨2, ![1, 47]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x47, .f32⟩
  | 13 => ⟨S47, .f32⟩
  | 14 => ⟨S128x47, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x47, .f32⟩
  | 73 => ⟨S1x47, .f32⟩
  | 74 => ⟨S100000x47, .f32⟩
  | 75 => ⟨S100000x47, .f32⟩
  | 76 => ⟨S100000x47, .f32⟩
  | 77 => ⟨S100000x47, .f32⟩
  | 78 => ⟨S_, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x47, .f32⟩
  | 85 => ⟨S100000x47, .f32⟩
  | 86 => ⟨S100000x47, .f32⟩
  | 87 => ⟨S_, .f32⟩
  | 88 => ⟨S100000, .f32⟩
  | 89 => ⟨S100000x1, .f32⟩
  | 90 => ⟨S100000x1, .f32⟩
  | 91 => ⟨S100000x47, .f32⟩
  | 92 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call1_cst : Ref sig .tc := ⟨.hbm, 94, rfl⟩
abbrev main_call1_v0 : Ref sig .tc := ⟨.hbm, 95, rfl⟩
abbrev main_v48 : Ref sig .tc := ⟨.hbm, 96, rfl⟩
abbrev main_c_8 : Ref sig .tc := ⟨.hbm, 97, rfl⟩
abbrev main_v49 : Ref sig .tc := ⟨.hbm, 98, rfl⟩
abbrev main_v50 : Ref sig .tc := ⟨.hbm, 99, rfl⟩
abbrev main_c_9 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_10 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_11 : Ref sig .tc := ⟨.hbm, 110, rfl⟩
abbrev main_v59 : Ref sig .tc := ⟨.hbm, 111, rfl⟩
abbrev main_cst_12 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_13 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_cst_15 : Ref sig .tc := ⟨.hbm, 130, rfl⟩
abbrev main_v75 : Ref sig .tc := ⟨.hbm, 131, rfl⟩
abbrev main_v76 : Ref sig .tc := ⟨.hbm, 132, rfl⟩
abbrev main_c_16 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_17 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_call3_cst : Ref sig .tc := ⟨.hbm, 172, rfl⟩
abbrev main_call3_v0 : Ref sig .tc := ⟨.hbm, 173, rfl⟩
abbrev main_v93 : Ref sig .tc := ⟨.hbm, 174, rfl⟩
abbrev main_c_18 : Ref sig .tc := ⟨.hbm, 175, rfl⟩
abbrev main_v94 : Ref sig .tc := ⟨.hbm, 176, rfl⟩
abbrev main_v95 : Ref sig .tc := ⟨.hbm, 177, rfl⟩
abbrev main_c_19 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_cst_20 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_21 : Ref sig .tc := ⟨.hbm, 188, rfl⟩
abbrev main_v104 : Ref sig .tc := ⟨.hbm, 189, rfl⟩
abbrev main_cst_22 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_23 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_call4_cst : Ref sig .tc := ⟨.hbm, 206, rfl⟩
abbrev main_call4_v0 : Ref sig .tc := ⟨.hbm, 207, rfl⟩
abbrev main_call4_cst_0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_cst_1 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_v119 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  bcast_S100000x1_S100000x47_0_1 : S100000x1.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KerRun.lean ====
import proofs.«127273_j90726889160781_2_alg».proof.Proof.Gen.KernelIdeal.Frame
import Idealize.ShloMosaic.PureOps.Ideal

/-!
# The kernel program's run, with its result named

From any launch memory with zero counters, every weakly fair execution of the program on the TensorCores
terminates without a fault, and in every final state the result buffer holds what the fold of the program's
segments leaves there (the last boundary's contents, `Gen.W14`, read at the result buffer), while every
argument array is as launched.
-/

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- The run: termination without a fault, the result buffer at the last boundary's contents, the arguments as
    launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68) = Gen.W14 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v68 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.KerRun

end
-- ==== Proof.KerStages.lean ====
import proofs.«127273_j90726889160781_2_alg».proof.KernelIdeal
import Idealize.ShloMosaic.PureOps.Ideal

/-!
# The host stages of the kernel program, as functions

Between its five kernel regions the program runs plain tensor operations: it splits the edge list into the
source and the destination node of every edge, counts every node's incoming edges, and, per layer, sums the
rows of the incoming neighbours (a gather by source followed by an accumulating scatter by destination) and
takes the mean and the variance of a layer's output over the rows. Each definition below is the composition
of the printed operations that compute one such value, as a function of the values it is computed from, read
at the ideal instance (a float is an extended real). Every operation is taken with the program's own
dimension records and side conditions (the fields of `Facts₀`).
-/

noncomputable section

namespace Cert.KernelIdeal.Stages

open Idealize.ShloMosaic
open Cert.KernelIdeal.Facts₀

variable [Facts₀]

/-- Row 0 of the edge list as a flat vector: the source node of every edge, as stored. -/
def srcRaw (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge list as a flat vector: the destination node of every edge, as stored. -/
def dstRaw (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The gather's index column: every edge's source node, a negative one counted from the end (`i + 100000`
    where `i < 0`), as a column of one index per edge. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (srcRaw ei) (broadcastInDim S1600000 ![] bcast_S_S1600000 (constantI S_ 32 0#32)))
      (addi (srcRaw ei) (broadcastInDim S1600000 ![] bcast_S_S1600000 (constantI S_ 32 100000#32)))
      (srcRaw ei))

/-- The scatter's index column: every edge's destination node, one index per edge. -/
def dstIdx (ei : (⟨S2x1600000, .i32⟩ : BufTy).Contents (Elt Ideal)) : (⟨S1600000x1, .i32⟩ : BufTy).Contents (Elt Ideal) :=
  broadcastInDim S1600000x1 ![0] bcast_S1600000_S1600000x1_0 (dstRaw ei)

/-- The neighbour sum: row `n` is the sum, over the edges into node `n`, of the source node's row of `h`
    (the rows gathered by source, accumulated from zero by destination). -/
def segsum (ei : (⟨S2x1600000, .i32⟩ : BufTy).Contents (Elt Ideal)) (h : FVec Ideal S100000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (dstIdx ei)
    (Host.gather gather_S100000x128_S1600000x1_S1600000x128_1_0_n_n_0_1_1128 h (srcIdx ei))

/-- The reciprocal neighbour count, as a column: `1 / max (number of edges into the node) 1`. -/
def cntInv (ei : (⟨S2x1600000, .i32⟩ : BufTy).Contents (Elt Ideal)) : FVec Ideal S100000x1 .f32 :=
  shapeCast S100000x1
    (Host.divf (F := Ideal)
      (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (dstIdx ei)
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- A vector of 128 entries as one row. -/
def rowOf (b : FVec Ideal S128 .f32) : FVec Ideal S1x128 .f32 :=
  shapeCast S1x128 b shapeCasts_S128_S1x128

/-- A vector of 47 entries as one row. -/
def rowOf47 (b : FVec Ideal S47 .f32) : FVec Ideal S1x47 .f32 :=
  shapeCast S1x47 b shapeCasts_S47_S1x47

/-- The mean over the rows, as one row: the column sums divided by the number of rows, 100000. -/
def mean (h : FVec Ideal S100000x128 .f32) : FVec Ideal S1x128 .f32 :=
  Host.divf (F := Ideal)
    (broadcastInDim S1x128 ![1] bcast_S128_S1x128_1
      (Host.reduceAdd (F := Ideal) h (constant (F := Ideal) S_ .f32 0x00000000#32) reducesTo_S100000x128_S128_d0 h_S_))
    (broadcastInDim S1x128 ![] bcast_S_S1x128 (constant (F := Ideal) S_ .f32 0x47C35000#32))

/-- The divisor of the variance: the number of rows less the degrees of freedom taken off, here `100000 - 0`. -/
def varDenom : FVec Ideal S_ .f32 :=
  subf (F := Ideal) (constant (F := Ideal) S_ .f32 0x47C35000#32) (sitofp (F := Ideal) .f32 (constantI S_ 32 0#32))

/-- The variance over the rows, as one row, never below zero: the column sums of the squared deviations from
    the mean divided by `varDenom` (were that divisor not positive, the undefined value instead), then the
    larger of that and zero. -/
def var (h : FVec Ideal S100000x128 .f32) : FVec Ideal S1x128 .f32 :=
  maximumf (F := Ideal)
    (select (broadcastInDim S1x128 ![] bcast_S_S1x128
        (cmpf (F := Ideal) .ogt varDenom (constant (F := Ideal) S_ .f32 0x00000000#32)))
      (Host.divf (F := Ideal)
        (broadcastInDim S1x128 ![1] bcast_S128_S1x128_1
          (Host.reduceAdd (F := Ideal)
            (mulf (F := Ideal)
              (subf (F := Ideal) h (broadcastInDim S100000x128 ![0, 1] bcast_S1x128_S100000x128_0_1 (mean h)))
              (subf (F := Ideal) h (broadcastInDim S100000x128 ![0, 1] bcast_S1x128_S100000x128_0_1 (mean h))))
            (constant (F := Ideal) S_ .f32 0x00000000#32) reducesTo_S100000x128_S128_d0 h_S_))
        (broadcastInDim S1x128 ![] bcast_S_S1x128 varDenom))
      (broadcastInDim S1x128 ![] bcast_S_S1x128 (id (constant (F := Ideal) S_ .f32 0x7FC00000#32))))
    (broadcastInDim S1x128 ![] bcast_S_S1x128 (constant (F := Ideal) S_ .f32 0x00000000#32))

end Cert.KernelIdeal.Stages

end
-- ==== Proof.KerEntry.lean ====
import proofs.«127273_j90726889160781_2_alg».proof.Proof.Gen.KernelIdeal.Frame
import proofs.«127273_j90726889160781_2_alg».proof.Proof.KerStages

/-!
# What each region of the kernel program finds in its input arrays

The program's run is a fold through its segments: a stretch of host operations rewrites the buffers it writes,
a region leaves its output array at what its write-backs leave and every other buffer as entered. Here every
input array of every region, at the region's entry, is walked back through that fold: to an argument of the
launch memory, to a host stage (`Stages`) of the launch memory, to an earlier region's output array, or to a
host stage of such an output. The last statement names the result buffer after the last region.
-/

set_option maxRecDepth 16384

noncomputable section

namespace Cert.KernelIdeal.KerEntry

open Idealize.ShloMosaic Idealize.ShloMosaic.TcCoe
open Cert.KernelIdeal.Gen

/-- A buffer that no operation of a stretch writes keeps its contents through the stretch: the stretch's result
    buffers are told apart from the given one, one by one. -/
local macro "skip_host" : tactic => `(tactic| exact StableHlo.after_of_forall_not_mem _ _ (List.forall_iff_forall_mem.mp (by
  simp only [hostOps0, hostOps1, hostOps1_1, hostOps1_2, hostOps2, hostOps3, hostOps3_1, hostOps3_2, hostOps4,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## What each stretch of host operations leaves in the buffers it writes, from any contents `W` -/

/-- The variance before it is bounded below by zero: the column sums of the squared deviations from the mean over
    the divisor (the undefined value were the divisor not positive). -/
def varPre (h : FVec Ideal S100000x128 .f32) : FVec Ideal S1x128 .f32 :=
  select (broadcastInDim S1x128 ![] bcast_S_S1x128
      (cmpf (F := Ideal) .ogt Stages.varDenom (constant (F := Ideal) S_ .f32 0x00000000#32)))
    (Host.divf (F := Ideal)
      (broadcastInDim S1x128 ![1] bcast_S128_S1x128_1
        (Host.reduceAdd (F := Ideal)
          (mulf (F := Ideal)
            (subf (F := Ideal) h (broadcastInDim S100000x128 ![0, 1] bcast_S1x128_S100000x128_0_1 (Stages.mean h)))
            (subf (F := Ideal) h (broadcastInDim S100000x128 ![0, 1] bcast_S1x128_S100000x128_0_1 (Stages.mean h))))
          (constant (F := Ideal) S_ .f32 0x00000000#32) reducesTo_S100000x128_S128_d0 h_S_))
      (broadcastInDim S1x128 ![] bcast_S_S1x128 Stages.varDenom))
    (broadcastInDim S1x128 ![] bcast_S_S1x128 (id (constant (F := Ideal) S_ .f32 0x7FC00000#32)))

theorem var_eq (h : FVec Ideal S100000x128 .f32) :
    Stages.var h = maximumf (F := Ideal) (varPre h) (broadcastInDim S1x128 ![] bcast_S_S1x128 (constant (F := Ideal) S_ .f32 0x00000000#32)) := rfl

theorem h0_v1 (W : Valuation τ sig (Elt Ideal)) :
    StableHlo.after hostOps0 W (Proc.devRef .tc main_v1) = Stages.srcRaw (W (Proc.devRef .tc main_arg1)) := by
  after_results_simp <;> rfl
theorem h0_v3 (W : Valuation τ sig (Elt Ideal)) :
    StableHlo.after hostOps0 W (Proc.devRef .tc main_v3) = Stages.dstRaw (W (Proc.devRef .tc main_arg1)) := by
  after_results_simp <;> rfl
set_option maxHeartbeats 2000000 in
theorem h0_v12 (W : Valuation τ sig (Elt Ideal)) :
    StableHlo.after hostOps0 W (Proc.devRef .tc main_v12) = Stages.cntInv (W (Proc.devRef .tc main_arg1)) := by
  after_results_simp <;> rfl
set_option maxHeartbeats 2000000 in
theorem h0_v22 (W : Valuation τ sig (Elt Ideal)) :
    StableHlo.after hostOps0 W (Proc.devRef .tc main_v22) = Stages.segsum (W (Proc.devRef .tc main_arg1)) (W (Proc.devRef .tc main_arg0)) := by
  after_results_simp <;> rfl
theorem h0_v23 (W : Valuation τ sig (Elt Ideal)) :
    StableHlo.after hostOps0 W (Proc.devRef .tc main_v23) = Stages.rowOf (W (Proc.devRef .tc main_arg3)) := by
  after_results_simp <;> rfl

theorem h1_v28 (W : Valuation τ sig (Elt Ideal)) :
    StableHlo.after hostOps1 W (Proc.devRef .tc main_v28) = Stages.mean (W (Proc.devRef .tc main_v24)) := by
  after_results_simp <;> rfl
theorem h1_c_7 (W : Valuation τ sig (Elt Ideal)) :
    StableHlo.after hostOps1 W (Proc.devRef .tc main_c_7) = constantI S_ 32 0#32 := by
  after_results_simp <;> rfl
set_option maxHeartbeats 2000000 in
theorem h1_1_v29 (W : Valuation τ sig (Elt Ideal)) (hc : W (Proc.devRef .tc main_c_7) = constantI S_ 32 0#32) :
    StableHlo.after hostOps1_1 W (Proc.devRef .tc main_v29) = varPre (W (Proc.devRef .tc main_v24)) := by
  after_results_simp; rw [hc]; rfl
theorem h1_2_v31 (W : Valuation τ sig (Elt Ideal)) :
    StableHlo.after hostOps1_2 W (Proc.devRef .tc main_v31) = maximumf (F := Ideal) (W (Proc.devRef .tc main_v29)) (broadcastInDim S1x128 ![] bcast_S_S1x128 (constant (F := Ideal) S_ .f32 0x00000000#32)) := by
  after_results_simp <;> rfl
theorem h1_2_v32 (W : Valuation τ sig (Elt Ideal)) :
    StableHlo.after hostOps1_2 W (Proc.devRef .tc main_v32) = Stages.rowOf (W (Proc.devRef .tc main_arg5)) := by
  after_results_simp <;> rfl
theorem h1_2_v33 (W : Valuation τ sig (Elt Ideal)) :
    StableHlo.after hostOps1_2 W (Proc.devRef .tc main_v33) = Stages.rowOf (W (Proc.devRef .tc main_arg6)) := by
  after_results_simp <;> rfl

theorem h3_v50 (W : Valuation τ sig (Elt Ideal)) :
    StableHlo.after hostOps3 W (Proc.devRef .tc main_v50) = Stages.mean (W (Proc.devRef .tc main_v46)) := by
  after_results_simp <;> rfl
theorem h3_c_14 (W : Valuation τ sig (Elt Ideal)) :
    StableHlo.after hostOps3 W (Proc.devRef .tc main_c_14) = constantI S_ 32 0#32 := by
  after_results_simp <;> rfl
set_option maxHeartbeats 2000000 in
theorem h3_1_v51 (W : Valuation τ sig (Elt Ideal)) (hc : W (Proc.devRef .tc main_c_14) = constantI S_ 32 0#32) :
    StableHlo.after hostOps3_1 W (Proc.devRef .tc main_v51) = varPre (W (Proc.devRef .tc main_v46)) := by
  after_results_simp; rw [hc]; rfl
theorem h3_2_v53 (W : Valuation τ sig (Elt Ideal)) :
    StableHlo.after hostOps3_2 W (Proc.devRef .tc main_v53) = maximumf (F := Ideal) (W (Proc.devRef .tc main_v51)) (broadcastInDim S1x128 ![] bcast_S_S1x128 (constant (F := Ideal) S_ .f32 0x00000000#32)) := by
  after_results_simp <;> rfl
theorem h3_2_v54 (W : Valuation τ sig (Elt Ideal)) :
    StableHlo.after hostOps3_2 W (Proc.devRef .tc main_v54) = Stages.rowOf (W (Proc.devRef .tc main_arg10)) := by
  after_results_simp <;> rfl
theorem h3_2_v55 (W : Valuation τ sig (Elt Ideal)) :
    StableHlo.after hostOps3_2 W (Proc.devRef .tc main_v55) = Stages.rowOf (W (Proc.devRef .tc main_arg11)) := by
  after_results_simp <;> rfl

set_option maxHeartbeats 2000000 in
theorem h2_v44 (W : Valuation τ sig (Elt Ideal)) (e : (⟨S2x1600000, .i32⟩ : BufTy).Contents (Elt Ideal))
    (h1 : W (Proc.devRef .tc main_v1) = Stages.srcRaw e) (h3 : W (Proc.devRef .tc main_v3) = Stages.dstRaw e) :
    StableHlo.after hostOps2 W (Proc.devRef .tc main_v44) = Stages.segsum e (W (Proc.devRef .tc main_v34)) := by
  after_results_simp; rw [h1, h3]; rfl
theorem h2_v45 (W : Valuation τ sig (Elt Ideal)) :
    StableHlo.after hostOps2 W (Proc.devRef .tc main_v45) = Stages.rowOf (W (Proc.devRef .tc main_arg8)) := by
  after_results_simp <;> rfl

set_option maxHeartbeats 2000000 in
theorem h4_v66 (W : Valuation τ sig (Elt Ideal)) (e : (⟨S2x1600000, .i32⟩ : BufTy).Contents (Elt Ideal))
    (h1 : W (Proc.devRef .tc main_v1) = Stages.srcRaw e) (h3 : W (Proc.devRef .tc main_v3) = Stages.dstRaw e) :
    StableHlo.after hostOps4 W (Proc.devRef .tc main_v66) = Stages.segsum e (W (Proc.devRef .tc main_v56)) := by
  after_results_simp; rw [h1, h3]; rfl
theorem h4_v67 (W : Valuation τ sig (Elt Ideal)) :
    StableHlo.after hostOps4 W (Proc.devRef .tc main_v67) = Stages.rowOf47 (W (Proc.devRef .tc main_arg13)) := by
  after_results_simp <;> rfl

/-! ## The buffers at each segment boundary, walked back to the launch memory and to the regions' outputs -/

section Walk

variable (m : (ℓ : Loc nD τ sig) → Buf (Elt Ideal) ℓ) (ρ : Dev nD → PrngReg) (c : Dev nD)

/-- Region 0's output array: the first layer's linear map of the mean neighbour row and the node's own row. -/
abbrev H0 := (Gen.dat0 (Gen.V1 m ρ) c).arrAt 6 cfg0.N
/-- Region 1's output array: the first layer normalised and rectified. -/
abbrev A0 := (Gen.dat1 (Gen.V5 m ρ) c).arrAt 5 cfg1.N
/-- Region 2's output array: the second layer's linear map. -/
abbrev H1 := (Gen.dat2 (Gen.V7 m ρ) c).arrAt 6 cfg2.N
/-- Region 3's output array: the second layer normalised and rectified. -/
abbrev A1 := (Gen.dat3 (Gen.V11 m ρ) c).arrAt 5 cfg3.N

/-! ### After the first stretch of host operations (region 0's entry) -/

theorem W1_v1 : Gen.W1 m ρ c (Proc.devRef .tc main_v1) = Stages.srcRaw (m ((c.tc : Thread nD τ).loc main_arg1)) :=
  h0_v1 (Gen.W0 m ρ c)
theorem W1_v3 : Gen.W1 m ρ c (Proc.devRef .tc main_v3) = Stages.dstRaw (m ((c.tc : Thread nD τ).loc main_arg1)) :=
  h0_v3 (Gen.W0 m ρ c)
theorem W1_v12 : Gen.W1 m ρ c (Proc.devRef .tc main_v12) = Stages.cntInv (m ((c.tc : Thread nD τ).loc main_arg1)) :=
  h0_v12 (Gen.W0 m ρ c)
theorem W1_v22 : Gen.W1 m ρ c (Proc.devRef .tc main_v22) = Stages.segsum (m ((c.tc : Thread nD τ).loc main_arg1)) (m ((c.tc : Thread nD τ).loc main_arg0)) :=
  h0_v22 (Gen.W0 m ρ c)
theorem W1_v23 : Gen.W1 m ρ c (Proc.devRef .tc main_v23) = Stages.rowOf (m ((c.tc : Thread nD τ).loc main_arg3)) :=
  h0_v23 (Gen.W0 m ρ c)
theorem W1_arg0 : Gen.W1 m ρ c (Proc.devRef .tc main_arg0) = (m ((c.tc : Thread nD τ).loc main_arg0)) :=
  (show StableHlo.after hostOps0 (Gen.W0 m ρ c) (Proc.devRef .tc main_arg0) = Gen.W0 m ρ c (Proc.devRef .tc main_arg0) from by skip_host)
theorem W1_arg2 : Gen.W1 m ρ c (Proc.devRef .tc main_arg2) = (m ((c.tc : Thread nD τ).loc main_arg2)) :=
  (show StableHlo.after hostOps0 (Gen.W0 m ρ c) (Proc.devRef .tc main_arg2) = Gen.W0 m ρ c (Proc.devRef .tc main_arg2) from by skip_host)
theorem W1_arg4 : Gen.W1 m ρ c (Proc.devRef .tc main_arg4) = (m ((c.tc : Thread nD τ).loc main_arg4)) :=
  (show StableHlo.after hostOps0 (Gen.W0 m ρ c) (Proc.devRef .tc main_arg4) = Gen.W0 m ρ c (Proc.devRef .tc main_arg4) from by skip_host)
theorem W1_arg5 : Gen.W1 m ρ c (Proc.devRef .tc main_arg5) = (m ((c.tc : Thread nD τ).loc main_arg5)) :=
  (show StableHlo.after hostOps0 (Gen.W0 m ρ c) (Proc.devRef .tc main_arg5) = Gen.W0 m ρ c (Proc.devRef .tc main_arg5) from by skip_host)
theorem W1_arg6 : Gen.W1 m ρ c (Proc.devRef .tc main_arg6) = (m ((c.tc : Thread nD τ).loc main_arg6)) :=
  (show StableHlo.after hostOps0 (Gen.W0 m ρ c) (Proc.devRef .tc main_arg6) = Gen.W0 m ρ c (Proc.devRef .tc main_arg6) from by skip_host)
theorem W1_arg7 : Gen.W1 m ρ c (Proc.devRef .tc main_arg7) = (m ((c.tc : Thread nD τ).loc main_arg7)) :=
  (show StableHlo.after hostOps0 (Gen.W0 m ρ c) (Proc.devRef .tc main_arg7) = Gen.W0 m ρ c (Proc.devRef .tc main_arg7) from by skip_host)
theorem W1_arg8 : Gen.W1 m ρ c (Proc.devRef .tc main_arg8) = (m ((c.tc : Thread nD τ).loc main_arg8)) :=
  (show StableHlo.after hostOps0 (Gen.W0 m ρ c) (Proc.devRef .tc main_arg8) = Gen.W0 m ρ c (Proc.devRef .tc main_arg8) from by skip_host)
theorem W1_arg9 : Gen.W1 m ρ c (Proc.devRef .tc main_arg9) = (m ((c.tc : Thread nD τ).loc main_arg9)) :=
  (show StableHlo.after hostOps0 (Gen.W0 m ρ c) (Proc.devRef .tc main_arg9) = Gen.W0 m ρ c (Proc.devRef .tc main_arg9) from by skip_host)
theorem W1_arg10 : Gen.W1 m ρ c (Proc.devRef .tc main_arg10) = (m ((c.tc : Thread nD τ).loc main_arg10)) :=
  (show StableHlo.after hostOps0 (Gen.W0 m ρ c) (Proc.devRef .tc main_arg10) = Gen.W0 m ρ c (Proc.devRef .tc main_arg10) from by skip_host)
theorem W1_arg11 : Gen.W1 m ρ c (Proc.devRef .tc main_arg11) = (m ((c.tc : Thread nD τ).loc main_arg11)) :=
  (show StableHlo.after hostOps0 (Gen.W0 m ρ c) (Proc.devRef .tc main_arg11) = Gen.W0 m ρ c (Proc.devRef .tc main_arg11) from by skip_host)
theorem W1_arg12 : Gen.W1 m ρ c (Proc.devRef .tc main_arg12) = (m ((c.tc : Thread nD τ).loc main_arg12)) :=
  (show StableHlo.after hostOps0 (Gen.W0 m ρ c) (Proc.devRef .tc main_arg12) = Gen.W0 m ρ c (Proc.devRef .tc main_arg12) from by skip_host)
theorem W1_arg13 : Gen.W1 m ρ c (Proc.devRef .tc main_arg13) = (m ((c.tc : Thread nD τ).loc main_arg13)) :=
  (show StableHlo.after hostOps0 (Gen.W0 m ρ c) (Proc.devRef .tc main_arg13) = Gen.W0 m ρ c (Proc.devRef .tc main_arg13) from by skip_host)
theorem W1_arg14 : Gen.W1 m ρ c (Proc.devRef .tc main_arg14) = (m ((c.tc : Thread nD τ).loc main_arg14)) :=
  (show StableHlo.after hostOps0 (Gen.W0 m ρ c) (Proc.devRef .tc main_arg14) = Gen.W0 m ρ c (Proc.devRef .tc main_arg14) from by skip_host)

/-! ### After region 0 -/

theorem W2_v12 : Gen.W2 m ρ c (Proc.devRef .tc main_v12) = Stages.cntInv (m ((c.tc : Thread nD τ).loc main_arg1)) :=
  ((Gen.W2_arr m ρ c 1).trans (((Gen.dat0 (Gen.V1 m ρ) c).arrAt_in 1 rfl _).trans (Gen.A_eq0 (Gen.V1 m ρ) c 1))).trans (W1_v12 m ρ c)
theorem W2_v24 : Gen.W2 m ρ c (Proc.devRef .tc main_v24) = (H0 m ρ c) :=
  Gen.W2_arr m ρ c 6
theorem W2_v1 : Gen.W2 m ρ c (Proc.devRef .tc main_v1) = Stages.srcRaw (m ((c.tc : Thread nD τ).loc main_arg1)) :=
  (Gen.W2_of_ne m ρ c main_v1 (by decide)).trans (W1_v1 m ρ c)
theorem W2_v3 : Gen.W2 m ρ c (Proc.devRef .tc main_v3) = Stages.dstRaw (m ((c.tc : Thread nD τ).loc main_arg1)) :=
  (Gen.W2_of_ne m ρ c main_v3 (by decide)).trans (W1_v3 m ρ c)
theorem W2_arg5 : Gen.W2 m ρ c (Proc.devRef .tc main_arg5) = (m ((c.tc : Thread nD τ).loc main_arg5)) :=
  (Gen.W2_of_ne m ρ c main_arg5 (by decide)).trans (W1_arg5 m ρ c)
theorem W2_arg6 : Gen.W2 m ρ c (Proc.devRef .tc main_arg6) = (m ((c.tc : Thread nD τ).loc main_arg6)) :=
  (Gen.W2_of_ne m ρ c main_arg6 (by decide)).trans (W1_arg6 m ρ c)
theorem W2_arg7 : Gen.W2 m ρ c (Proc.devRef .tc main_arg7) = (m ((c.tc : Thread nD τ).loc main_arg7)) :=
  (Gen.W2_of_ne m ρ c main_arg7 (by decide)).trans (W1_arg7 m ρ c)
theorem W2_arg8 : Gen.W2 m ρ c (Proc.devRef .tc main_arg8) = (m ((c.tc : Thread nD τ).loc main_arg8)) :=
  (Gen.W2_of_ne m ρ c main_arg8 (by decide)).trans (W1_arg8 m ρ c)
theorem W2_arg9 : Gen.W2 m ρ c (Proc.devRef .tc main_arg9) = (m ((c.tc : Thread nD τ).loc main_arg9)) :=
  (Gen.W2_of_ne m ρ c main_arg9 (by decide)).trans (W1_arg9 m ρ c)
theorem W2_arg10 : Gen.W2 m ρ c (Proc.devRef .tc main_arg10) = (m ((c.tc : Thread nD τ).loc main_arg10)) :=
  (Gen.W2_of_ne m ρ c main_arg10 (by decide)).trans (W1_arg10 m ρ c)
theorem W2_arg11 : Gen.W2 m ρ c (Proc.devRef .tc main_arg11) = (m ((c.tc : Thread nD τ).loc main_arg11)) :=
  (Gen.W2_of_ne m ρ c main_arg11 (by decide)).trans (W1_arg11 m ρ c)
theorem W2_arg12 : Gen.W2 m ρ c (Proc.devRef .tc main_arg12) = (m ((c.tc : Thread nD τ).loc main_arg12)) :=
  (Gen.W2_of_ne m ρ c main_arg12 (by decide)).trans (W1_arg12 m ρ c)
theorem W2_arg13 : Gen.W2 m ρ c (Proc.devRef .tc main_arg13) = (m ((c.tc : Thread nD τ).loc main_arg13)) :=
  (Gen.W2_of_ne m ρ c main_arg13 (by decide)).trans (W1_arg13 m ρ c)
theorem W2_arg14 : Gen.W2 m ρ c (Proc.devRef .tc main_arg14) = (m ((c.tc : Thread nD τ).loc main_arg14)) :=
  (Gen.W2_of_ne m ρ c main_arg14 (by decide)).trans (W1_arg14 m ρ c)

/-! ### After the column means of H0 -/

theorem W3_v28 : Gen.W3 m ρ c (Proc.devRef .tc main_v28) = Stages.mean (H0 m ρ c) :=
  (h1_v28 (Gen.W2 m ρ c)).trans (congrArg Stages.mean (W2_v24 m ρ c))
theorem W3_c_7 : Gen.W3 m ρ c (Proc.devRef .tc main_c_7) = constantI S_ 32 0#32 :=
  h1_c_7 (Gen.W2 m ρ c)
theorem W3_v24 : Gen.W3 m ρ c (Proc.devRef .tc main_v24) = (H0 m ρ c) :=
  (show StableHlo.after hostOps1 (Gen.W2 m ρ c) (Proc.devRef .tc main_v24) = Gen.W2 m ρ c (Proc.devRef .tc main_v24) from by skip_host).trans (W2_v24 m ρ c)
theorem W3_v12 : Gen.W3 m ρ c (Proc.devRef .tc main_v12) = Stages.cntInv (m ((c.tc : Thread nD τ).loc main_arg1)) :=
  (show StableHlo.after hostOps1 (Gen.W2 m ρ c) (Proc.devRef .tc main_v12) = Gen.W2 m ρ c (Proc.devRef .tc main_v12) from by skip_host).trans (W2_v12 m ρ c)
theorem W3_v1 : Gen.W3 m ρ c (Proc.devRef .tc main_v1) = Stages.srcRaw (m ((c.tc : Thread nD τ).loc main_arg1)) :=
  (show StableHlo.after hostOps1 (Gen.W2 m ρ c) (Proc.devRef .tc main_v1) = Gen.W2 m ρ c (Proc.devRef .tc main_v1) from by skip_host).trans (W2_v1 m ρ c)
theorem W3_v3 : Gen.W3 m ρ c (Proc.devRef .tc main_v3) = Stages.dstRaw (m ((c.tc : Thread nD τ).loc main_arg1)) :=
  (show StableHlo.after hostOps1 (Gen.W2 m ρ c) (Proc.devRef .tc main_v3) = Gen.W2 m ρ c (Proc.devRef .tc main_v3) from by skip_host).trans (W2_v3 m ρ c)
theorem W3_arg5 : Gen.W3 m ρ c (Proc.devRef .tc main_arg5) = (m ((c.tc : Thread nD τ).loc main_arg5)) :=
  (show StableHlo.after hostOps1 (Gen.W2 m ρ c) (Proc.devRef .tc main_arg5) = Gen.W2 m ρ c (Proc.devRef .tc main_arg5) from by skip_host).trans (W2_arg5 m ρ c)
theorem W3_arg6 : Gen.W3 m ρ c (Proc.devRef .tc main_arg6) = (m ((c.tc : Thread nD τ).loc main_arg6)) :=
  (show StableHlo.after hostOps1 (Gen.W2 m ρ c) (Proc.devRef .tc main_arg6) = Gen.W2 m ρ c (Proc.devRef .tc main_arg6) from by skip_host).trans (W2_arg6 m ρ c)
theorem W3_arg7 : Gen.W3 m ρ c (Proc.devRef .tc main_arg7) = (m ((c.tc : Thread nD τ).loc main_arg7)) :=
  (show StableHlo.after hostOps1 (Gen.W2 m ρ c) (Proc.devRef .tc main_arg7) = Gen.W2 m ρ c (Proc.devRef .tc main_arg7) from by skip_host).trans (W2_arg7 m ρ c)
theorem W3_arg8 : Gen.W3 m ρ c (Proc.devRef .tc main_arg8) = (m ((c.tc : Thread nD τ).loc main_arg8)) :=
  (show StableHlo.after hostOps1 (Gen.W2 m ρ c) (Proc.devRef .tc main_arg8) = Gen.W2 m ρ c (Proc.devRef .tc main_arg8) from by skip_host).trans (W2_arg8 m ρ c)
theorem W3_arg9 : Gen.W3 m ρ c (Proc.devRef .tc main_arg9) = (m ((c.tc : Thread nD τ).loc main_arg9)) :=
  (show StableHlo.after hostOps1 (Gen.W2 m ρ c) (Proc.devRef .tc main_arg9) = Gen.W2 m ρ c (Proc.devRef .tc main_arg9) from by skip_host).trans (W2_arg9 m ρ c)
theorem W3_arg10 : Gen.W3 m ρ c (Proc.devRef .tc main_arg10) = (m ((c.tc : Thread nD τ).loc main_arg10)) :=
  (show StableHlo.after hostOps1 (Gen.W2 m ρ c) (Proc.devRef .tc main_arg10) = Gen.W2 m ρ c (Proc.devRef .tc main_arg10) from by skip_host).trans (W2_arg10 m ρ c)
theorem W3_arg11 : Gen.W3 m ρ c (Proc.devRef .tc main_arg11) = (m ((c.tc : Thread nD τ).loc main_arg11)) :=
  (show StableHlo.after hostOps1 (Gen.W2 m ρ c) (Proc.devRef .tc main_arg11) = Gen.W2 m ρ c (Proc.devRef .tc main_arg11) from by skip_host).trans (W2_arg11 m ρ c)
theorem W3_arg12 : Gen.W3 m ρ c (Proc.devRef .tc main_arg12) = (m ((c.tc : Thread nD τ).loc main_arg12)) :=
  (show StableHlo.after hostOps1 (Gen.W2 m ρ c) (Proc.devRef .tc main_arg12) = Gen.W2 m ρ c (Proc.devRef .tc main_arg12) from by skip_host).trans (W2_arg12 m ρ c)
theorem W3_arg13 : Gen.W3 m ρ c (Proc.devRef .tc main_arg13) = (m ((c.tc : Thread nD τ).loc main_arg13)) :=
  (show StableHlo.after hostOps1 (Gen.W2 m ρ c) (Proc.devRef .tc main_arg13) = Gen.W2 m ρ c (Proc.devRef .tc main_arg13) from by skip_host).trans (W2_arg13 m ρ c)
theorem W3_arg14 : Gen.W3 m ρ c (Proc.devRef .tc main_arg14) = (m ((c.tc : Thread nD τ).loc main_arg14)) :=
  (show StableHlo.after hostOps1 (Gen.W2 m ρ c) (Proc.devRef .tc main_arg14) = Gen.W2 m ρ c (Proc.devRef .tc main_arg14) from by skip_host).trans (W2_arg14 m ρ c)

/-! ### After the column variances of H0, before the bound below -/

theorem W4_v29 : Gen.W4 m ρ c (Proc.devRef .tc main_v29) = varPre (H0 m ρ c) :=
  (h1_1_v29 (Gen.W3 m ρ c) (W3_c_7 m ρ c)).trans (congrArg varPre (W3_v24 m ρ c))
theorem W4_v24 : Gen.W4 m ρ c (Proc.devRef .tc main_v24) = (H0 m ρ c) :=
  (show StableHlo.after hostOps1_1 (Gen.W3 m ρ c) (Proc.devRef .tc main_v24) = Gen.W3 m ρ c (Proc.devRef .tc main_v24) from by skip_host).trans (W3_v24 m ρ c)
theorem W4_v28 : Gen.W4 m ρ c (Proc.devRef .tc main_v28) = Stages.mean (H0 m ρ c) :=
  (show StableHlo.after hostOps1_1 (Gen.W3 m ρ c) (Proc.devRef .tc main_v28) = Gen.W3 m ρ c (Proc.devRef .tc main_v28) from by skip_host).trans (W3_v28 m ρ c)
theorem W4_v12 : Gen.W4 m ρ c (Proc.devRef .tc main_v12) = Stages.cntInv (m ((c.tc : Thread nD τ).loc main_arg1)) :=
  (show StableHlo.after hostOps1_1 (Gen.W3 m ρ c) (Proc.devRef .tc main_v12) = Gen.W3 m ρ c (Proc.devRef .tc main_v12) from by skip_host).trans (W3_v12 m ρ c)
theorem W4_v1 : Gen.W4 m ρ c (Proc.devRef .tc main_v1) = Stages.srcRaw (m ((c.tc : Thread nD τ).loc main_arg1)) :=
  (show StableHlo.after hostOps1_1 (Gen.W3 m ρ c) (Proc.devRef .tc main_v1) = Gen.W3 m ρ c (Proc.devRef .tc main_v1) from by skip_host).trans (W3_v1 m ρ c)
theorem W4_v3 : Gen.W4 m ρ c (Proc.devRef .tc main_v3) = Stages.dstRaw (m ((c.tc : Thread nD τ).loc main_arg1)) :=
  (show StableHlo.after hostOps1_1 (Gen.W3 m ρ c) (Proc.devRef .tc main_v3) = Gen.W3 m ρ c (Proc.devRef .tc main_v3) from by skip_host).trans (W3_v3 m ρ c)
theorem W4_arg5 : Gen.W4 m ρ c (Proc.devRef .tc main_arg5) = (m ((c.tc : Thread nD τ).loc main_arg5)) :=
  (show StableHlo.after hostOps1_1 (Gen.W3 m ρ c) (Proc.devRef .tc main_arg5) = Gen.W3 m ρ c (Proc.devRef .tc main_arg5) from by skip_host).trans (W3_arg5 m ρ c)
theorem W4_arg6 : Gen.W4 m ρ c (Proc.devRef .tc main_arg6) = (m ((c.tc : Thread nD τ).loc main_arg6)) :=
  (show StableHlo.after hostOps1_1 (Gen.W3 m ρ c) (Proc.devRef .tc main_arg6) = Gen.W3 m ρ c (Proc.devRef .tc main_arg6) from by skip_host).trans (W3_arg6 m ρ c)
theorem W4_arg7 : Gen.W4 m ρ c (Proc.devRef .tc main_arg7) = (m ((c.tc : Thread nD τ).loc main_arg7)) :=
  (show StableHlo.after hostOps1_1 (Gen.W3 m ρ c) (Proc.devRef .tc main_arg7) = Gen.W3 m ρ c (Proc.devRef .tc main_arg7) from by skip_host).trans (W3_arg7 m ρ c)
theorem W4_arg8 : Gen.W4 m ρ c (Proc.devRef .tc main_arg8) = (m ((c.tc : Thread nD τ).loc main_arg8)) :=
  (show StableHlo.after hostOps1_1 (Gen.W3 m ρ c) (Proc.devRef .tc main_arg8) = Gen.W3 m ρ c (Proc.devRef .tc main_arg8) from by skip_host).trans (W3_arg8 m ρ c)
theorem W4_arg9 : Gen.W4 m ρ c (Proc.devRef .tc main_arg9) = (m ((c.tc : Thread nD τ).loc main_arg9)) :=
  (show StableHlo.after hostOps1_1 (Gen.W3 m ρ c) (Proc.devRef .tc main_arg9) = Gen.W3 m ρ c (Proc.devRef .tc main_arg9) from by skip_host).trans (W3_arg9 m ρ c)
theorem W4_arg10 : Gen.W4 m ρ c (Proc.devRef .tc main_arg10) = (m ((c.tc : Thread nD τ).loc main_arg10)) :=
  (show StableHlo.after hostOps1_1 (Gen.W3 m ρ c) (Proc.devRef .tc main_arg10) = Gen.W3 m ρ c (Proc.devRef .tc main_arg10) from by skip_host).trans (W3_arg10 m ρ c)
theorem W4_arg11 : Gen.W4 m ρ c (Proc.devRef .tc main_arg11) = (m ((c.tc : Thread nD τ).loc main_arg11)) :=
  (show StableHlo.after hostOps1_1 (Gen.W3 m ρ c) (Proc.devRef .tc main_arg11) = Gen.W3 m ρ c (Proc.devRef .tc main_arg11) from by skip_host).trans (W3_arg11 m ρ c)
theorem W4_arg12 : Gen.W4 m ρ c (Proc.devRef .tc main_arg12) = (m ((c.tc : Thread nD τ).loc main_arg12)) :=
  (show StableHlo.after hostOps1_1 (Gen.W3 m ρ c) (Proc.devRef .tc main_arg12) = Gen.W3 m ρ c (Proc.devRef .tc main_arg12) from by skip_host).trans (W3_arg12 m ρ c)
theorem W4_arg13 : Gen.W4 m ρ c (Proc.devRef .tc main_arg13) = (m ((c.tc : Thread nD τ).loc main_arg13)) :=
  (show StableHlo.after hostOps1_1 (Gen.W3 m ρ c) (Proc.devRef .tc main_arg13) = Gen.W3 m ρ c (Proc.devRef .tc main_arg13) from by skip_host).trans (W3_arg13 m ρ c)
theorem W4_arg14 : Gen.W4 m ρ c (Proc.devRef .tc main_arg14) = (m ((c.tc : Thread nD τ).loc main_arg14)) :=
  (show StableHlo.after hostOps1_1 (Gen.W3 m ρ c) (Proc.devRef .tc main_arg14) = Gen.W3 m ρ c (Proc.devRef .tc main_arg14) from by skip_host).trans (W3_arg14 m ρ c)

/-! ### At the normalisation's entry -/

theorem W5_v31 : Gen.W5 m ρ c (Proc.devRef .tc main_v31) = Stages.var (H0 m ρ c) :=
  ((h1_2_v31 (Gen.W4 m ρ c)).trans (congrArg (fun x => maximumf (F := Ideal) x (broadcastInDim S1x128 ![] bcast_S_S1x128 (constant (F := Ideal) S_ .f32 0x00000000#32))) (W4_v29 m ρ c))).trans (var_eq _).symm
theorem W5_v32 : Gen.W5 m ρ c (Proc.devRef .tc main_v32) = Stages.rowOf (m ((c.tc : Thread nD τ).loc main_arg5)) :=
  (h1_2_v32 (Gen.W4 m ρ c)).trans (congrArg Stages.rowOf (W4_arg5 m ρ c))
theorem W5_v33 : Gen.W5 m ρ c (Proc.devRef .tc main_v33) = Stages.rowOf (m ((c.tc : Thread nD τ).loc main_arg6)) :=
  (h1_2_v33 (Gen.W4 m ρ c)).trans (congrArg Stages.rowOf (W4_arg6 m ρ c))
theorem W5_v24 : Gen.W5 m ρ c (Proc.devRef .tc main_v24) = (H0 m ρ c) :=
  (show StableHlo.after hostOps1_2 (Gen.W4 m ρ c) (Proc.devRef .tc main_v24) = Gen.W4 m ρ c (Proc.devRef .tc main_v24) from by skip_host).trans (W4_v24 m ρ c)
theorem W5_v28 : Gen.W5 m ρ c (Proc.devRef .tc main_v28) = Stages.mean (H0 m ρ c) :=
  (show StableHlo.after hostOps1_2 (Gen.W4 m ρ c) (Proc.devRef .tc main_v28) = Gen.W4 m ρ c (Proc.devRef .tc main_v28) from by skip_host).trans (W4_v28 m ρ c)
theorem W5_v12 : Gen.W5 m ρ c (Proc.devRef .tc main_v12) = Stages.cntInv (m ((c.tc : Thread nD τ).loc main_arg1)) :=
  (show StableHlo.after hostOps1_2 (Gen.W4 m ρ c) (Proc.devRef .tc main_v12) = Gen.W4 m ρ c (Proc.devRef .tc main_v12) from by skip_host).trans (W4_v12 m ρ c)
theorem W5_v1 : Gen.W5 m ρ c (Proc.devRef .tc main_v1) = Stages.srcRaw (m ((c.tc : Thread nD τ).loc main_arg1)) :=
  (show StableHlo.after hostOps1_2 (Gen.W4 m ρ c) (Proc.devRef .tc main_v1) = Gen.W4 m ρ c (Proc.devRef .tc main_v1) from by skip_host).trans (W4_v1 m ρ c)
theorem W5_v3 : Gen.W5 m ρ c (Proc.devRef .tc main_v3) = Stages.dstRaw (m ((c.tc : Thread nD τ).loc main_arg1)) :=
  (show StableHlo.after hostOps1_2 (Gen.W4 m ρ c) (Proc.devRef .tc main_v3) = Gen.W4 m ρ c (Proc.devRef .tc main_v3) from by skip_host).trans (W4_v3 m ρ c)
theorem W5_arg7 : Gen.W5 m ρ c (Proc.devRef .tc main_arg7) = (m ((c.tc : Thread nD τ).loc main_arg7)) :=
  (show StableHlo.after hostOps1_2 (Gen.W4 m ρ c) (Proc.devRef .tc main_arg7) = Gen.W4 m ρ c (Proc.devRef .tc main_arg7) from by skip_host).trans (W4_arg7 m ρ c)
theorem W5_arg8 : Gen.W5 m ρ c (Proc.devRef .tc main_arg8) = (m ((c.tc : Thread nD τ).loc main_arg8)) :=
  (show StableHlo.after hostOps1_2 (Gen.W4 m ρ c) (Proc.devRef .tc main_arg8) = Gen.W4 m ρ c (Proc.devRef .tc main_arg8) from by skip_host).trans (W4_arg8 m ρ c)
theorem W5_arg9 : Gen.W5 m ρ c (Proc.devRef .tc main_arg9) = (m ((c.tc : Thread nD τ).loc main_arg9)) :=
  (show StableHlo.after hostOps1_2 (Gen.W4 m ρ c) (Proc.devRef .tc main_arg9) = Gen.W4 m ρ c (Proc.devRef .tc main_arg9) from by skip_host).trans (W4_arg9 m ρ c)
theorem W5_arg10 : Gen.W5 m ρ c (Proc.devRef .tc main_arg10) = (m ((c.tc : Thread nD τ).loc main_arg10)) :=
  (show StableHlo.after hostOps1_2 (Gen.W4 m ρ c) (Proc.devRef .tc main_arg10) = Gen.W4 m ρ c (Proc.devRef .tc main_arg10) from by skip_host).trans (W4_arg10 m ρ c)
theorem W5_arg11 : Gen.W5 m ρ c (Proc.devRef .tc main_arg11) = (m ((c.tc : Thread nD τ).loc main_arg11)) :=
  (show StableHlo.after hostOps1_2 (Gen.W4 m ρ c) (Proc.devRef .tc main_arg11) = Gen.W4 m ρ c (Proc.devRef .tc main_arg11) from by skip_host).trans (W4_arg11 m ρ c)
theorem W5_arg12 : Gen.W5 m ρ c (Proc.devRef .tc main_arg12) = (m ((c.tc : Thread nD τ).loc main_arg12)) :=
  (show StableHlo.after hostOps1_2 (Gen.W4 m ρ c) (Proc.devRef .tc main_arg12) = Gen.W4 m ρ c (Proc.devRef .tc main_arg12) from by skip_host).trans (W4_arg12 m ρ c)
theorem W5_arg13 : Gen.W5 m ρ c (Proc.devRef .tc main_arg13) = (m ((c.tc : Thread nD τ).loc main_arg13)) :=
  (show StableHlo.after hostOps1_2 (Gen.W4 m ρ c) (Proc.devRef .tc main_arg13) = Gen.W4 m ρ c (Proc.devRef .tc main_arg13) from by skip_host).trans (W4_arg13 m ρ c)
theorem W5_arg14 : Gen.W5 m ρ c (Proc.devRef .tc main_arg14) = (m ((c.tc : Thread nD τ).loc main_arg14)) :=
  (show StableHlo.after hostOps1_2 (Gen.W4 m ρ c) (Proc.devRef .tc main_arg14) = Gen.W4 m ρ c (Proc.devRef .tc main_arg14) from by skip_host).trans (W4_arg14 m ρ c)

/-! ### After region 1 -/

theorem W6_v34 : Gen.W6 m ρ c (Proc.devRef .tc main_v34) = (A0 m ρ c) :=
  Gen.W6_arr m ρ c 5
theorem W6_v12 : Gen.W6 m ρ c (Proc.devRef .tc main_v12) = Stages.cntInv (m ((c.tc : Thread nD τ).loc main_arg1)) :=
  (Gen.W6_of_ne m ρ c main_v12 (by decide)).trans (W5_v12 m ρ c)
theorem W6_v1 : Gen.W6 m ρ c (Proc.devRef .tc main_v1) = Stages.srcRaw (m ((c.tc : Thread nD τ).loc main_arg1)) :=
  (Gen.W6_of_ne m ρ c main_v1 (by decide)).trans (W5_v1 m ρ c)
theorem W6_v3 : Gen.W6 m ρ c (Proc.devRef .tc main_v3) = Stages.dstRaw (m ((c.tc : Thread nD τ).loc main_arg1)) :=
  (Gen.W6_of_ne m ρ c main_v3 (by decide)).trans (W5_v3 m ρ c)
theorem W6_arg7 : Gen.W6 m ρ c (Proc.devRef .tc main_arg7) = (m ((c.tc : Thread nD τ).loc main_arg7)) :=
  (Gen.W6_of_ne m ρ c main_arg7 (by decide)).trans (W5_arg7 m ρ c)
theorem W6_arg8 : Gen.W6 m ρ c (Proc.devRef .tc main_arg8) = (m ((c.tc : Thread nD τ).loc main_arg8)) :=
  (Gen.W6_of_ne m ρ c main_arg8 (by decide)).trans (W5_arg8 m ρ c)
theorem W6_arg9 : Gen.W6 m ρ c (Proc.devRef .tc main_arg9) = (m ((c.tc : Thread nD τ).loc main_arg9)) :=
  (Gen.W6_of_ne m ρ c main_arg9 (by decide)).trans (W5_arg9 m ρ c)
theorem W6_arg10 : Gen.W6 m ρ c (Proc.devRef .tc main_arg10) = (m ((c.tc : Thread nD τ).loc main_arg10)) :=
  (Gen.W6_of_ne m ρ c main_arg10 (by decide)).trans (W5_arg10 m ρ c)
theorem W6_arg11 : Gen.W6 m ρ c (Proc.devRef .tc main_arg11) = (m ((c.tc : Thread nD τ).loc main_arg11)) :=
  (Gen.W6_of_ne m ρ c main_arg11 (by decide)).trans (W5_arg11 m ρ c)
theorem W6_arg12 : Gen.W6 m ρ c (Proc.devRef .tc main_arg12) = (m ((c.tc : Thread nD τ).loc main_arg12)) :=
  (Gen.W6_of_ne m ρ c main_arg12 (by decide)).trans (W5_arg12 m ρ c)
theorem W6_arg13 : Gen.W6 m ρ c (Proc.devRef .tc main_arg13) = (m ((c.tc : Thread nD τ).loc main_arg13)) :=
  (Gen.W6_of_ne m ρ c main_arg13 (by decide)).trans (W5_arg13 m ρ c)
theorem W6_arg14 : Gen.W6 m ρ c (Proc.devRef .tc main_arg14) = (m ((c.tc : Thread nD τ).loc main_arg14)) :=
  (Gen.W6_of_ne m ρ c main_arg14 (by decide)).trans (W5_arg14 m ρ c)

/-! ### After the second neighbour sum (region 2's entry) -/

theorem W7_v44 : Gen.W7 m ρ c (Proc.devRef .tc main_v44) = Stages.segsum (m ((c.tc : Thread nD τ).loc main_arg1)) (A0 m ρ c) :=
  (h2_v44 (Gen.W6 m ρ c) (m ((c.tc : Thread nD τ).loc main_arg1)) (W6_v1 m ρ c) (W6_v3 m ρ c)).trans (congrArg (Stages.segsum (m ((c.tc : Thread nD τ).loc main_arg1))) (W6_v34 m ρ c))
theorem W7_v45 : Gen.W7 m ρ c (Proc.devRef .tc main_v45) = Stages.rowOf (m ((c.tc : Thread nD τ).loc main_arg8)) :=
  (h2_v45 (Gen.W6 m ρ c)).trans (congrArg Stages.rowOf (W6_arg8 m ρ c))
theorem W7_v12 : Gen.W7 m ρ c (Proc.devRef .tc main_v12) = Stages.cntInv (m ((c.tc : Thread nD τ).loc main_arg1)) :=
  (show StableHlo.after hostOps2 (Gen.W6 m ρ c) (Proc.devRef .tc main_v12) = Gen.W6 m ρ c (Proc.devRef .tc main_v12) from by skip_host).trans (W6_v12 m ρ c)
theorem W7_v34 : Gen.W7 m ρ c (Proc.devRef .tc main_v34) = (A0 m ρ c) :=
  (show StableHlo.after hostOps2 (Gen.W6 m ρ c) (Proc.devRef .tc main_v34) = Gen.W6 m ρ c (Proc.devRef .tc main_v34) from by skip_host).trans (W6_v34 m ρ c)
theorem W7_v1 : Gen.W7 m ρ c (Proc.devRef .tc main_v1) = Stages.srcRaw (m ((c.tc : Thread nD τ).loc main_arg1)) :=
  (show StableHlo.after hostOps2 (Gen.W6 m ρ c) (Proc.devRef .tc main_v1) = Gen.W6 m ρ c (Proc.devRef .tc main_v1) from by skip_host).trans (W6_v1 m ρ c)
theorem W7_v3 : Gen.W7 m ρ c (Proc.devRef .tc main_v3) = Stages.dstRaw (m ((c.tc : Thread nD τ).loc main_arg1)) :=
  (show StableHlo.after hostOps2 (Gen.W6 m ρ c) (Proc.devRef .tc main_v3) = Gen.W6 m ρ c (Proc.devRef .tc main_v3) from by skip_host).trans (W6_v3 m ρ c)
theorem W7_arg7 : Gen.W7 m ρ c (Proc.devRef .tc main_arg7) = (m ((c.tc : Thread nD τ).loc main_arg7)) :=
  (show StableHlo.after hostOps2 (Gen.W6 m ρ c) (Proc.devRef .tc main_arg7) = Gen.W6 m ρ c (Proc.devRef .tc main_arg7) from by skip_host).trans (W6_arg7 m ρ c)
theorem W7_arg9 : Gen.W7 m ρ c (Proc.devRef .tc main_arg9) = (m ((c.tc : Thread nD τ).loc main_arg9)) :=
  (show StableHlo.after hostOps2 (Gen.W6 m ρ c) (Proc.devRef .tc main_arg9) = Gen.W6 m ρ c (Proc.devRef .tc main_arg9) from by skip_host).trans (W6_arg9 m ρ c)
theorem W7_arg10 : Gen.W7 m ρ c (Proc.devRef .tc main_arg10) = (m ((c.tc : Thread nD τ).loc main_arg10)) :=
  (show StableHlo.after hostOps2 (Gen.W6 m ρ c) (Proc.devRef .tc main_arg10) = Gen.W6 m ρ c (Proc.devRef .tc main_arg10) from by skip_host).trans (W6_arg10 m ρ c)
theorem W7_arg11 : Gen.W7 m ρ c (Proc.devRef .tc main_arg11) = (m ((c.tc : Thread nD τ).loc main_arg11)) :=
  (show StableHlo.after hostOps2 (Gen.W6 m ρ c) (Proc.devRef .tc main_arg11) = Gen.W6 m ρ c (Proc.devRef .tc main_arg11) from by skip_host).trans (W6_arg11 m ρ c)
theorem W7_arg12 : Gen.W7 m ρ c (Proc.devRef .tc main_arg12) = (m ((c.tc : Thread nD τ).loc main_arg12)) :=
  (show StableHlo.after hostOps2 (Gen.W6 m ρ c) (Proc.devRef .tc main_arg12) = Gen.W6 m ρ c (Proc.devRef .tc main_arg12) from by skip_host).trans (W6_arg12 m ρ c)
theorem W7_arg13 : Gen.W7 m ρ c (Proc.devRef .tc main_arg13) = (m ((c.tc : Thread nD τ).loc main_arg13)) :=
  (show StableHlo.after hostOps2 (Gen.W6 m ρ c) (Proc.devRef .tc main_arg13) = Gen.W6 m ρ c (Proc.devRef .tc main_arg13) from by skip_host).trans (W6_arg13 m ρ c)
theorem W7_arg14 : Gen.W7 m ρ c (Proc.devRef .tc main_arg14) = (m ((c.tc : Thread nD τ).loc main_arg14)) :=
  (show StableHlo.after hostOps2 (Gen.W6 m ρ c) (Proc.devRef .tc main_arg14) = Gen.W6 m ρ c (Proc.devRef .tc main_arg14) from by skip_host).trans (W6_arg14 m ρ c)

/-! ### After region 2 -/

theorem W8_v12 : Gen.W8 m ρ c (Proc.devRef .tc main_v12) = Stages.cntInv (m ((c.tc : Thread nD τ).loc main_arg1)) :=
  ((Gen.W8_arr m ρ c 1).trans (((Gen.dat2 (Gen.V7 m ρ) c).arrAt_in 1 rfl _).trans (Gen.A_eq2 (Gen.V7 m ρ) c 1))).trans (W7_v12 m ρ c)
theorem W8_v46 : Gen.W8 m ρ c (Proc.devRef .tc main_v46) = (H1 m ρ c) :=
  Gen.W8_arr m ρ c 6
theorem W8_v1 : Gen.W8 m ρ c (Proc.devRef .tc main_v1) = Stages.srcRaw (m ((c.tc : Thread nD τ).loc main_arg1)) :=
  (Gen.W8_of_ne m ρ c main_v1 (by decide)).trans (W7_v1 m ρ c)
theorem W8_v3 : Gen.W8 m ρ c (Proc.devRef .tc main_v3) = Stages.dstRaw (m ((c.tc : Thread nD τ).loc main_arg1)) :=
  (Gen.W8_of_ne m ρ c main_v3 (by decide)).trans (W7_v3 m ρ c)
theorem W8_arg10 : Gen.W8 m ρ c (Proc.devRef .tc main_arg10) = (m ((c.tc : Thread nD τ).loc main_arg10)) :=
  (Gen.W8_of_ne m ρ c main_arg10 (by decide)).trans (W7_arg10 m ρ c)
theorem W8_arg11 : Gen.W8 m ρ c (Proc.devRef .tc main_arg11) = (m ((c.tc : Thread nD τ).loc main_arg11)) :=
  (Gen.W8_of_ne m ρ c main_arg11 (by decide)).trans (W7_arg11 m ρ c)
theorem W8_arg12 : Gen.W8 m ρ c (Proc.devRef .tc main_arg12) = (m ((c.tc : Thread nD τ).loc main_arg12)) :=
  (Gen.W8_of_ne m ρ c main_arg12 (by decide)).trans (W7_arg12 m ρ c)
theorem W8_arg13 : Gen.W8 m ρ c (Proc.devRef .tc main_arg13) = (m ((c.tc : Thread nD τ).loc main_arg13)) :=
  (Gen.W8_of_ne m ρ c main_arg13 (by decide)).trans (W7_arg13 m ρ c)
theorem W8_arg14 : Gen.W8 m ρ c (Proc.devRef .tc main_arg14) = (m ((c.tc : Thread nD τ).loc main_arg14)) :=
  (Gen.W8_of_ne m ρ c main_arg14 (by decide)).trans (W7_arg14 m ρ c)

/-! ### After the column means of H1 -/

theorem W9_v50 : Gen.W9 m ρ c (Proc.devRef .tc main_v50) = Stages.mean (H1 m ρ c) :=
  (h3_v50 (Gen.W8 m ρ c)).trans (congrArg Stages.mean (W8_v46 m ρ c))
theorem W9_c_14 : Gen.W9 m ρ c (Proc.devRef .tc main_c_14) = constantI S_ 32 0#32 :=
  h3_c_14 (Gen.W8 m ρ c)
theorem W9_v46 : Gen.W9 m ρ c (Proc.devRef .tc main_v46) = (H1 m ρ c) :=
  (show StableHlo.after hostOps3 (Gen.W8 m ρ c) (Proc.devRef .tc main_v46) = Gen.W8 m ρ c (Proc.devRef .tc main_v46) from by skip_host).trans (W8_v46 m ρ c)
theorem W9_v12 : Gen.W9 m ρ c (Proc.devRef .tc main_v12) = Stages.cntInv (m ((c.tc : Thread nD τ).loc main_arg1)) :=
  (show StableHlo.after hostOps3 (Gen.W8 m ρ c) (Proc.devRef .tc main_v12) = Gen.W8 m ρ c (Proc.devRef .tc main_v12) from by skip_host).trans (W8_v12 m ρ c)
theorem W9_v1 : Gen.W9 m ρ c (Proc.devRef .tc main_v1) = Stages.srcRaw (m ((c.tc : Thread nD τ).loc main_arg1)) :=
  (show StableHlo.after hostOps3 (Gen.W8 m ρ c) (Proc.devRef .tc main_v1) = Gen.W8 m ρ c (Proc.devRef .tc main_v1) from by skip_host).trans (W8_v1 m ρ c)
theorem W9_v3 : Gen.W9 m ρ c (Proc.devRef .tc main_v3) = Stages.dstRaw (m ((c.tc : Thread nD τ).loc main_arg1)) :=
  (show StableHlo.after hostOps3 (Gen.W8 m ρ c) (Proc.devRef .tc main_v3) = Gen.W8 m ρ c (Proc.devRef .tc main_v3) from by skip_host).trans (W8_v3 m ρ c)
theorem W9_arg10 : Gen.W9 m ρ c (Proc.devRef .tc main_arg10) = (m ((c.tc : Thread nD τ).loc main_arg10)) :=
  (show StableHlo.after hostOps3 (Gen.W8 m ρ c) (Proc.devRef .tc main_arg10) = Gen.W8 m ρ c (Proc.devRef .tc main_arg10) from by skip_host).trans (W8_arg10 m ρ c)
theorem W9_arg11 : Gen.W9 m ρ c (Proc.devRef .tc main_arg11) = (m ((c.tc : Thread nD τ).loc main_arg11)) :=
  (show StableHlo.after hostOps3 (Gen.W8 m ρ c) (Proc.devRef .tc main_arg11) = Gen.W8 m ρ c (Proc.devRef .tc main_arg11) from by skip_host).trans (W8_arg11 m ρ c)
theorem W9_arg12 : Gen.W9 m ρ c (Proc.devRef .tc main_arg12) = (m ((c.tc : Thread nD τ).loc main_arg12)) :=
  (show StableHlo.after hostOps3 (Gen.W8 m ρ c) (Proc.devRef .tc main_arg12) = Gen.W8 m ρ c (Proc.devRef .tc main_arg12) from by skip_host).trans (W8_arg12 m ρ c)
theorem W9_arg13 : Gen.W9 m ρ c (Proc.devRef .tc main_arg13) = (m ((c.tc : Thread nD τ).loc main_arg13)) :=
  (show StableHlo.after hostOps3 (Gen.W8 m ρ c) (Proc.devRef .tc main_arg13) = Gen.W8 m ρ c (Proc.devRef .tc main_arg13) from by skip_host).trans (W8_arg13 m ρ c)
theorem W9_arg14 : Gen.W9 m ρ c (Proc.devRef .tc main_arg14) = (m ((c.tc : Thread nD τ).loc main_arg14)) :=
  (show StableHlo.after hostOps3 (Gen.W8 m ρ c) (Proc.devRef .tc main_arg14) = Gen.W8 m ρ c (Proc.devRef .tc main_arg14) from by skip_host).trans (W8_arg14 m ρ c)

/-! ### After the column variances of H1, before the bound below -/

theorem W10_v51 : Gen.W10 m ρ c (Proc.devRef .tc main_v51) = varPre (H1 m ρ c) :=
  (h3_1_v51 (Gen.W9 m ρ c) (W9_c_14 m ρ c)).trans (congrArg varPre (W9_v46 m ρ c))
theorem W10_v46 : Gen.W10 m ρ c (Proc.devRef .tc main_v46) = (H1 m ρ c) :=
  (show StableHlo.after hostOps3_1 (Gen.W9 m ρ c) (Proc.devRef .tc main_v46) = Gen.W9 m ρ c (Proc.devRef .tc main_v46) from by skip_host).trans (W9_v46 m ρ c)
theorem W10_v50 : Gen.W10 m ρ c (Proc.devRef .tc main_v50) = Stages.mean (H1 m ρ c) :=
  (show StableHlo.after hostOps3_1 (Gen.W9 m ρ c) (Proc.devRef .tc main_v50) = Gen.W9 m ρ c (Proc.devRef .tc main_v50) from by skip_host).trans (W9_v50 m ρ c)
theorem W10_v12 : Gen.W10 m ρ c (Proc.devRef .tc main_v12) = Stages.cntInv (m ((c.tc : Thread nD τ).loc main_arg1)) :=
  (show StableHlo.after hostOps3_1 (Gen.W9 m ρ c) (Proc.devRef .tc main_v12) = Gen.W9 m ρ c (Proc.devRef .tc main_v12) from by skip_host).trans (W9_v12 m ρ c)
theorem W10_v1 : Gen.W10 m ρ c (Proc.devRef .tc main_v1) = Stages.srcRaw (m ((c.tc : Thread nD τ).loc main_arg1)) :=
  (show StableHlo.after hostOps3_1 (Gen.W9 m ρ c) (Proc.devRef .tc main_v1) = Gen.W9 m ρ c (Proc.devRef .tc main_v1) from by skip_host).trans (W9_v1 m ρ c)
theorem W10_v3 : Gen.W10 m ρ c (Proc.devRef .tc main_v3) = Stages.dstRaw (m ((c.tc : Thread nD τ).loc main_arg1)) :=
  (show StableHlo.after hostOps3_1 (Gen.W9 m ρ c) (Proc.devRef .tc main_v3) = Gen.W9 m ρ c (Proc.devRef .tc main_v3) from by skip_host).trans (W9_v3 m ρ c)
theorem W10_arg10 : Gen.W10 m ρ c (Proc.devRef .tc main_arg10) = (m ((c.tc : Thread nD τ).loc main_arg10)) :=
  (show StableHlo.after hostOps3_1 (Gen.W9 m ρ c) (Proc.devRef .tc main_arg10) = Gen.W9 m ρ c (Proc.devRef .tc main_arg10) from by skip_host).trans (W9_arg10 m ρ c)
theorem W10_arg11 : Gen.W10 m ρ c (Proc.devRef .tc main_arg11) = (m ((c.tc : Thread nD τ).loc main_arg11)) :=
  (show StableHlo.after hostOps3_1 (Gen.W9 m ρ c) (Proc.devRef .tc main_arg11) = Gen.W9 m ρ c (Proc.devRef .tc main_arg11) from by skip_host).trans (W9_arg11 m ρ c)
theorem W10_arg12 : Gen.W10 m ρ c (Proc.devRef .tc main_arg12) = (m ((c.tc : Thread nD τ).loc main_arg12)) :=
  (show StableHlo.after hostOps3_1 (Gen.W9 m ρ c) (Proc.devRef .tc main_arg12) = Gen.W9 m ρ c (Proc.devRef .tc main_arg12) from by skip_host).trans (W9_arg12 m ρ c)
theorem W10_arg13 : Gen.W10 m ρ c (Proc.devRef .tc main_arg13) = (m ((c.tc : Thread nD τ).loc main_arg13)) :=
  (show StableHlo.after hostOps3_1 (Gen.W9 m ρ c) (Proc.devRef .tc main_arg13) = Gen.W9 m ρ c (Proc.devRef .tc main_arg13) from by skip_host).trans (W9_arg13 m ρ c)
theorem W10_arg14 : Gen.W10 m ρ c (Proc.devRef .tc main_arg14) = (m ((c.tc : Thread nD τ).loc main_arg14)) :=
  (show StableHlo.after hostOps3_1 (Gen.W9 m ρ c) (Proc.devRef .tc main_arg14) = Gen.W9 m ρ c (Proc.devRef .tc main_arg14) from by skip_host).trans (W9_arg14 m ρ c)

/-! ### At the normalisation's entry -/

theorem W11_v53 : Gen.W11 m ρ c (Proc.devRef .tc main_v53) = Stages.var (H1 m ρ c) :=
  ((h3_2_v53 (Gen.W10 m ρ c)).trans (congrArg (fun x => maximumf (F := Ideal) x (broadcastInDim S1x128 ![] bcast_S_S1x128 (constant (F := Ideal) S_ .f32 0x00000000#32))) (W10_v51 m ρ c))).trans (var_eq _).symm
theorem W11_v54 : Gen.W11 m ρ c (Proc.devRef .tc main_v54) = Stages.rowOf (m ((c.tc : Thread nD τ).loc main_arg10)) :=
  (h3_2_v54 (Gen.W10 m ρ c)).trans (congrArg Stages.rowOf (W10_arg10 m ρ c))
theorem W11_v55 : Gen.W11 m ρ c (Proc.devRef .tc main_v55) = Stages.rowOf (m ((c.tc : Thread nD τ).loc main_arg11)) :=
  (h3_2_v55 (Gen.W10 m ρ c)).trans (congrArg Stages.rowOf (W10_arg11 m ρ c))
theorem W11_v46 : Gen.W11 m ρ c (Proc.devRef .tc main_v46) = (H1 m ρ c) :=
  (show StableHlo.after hostOps3_2 (Gen.W10 m ρ c) (Proc.devRef .tc main_v46) = Gen.W10 m ρ c (Proc.devRef .tc main_v46) from by skip_host).trans (W10_v46 m ρ c)
theorem W11_v50 : Gen.W11 m ρ c (Proc.devRef .tc main_v50) = Stages.mean (H1 m ρ c) :=
  (show StableHlo.after hostOps3_2 (Gen.W10 m ρ c) (Proc.devRef .tc main_v50) = Gen.W10 m ρ c (Proc.devRef .tc main_v50) from by skip_host).trans (W10_v50 m ρ c)
theorem W11_v12 : Gen.W11 m ρ c (Proc.devRef .tc main_v12) = Stages.cntInv (m ((c.tc : Thread nD τ).loc main_arg1)) :=
  (show StableHlo.after hostOps3_2 (Gen.W10 m ρ c) (Proc.devRef .tc main_v12) = Gen.W10 m ρ c (Proc.devRef .tc main_v12) from by skip_host).trans (W10_v12 m ρ c)
theorem W11_v1 : Gen.W11 m ρ c (Proc.devRef .tc main_v1) = Stages.srcRaw (m ((c.tc : Thread nD τ).loc main_arg1)) :=
  (show StableHlo.after hostOps3_2 (Gen.W10 m ρ c) (Proc.devRef .tc main_v1) = Gen.W10 m ρ c (Proc.devRef .tc main_v1) from by skip_host).trans (W10_v1 m ρ c)
theorem W11_v3 : Gen.W11 m ρ c (Proc.devRef .tc main_v3) = Stages.dstRaw (m ((c.tc : Thread nD τ).loc main_arg1)) :=
  (show StableHlo.after hostOps3_2 (Gen.W10 m ρ c) (Proc.devRef .tc main_v3) = Gen.W10 m ρ c (Proc.devRef .tc main_v3) from by skip_host).trans (W10_v3 m ρ c)
theorem W11_arg12 : Gen.W11 m ρ c (Proc.devRef .tc main_arg12) = (m ((c.tc : Thread nD τ).loc main_arg12)) :=
  (show StableHlo.after hostOps3_2 (Gen.W10 m ρ c) (Proc.devRef .tc main_arg12) = Gen.W10 m ρ c (Proc.devRef .tc main_arg12) from by skip_host).trans (W10_arg12 m ρ c)
theorem W11_arg13 : Gen.W11 m ρ c (Proc.devRef .tc main_arg13) = (m ((c.tc : Thread nD τ).loc main_arg13)) :=
  (show StableHlo.after hostOps3_2 (Gen.W10 m ρ c) (Proc.devRef .tc main_arg13) = Gen.W10 m ρ c (Proc.devRef .tc main_arg13) from by skip_host).trans (W10_arg13 m ρ c)
theorem W11_arg14 : Gen.W11 m ρ c (Proc.devRef .tc main_arg14) = (m ((c.tc : Thread nD τ).loc main_arg14)) :=
  (show StableHlo.after hostOps3_2 (Gen.W10 m ρ c) (Proc.devRef .tc main_arg14) = Gen.W10 m ρ c (Proc.devRef .tc main_arg14) from by skip_host).trans (W10_arg14 m ρ c)

/-! ### After region 3 -/

theorem W12_v56 : Gen.W12 m ρ c (Proc.devRef .tc main_v56) = (A1 m ρ c) :=
  Gen.W12_arr m ρ c 5
theorem W12_v12 : Gen.W12 m ρ c (Proc.devRef .tc main_v12) = Stages.cntInv (m ((c.tc : Thread nD τ).loc main_arg1)) :=
  (Gen.W12_of_ne m ρ c main_v12 (by decide)).trans (W11_v12 m ρ c)
theorem W12_v1 : Gen.W12 m ρ c (Proc.devRef .tc main_v1) = Stages.srcRaw (m ((c.tc : Thread nD τ).loc main_arg1)) :=
  (Gen.W12_of_ne m ρ c main_v1 (by decide)).trans (W11_v1 m ρ c)
theorem W12_v3 : Gen.W12 m ρ c (Proc.devRef .tc main_v3) = Stages.dstRaw (m ((c.tc : Thread nD τ).loc main_arg1)) :=
  (Gen.W12_of_ne m ρ c main_v3 (by decide)).trans (W11_v3 m ρ c)
theorem W12_arg12 : Gen.W12 m ρ c (Proc.devRef .tc main_arg12) = (m ((c.tc : Thread nD τ).loc main_arg12)) :=
  (Gen.W12_of_ne m ρ c main_arg12 (by decide)).trans (W11_arg12 m ρ c)
theorem W12_arg13 : Gen.W12 m ρ c (Proc.devRef .tc main_arg13) = (m ((c.tc : Thread nD τ).loc main_arg13)) :=
  (Gen.W12_of_ne m ρ c main_arg13 (by decide)).trans (W11_arg13 m ρ c)
theorem W12_arg14 : Gen.W12 m ρ c (Proc.devRef .tc main_arg14) = (m ((c.tc : Thread nD τ).loc main_arg14)) :=
  (Gen.W12_of_ne m ρ c main_arg14 (by decide)).trans (W11_arg14 m ρ c)

/-! ### After the third neighbour sum (region 4's entry) -/

theorem W13_v66 : Gen.W13 m ρ c (Proc.devRef .tc main_v66) = Stages.segsum (m ((c.tc : Thread nD τ).loc main_arg1)) (A1 m ρ c) :=
  (h4_v66 (Gen.W12 m ρ c) (m ((c.tc : Thread nD τ).loc main_arg1)) (W12_v1 m ρ c) (W12_v3 m ρ c)).trans (congrArg (Stages.segsum (m ((c.tc : Thread nD τ).loc main_arg1))) (W12_v56 m ρ c))
theorem W13_v67 : Gen.W13 m ρ c (Proc.devRef .tc main_v67) = Stages.rowOf47 (m ((c.tc : Thread nD τ).loc main_arg13)) :=
  (h4_v67 (Gen.W12 m ρ c)).trans (congrArg Stages.rowOf47 (W12_arg13 m ρ c))
theorem W13_v12 : Gen.W13 m ρ c (Proc.devRef .tc main_v12) = Stages.cntInv (m ((c.tc : Thread nD τ).loc main_arg1)) :=
  (show StableHlo.after hostOps4 (Gen.W12 m ρ c) (Proc.devRef .tc main_v12) = Gen.W12 m ρ c (Proc.devRef .tc main_v12) from by skip_host).trans (W12_v12 m ρ c)
theorem W13_v56 : Gen.W13 m ρ c (Proc.devRef .tc main_v56) = (A1 m ρ c) :=
  (show StableHlo.after hostOps4 (Gen.W12 m ρ c) (Proc.devRef .tc main_v56) = Gen.W12 m ρ c (Proc.devRef .tc main_v56) from by skip_host).trans (W12_v56 m ρ c)
theorem W13_arg12 : Gen.W13 m ρ c (Proc.devRef .tc main_arg12) = (m ((c.tc : Thread nD τ).loc main_arg12)) :=
  (show StableHlo.after hostOps4 (Gen.W12 m ρ c) (Proc.devRef .tc main_arg12) = Gen.W12 m ρ c (Proc.devRef .tc main_arg12) from by skip_host).trans (W12_arg12 m ρ c)
theorem W13_arg14 : Gen.W13 m ρ c (Proc.devRef .tc main_arg14) = (m ((c.tc : Thread nD τ).loc main_arg14)) :=
  (show StableHlo.after hostOps4 (Gen.W12 m ρ c) (Proc.devRef .tc main_arg14) = Gen.W12 m ρ c (Proc.devRef .tc main_arg14) from by skip_host).trans (W12_arg14 m ρ c)

/-! ## What each region finds in its input arrays when it is entered -/

/-! ### Region 0 -/

theorem entry0_0 : Gen.V1 m ρ c (Pipeline.arrRef spec0 (0 : Fin cfg0.W)) = Stages.segsum (m ((c.tc : Thread nD τ).loc main_arg1)) (m ((c.tc : Thread nD τ).loc main_arg0)) :=
  W1_v22 m ρ c
theorem entry0_1 : Gen.V1 m ρ c (Pipeline.arrRef spec0 (1 : Fin cfg0.W)) = Stages.cntInv (m ((c.tc : Thread nD τ).loc main_arg1)) :=
  W1_v12 m ρ c
theorem entry0_2 : Gen.V1 m ρ c (Pipeline.arrRef spec0 (2 : Fin cfg0.W)) = (m ((c.tc : Thread nD τ).loc main_arg0)) :=
  W1_arg0 m ρ c
theorem entry0_3 : Gen.V1 m ρ c (Pipeline.arrRef spec0 (3 : Fin cfg0.W)) = (m ((c.tc : Thread nD τ).loc main_arg2)) :=
  W1_arg2 m ρ c
theorem entry0_4 : Gen.V1 m ρ c (Pipeline.arrRef spec0 (4 : Fin cfg0.W)) = Stages.rowOf (m ((c.tc : Thread nD τ).loc main_arg3)) :=
  W1_v23 m ρ c
theorem entry0_5 : Gen.V1 m ρ c (Pipeline.arrRef spec0 (5 : Fin cfg0.W)) = (m ((c.tc : Thread nD τ).loc main_arg4)) :=
  W1_arg4 m ρ c

/-! ### Region 1 -/

theorem entry1_0 : Gen.V5 m ρ c (Pipeline.arrRef spec1 (0 : Fin cfg1.W)) = (H0 m ρ c) :=
  W5_v24 m ρ c
theorem entry1_1 : Gen.V5 m ρ c (Pipeline.arrRef spec1 (1 : Fin cfg1.W)) = Stages.mean (H0 m ρ c) :=
  W5_v28 m ρ c
theorem entry1_2 : Gen.V5 m ρ c (Pipeline.arrRef spec1 (2 : Fin cfg1.W)) = Stages.var (H0 m ρ c) :=
  W5_v31 m ρ c
theorem entry1_3 : Gen.V5 m ρ c (Pipeline.arrRef spec1 (3 : Fin cfg1.W)) = Stages.rowOf (m ((c.tc : Thread nD τ).loc main_arg5)) :=
  W5_v32 m ρ c
theorem entry1_4 : Gen.V5 m ρ c (Pipeline.arrRef spec1 (4 : Fin cfg1.W)) = Stages.rowOf (m ((c.tc : Thread nD τ).loc main_arg6)) :=
  W5_v33 m ρ c

/-! ### Region 2 -/

theorem entry2_0 : Gen.V7 m ρ c (Pipeline.arrRef spec2 (0 : Fin cfg2.W)) = Stages.segsum (m ((c.tc : Thread nD τ).loc main_arg1)) (A0 m ρ c) :=
  W7_v44 m ρ c
theorem entry2_1 : Gen.V7 m ρ c (Pipeline.arrRef spec2 (1 : Fin cfg2.W)) = Stages.cntInv (m ((c.tc : Thread nD τ).loc main_arg1)) :=
  W7_v12 m ρ c
theorem entry2_2 : Gen.V7 m ρ c (Pipeline.arrRef spec2 (2 : Fin cfg2.W)) = (A0 m ρ c) :=
  W7_v34 m ρ c
theorem entry2_3 : Gen.V7 m ρ c (Pipeline.arrRef spec2 (3 : Fin cfg2.W)) = (m ((c.tc : Thread nD τ).loc main_arg7)) :=
  W7_arg7 m ρ c
theorem entry2_4 : Gen.V7 m ρ c (Pipeline.arrRef spec2 (4 : Fin cfg2.W)) = Stages.rowOf (m ((c.tc : Thread nD τ).loc main_arg8)) :=
  W7_v45 m ρ c
theorem entry2_5 : Gen.V7 m ρ c (Pipeline.arrRef spec2 (5 : Fin cfg2.W)) = (m ((c.tc : Thread nD τ).loc main_arg9)) :=
  W7_arg9 m ρ c

/-! ### Region 3 -/

theorem entry3_0 : Gen.V11 m ρ c (Pipeline.arrRef spec3 (0 : Fin cfg3.W)) = (H1 m ρ c) :=
  W11_v46 m ρ c
theorem entry3_1 : Gen.V11 m ρ c (Pipeline.arrRef spec3 (1 : Fin cfg3.W)) = Stages.mean (H1 m ρ c) :=
  W11_v50 m ρ c
theorem entry3_2 : Gen.V11 m ρ c (Pipeline.arrRef spec3 (2 : Fin cfg3.W)) = Stages.var (H1 m ρ c) :=
  W11_v53 m ρ c
theorem entry3_3 : Gen.V11 m ρ c (Pipeline.arrRef spec3 (3 : Fin cfg3.W)) = Stages.rowOf (m ((c.tc : Thread nD τ).loc main_arg10)) :=
  W11_v54 m ρ c
theorem entry3_4 : Gen.V11 m ρ c (Pipeline.arrRef spec3 (4 : Fin cfg3.W)) = Stages.rowOf (m ((c.tc : Thread nD τ).loc main_arg11)) :=
  W11_v55 m ρ c

/-! ### Region 4 -/

theorem entry4_0 : Gen.V13 m ρ c (Pipeline.arrRef spec4 (0 : Fin cfg4.W)) = Stages.segsum (m ((c.tc : Thread nD τ).loc main_arg1)) (A1 m ρ c) :=
  W13_v66 m ρ c
theorem entry4_1 : Gen.V13 m ρ c (Pipeline.arrRef spec4 (1 : Fin cfg4.W)) = Stages.cntInv (m ((c.tc : Thread nD τ).loc main_arg1)) :=
  W13_v12 m ρ c
theorem entry4_2 : Gen.V13 m ρ c (Pipeline.arrRef spec4 (2 : Fin cfg4.W)) = (A1 m ρ c) :=
  W13_v56 m ρ c
theorem entry4_3 : Gen.V13 m ρ c (Pipeline.arrRef spec4 (3 : Fin cfg4.W)) = (m ((c.tc : Thread nD τ).loc main_arg12)) :=
  W13_arg12 m ρ c
theorem entry4_4 : Gen.V13 m ρ c (Pipeline.arrRef spec4 (4 : Fin cfg4.W)) = Stages.rowOf47 (m ((c.tc : Thread nD τ).loc main_arg13)) :=
  W13_v67 m ρ c
theorem entry4_5 : Gen.V13 m ρ c (Pipeline.arrRef spec4 (5 : Fin cfg4.W)) = (m ((c.tc : Thread nD τ).loc main_arg14)) :=
  W13_arg14 m ρ c

/-- The result buffer after the last region: what region 4's write-backs leave in its output array. -/
theorem result : Gen.W14 m ρ c (Proc.devRef .tc main_v68) = (Gen.dat4 (Gen.V13 m ρ) c).arrAt 6 cfg4.N :=
  Gen.W14_arr m ρ c 6

end Walk

end Cert.KernelIdeal.KerEntry

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.LibSageLayer.lean ====
/-
  One SAGE layer's linear part, entry by entry, at the ideal values.

  For a matrix s of neighbour sums (M rows, K columns), a column n of reciprocal neighbour counts, the nodes' own
  features x (M rows, K columns), two weight matrices Wl, Wr (K rows, N columns) and a bias row b,

      lin s n x Wl b Wr (a, q) = ((∑ c, (s(a, c) · n(a, 0)) · Wl(c, q)) + b(0, q)) + ∑ c, x(a, c) · Wr(c, q).

  The operations are kept in exactly this order and association. Every entry reads row a of s, of n and of x only, so
  a block of rows of the value is the same function of the same rows of the operands (`lin_rows`): that is what lets a
  program compute it block by block.
-/
import proofs.«127273_j90726889160781_2_alg».proof.Proof.LibGraphLayer

noncomputable section

namespace Cert.Sage

open Idealize.ShloMosaic Idealize.ShloMosaic.ValueIdx Cert.GraphLayer

variable {M K N : Nat}

/-- The plain product of an M×K by a K×N matrix, entry by entry. -/
def mm (y : FVec Ideal ⟨2, ![M, K]⟩ .f32) (W : FVec Ideal ⟨2, ![K, N]⟩ .f32) : FVec Ideal ⟨2, ![M, N]⟩ .f32 :=
  fun i => ∑ c : Fin K, y (ix2 (show Fin M from i 0) c) * W (ix2 c (show Fin N from i 1))

theorem mm_apply (y : FVec Ideal ⟨2, ![M, K]⟩ .f32) (W : FVec Ideal ⟨2, ![K, N]⟩ .f32) (a : Fin M) (q : Fin N) :
    mm y W (ix2 a q) = ∑ c : Fin K, y (ix2 a c) * W (ix2 c q) := rfl

/-- An entry of the product reads one row of its first operand. -/
theorem mm_rows {R : Nat} (Y : FVec Ideal ⟨2, ![M, K]⟩ .f32) (yb : FVec Ideal ⟨2, ![R, K]⟩ .f32)
    (W : FVec Ideal ⟨2, ![K, N]⟩ .f32) (a : Fin R) (A : Fin M) (q : Fin N)
    (hy : ∀ c : Fin K, yb (ix2 a c) = Y (ix2 A c)) : mm yb W (ix2 a q) = mm Y W (ix2 A q) := by
  rw [mm_apply, mm_apply]
  exact Finset.sum_congr rfl fun c _ => by rw [hy c]

/-- The layer's linear part: the scaled neighbour sums times Wl, plus the bias row, plus the own features times Wr. -/
def lin (s : FVec Ideal ⟨2, ![M, K]⟩ .f32) (n : FVec Ideal ⟨2, ![M, 1]⟩ .f32) (x : FVec Ideal ⟨2, ![M, K]⟩ .f32)
    (Wl : FVec Ideal ⟨2, ![K, N]⟩ .f32) (b : FVec Ideal ⟨2, ![1, N]⟩ .f32) (Wr : FVec Ideal ⟨2, ![K, N]⟩ .f32) :
    FVec Ideal ⟨2, ![M, N]⟩ .f32 :=
  addf (affine (scaleRows s n) Wl b) (mm x Wr)

theorem lin_apply (s : FVec Ideal ⟨2, ![M, K]⟩ .f32) (n : FVec Ideal ⟨2, ![M, 1]⟩ .f32) (x : FVec Ideal ⟨2, ![M, K]⟩ .f32)
    (Wl : FVec Ideal ⟨2, ![K, N]⟩ .f32) (b : FVec Ideal ⟨2, ![1, N]⟩ .f32) (Wr : FVec Ideal ⟨2, ![K, N]⟩ .f32)
    (a : Fin M) (q : Fin N) :
    lin s n x Wl b Wr (ix2 a q) = affine (scaleRows s n) Wl b (ix2 a q) + mm x Wr (ix2 a q) := rfl

/-- Row by row: if row a of the block operands is row A of the whole operands, the two values agree at that row. -/
theorem lin_rows {R : Nat} (S : FVec Ideal ⟨2, ![M, K]⟩ .f32) (C : FVec Ideal ⟨2, ![M, 1]⟩ .f32) (X : FVec Ideal ⟨2, ![M, K]⟩ .f32)
    (sb : FVec Ideal ⟨2, ![R, K]⟩ .f32) (cb : FVec Ideal ⟨2, ![R, 1]⟩ .f32) (xb : FVec Ideal ⟨2, ![R, K]⟩ .f32)
    (Wl : FVec Ideal ⟨2, ![K, N]⟩ .f32) (b : FVec Ideal ⟨2, ![1, N]⟩ .f32) (Wr : FVec Ideal ⟨2, ![K, N]⟩ .f32)
    (a : Fin R) (A : Fin M) (q : Fin N)
    (hs : ∀ c : Fin K, sb (ix2 a c) = S (ix2 A c)) (hc : cb (ix2 a (0 : Fin 1)) = C (ix2 A (0 : Fin 1)))
    (hx : ∀ c : Fin K, xb (ix2 a c) = X (ix2 A c)) :
    lin sb cb xb Wl b Wr (ix2 a q) = lin S C X Wl b Wr (ix2 A q) := by
  rw [lin_apply, lin_apply, mm_rows X xb Wr a A q hx,
    affine_rows (scaleRows S C) (scaleRows sb cb) Wl b a A q fun c => scaleRows_rows S C sb cb a A c (hs c) hc]

/-- The tile's spelling: the neighbour sums scaled by the broadcast column, both factors of each product rounded to
    bf16 (the identity at the ideal values) and multiplied into a zero accumulator, the bias row broadcast down. -/
theorem tile_lin (D : DotDims ⟨2, ![M, K]⟩ ⟨2, ![K, N]⟩ ⟨2, ![M, N]⟩) (hD : D = DotDims.plain M K N)
    (hbits : FTy.bits .bf16 < FTy.bits .f32)
    (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (h1 : (⟨2, ![1, N]⟩ : Shape).ShapeCasts ⟨2, ![1, N]⟩) (hb1 : (⟨2, ![1, N]⟩ : Shape).Broadcasts ⟨2, ![M, N]⟩)
    (s : FVec Ideal ⟨2, ![M, K]⟩ .f32) (n : FVec Ideal ⟨2, ![M, 1]⟩ .f32) (x : FVec Ideal ⟨2, ![M, K]⟩ .f32)
    (Wl : FVec Ideal ⟨2, ![K, N]⟩ .f32) (b : FVec Ideal ⟨2, ![1, N]⟩ .f32) (Wr : FVec Ideal ⟨2, ![K, N]⟩ .f32) :
    addf (addf (matmul D none (truncf .bf16 (mulf (shapeCast ⟨2, ![M, K]⟩ s h) (broadcastTo ⟨2, ![M, K]⟩ (shapeCast ⟨2, ![M, 1]⟩ n h') hb)) hbits)
            (truncf .bf16 Wl hbits) (constant (F := Ideal) ⟨2, ![M, N]⟩ .f32 0x00000000#32))
          (broadcastTo ⟨2, ![M, N]⟩ (shapeCast ⟨2, ![1, N]⟩ b h1) hb1))
      (matmul D none (truncf .bf16 x hbits) (truncf .bf16 Wr hbits) (constant (F := Ideal) ⟨2, ![M, N]⟩ .f32 0x00000000#32))
      = lin s n x Wl b Wr := by
  rw [tile_scale h h' hb s n, tile_affine D hD hbits h1 hb1 (scaleRows s n) Wl b]
  subst hD
  funext j
  obtain ⟨a, q, rfl⟩ : ∃ (a : Fin M) (q : Fin N), j = ix2 a q := ⟨j 0, j 1, eq_ix2 j⟩
  rw [lin_apply, addf_apply, mm_apply, matmul_plain_zero_apply]
  rfl

end Cert.Sage

end
-- ==== Proof.Region0.lean ====
/-
  What pallas_call region 0 leaves in its output array, as one function of the arrays it is entered with.

  The region walks 20 blocks of 5000 rows. At a block it computes the layer's linear part `Cert.Sage.lin` of the block's
  rows of the neighbour sums, of the reciprocal-count column and of the node features, with the whole weight matrices and
  the whole bias row. Every entry of `lin` reads one row of those three operands only, so block t of the result is rows
  5000·t … 5000·t + 4999 of `lin` of the whole arrays, and the 20 blocks tile the 100000 rows.
-/
import proofs.«127273_j90726889160781_2_alg».proof.Proof.Gen.KernelIdeal.Frame
import proofs.«127273_j90726889160781_2_alg».proof.Proof.LibSageLayer
import Idealize.ShloMosaic.Lib.Pipeline.Value
import Idealize.ShloMosaic.PureOps.Ideal

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer's linear part of the block's operands. -/
theorem pay_eq (s : Vec Ideal S5000x128 .f32) (n : Vec Ideal S5000x1 .f32) (x : Vec Ideal S5000x128 .f32)
    (wl wr : Vec Ideal S128x128 .f32) (b : Vec Ideal S1x128 .f32) :
    k0_pay1 (F := Ideal) s n x wl wr b = lin (M := 5000) (K := 128) (N := 128) s n x wl b wr :=
  tile_lin dot_S5000x128_S128x128_S5000x128_1_0_0_1_n_n rfl bitsLt_bf16_f32 shapeCasts_S5000x128_S5000x128
    shapeCasts_S5000x1_S5000x1 broadcasts_S5000x1_S5000x128 shapeCasts_S1x128_S1x128 broadcasts_S1x128_S5000x128 s n x wl b wr

/-- The printed block-index maps over the 20 grid points: the three row-blocked inputs move with the output's row
    block, the weights and the bias row stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every one of the 20 row blocks is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-! ## The input blocks, read off the arrays -/

/-- Row a of the neighbour-sum block at point t is row 5000·t + a of the array. -/
theorem iblk_s (c : Dev nD) (t : Fin cfg0.N) (a : Fin 5000) (q : Fin 128) (A : Fin 100000)
    (hA : A.val = win0_6.index t (0 : Fin 2) * 5000 + a.val) :
    iblk0 V c 0 t (ix2 a q) = V c main_v22 (ix2 A q) := by
  obtain ⟨e0, e1, -⟩ := idx_facts t
  show V c main_v22 (((cfg0.win 0).blk t).view.emb (ix2 a q)) = V c main_v22 (ix2 A q)
  refine congrArg _ ?_
  funext ax; apply Fin.ext
  match ax with
  | ⟨0, _⟩ => show win0_0.index t (0 : Fin 2) * 5000 + 1 * a.val = A.val; omega
  | ⟨1, _⟩ => show win0_0.index t (1 : Fin 2) * 128 + 1 * q.val = q.val; omega

/-- Row a of the reciprocal-count block at point t is row 5000·t + a of the column. -/
theorem iblk_n (c : Dev nD) (t : Fin cfg0.N) (a : Fin 5000) (A : Fin 100000)
    (hA : A.val = win0_6.index t (0 : Fin 2) * 5000 + a.val) :
    iblk0 V c 1 t (ix2 a (0 : Fin 1)) = V c main_v12 (ix2 A (0 : Fin 1)) := by
  obtain ⟨-, -, e0, e1, -⟩ := idx_facts t
  show V c main_v12 (((cfg0.win 1).blk t).view.emb (ix2 a (0 : Fin 1))) = V c main_v12 (ix2 A (0 : Fin 1))
  refine congrArg _ ?_
  funext ax; apply Fin.ext
  match ax with
  | ⟨0, _⟩ => show win0_1.index t (0 : Fin 2) * 5000 + 1 * a.val = A.val; omega
  | ⟨1, _⟩ => show win0_1.index t (1 : Fin 2) * 1 + 1 * 0 = 0; omega

/-- Row a of the feature block at point t is row 5000·t + a of the array. -/
theorem iblk_x (c : Dev nD) (t : Fin cfg0.N) (a : Fin 5000) (q : Fin 128) (A : Fin 100000)
    (hA : A.val = win0_6.index t (0 : Fin 2) * 5000 + a.val) :
    iblk0 V c 2 t (ix2 a q) = V c main_arg0 (ix2 A q) := by
  obtain ⟨-, -, -, -, e0, e1, -⟩ := idx_facts t
  show V c main_arg0 (((cfg0.win 2).blk t).view.emb (ix2 a q)) = V c main_arg0 (ix2 A q)
  refine congrArg _ ?_
  funext ax; apply Fin.ext
  match ax with
  | ⟨0, _⟩ => show win0_2.index t (0 : Fin 2) * 5000 + 1 * a.val = A.val; omega
  | ⟨1, _⟩ => show win0_2.index t (1 : Fin 2) * 128 + 1 * q.val = q.val; omega

/-- The left weight matrix is staged whole at every point. -/
theorem iblk_wl (c : Dev nD) (t : Fin cfg0.N) : iblk0 V c 3 t = V c main_arg2 := by
  obtain ⟨-, -, -, -, -, -, e0, e1, -⟩ := idx_facts t
  funext y
  show V c main_arg2 (((cfg0.win 3).blk t).view.emb y) = V c main_arg2 y
  refine congrArg _ ?_
  funext ax; apply Fin.ext
  match ax with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row is staged whole at every point. -/
theorem iblk_b (c : Dev nD) (t : Fin cfg0.N) : iblk0 V c 4 t = V c main_v23 := by
  obtain ⟨-, -, -, -, -, -, -, -, e0, e1, -⟩ := idx_facts t
  funext y
  show V c main_v23 (((cfg0.win 4).blk t).view.emb y) = V c main_v23 y
  refine congrArg _ ?_
  funext ax; apply Fin.ext
  match ax with
  | ⟨0, _⟩ => show win0_4.index t (0 : Fin 2) * 1 + 1 * (y 0).val = (y 0).val; omega
  | ⟨1, _⟩ => show win0_4.index t (1 : Fin 2) * 128 + 1 * (y 1).val = (y 1).val; omega

/-- The right weight matrix is staged whole at every point. -/
theorem iblk_wr (c : Dev nD) (t : Fin cfg0.N) : iblk0 V c 5 t = V c main_arg4 := by
  obtain ⟨-, -, -, -, -, -, -, -, -, -, e0, e1, -⟩ := idx_facts t
  funext y
  show V c main_arg4 (((cfg0.win 5).blk t).view.emb y) = V c main_arg4 y
  refine congrArg _ ?_
  funext ax; apply Fin.ext
  match ax with
  | ⟨0, _⟩ => show win0_5.index t (0 : Fin 2) * 128 + 1 * (y 0).val = (y 0).val; omega
  | ⟨1, _⟩ => show win0_5.index t (1 : Fin 2) * 128 + 1 * (y 1).val = (y 1).val; omega

/-! ## Blocks to the array -/

/-- The layer's linear part of the arrays the region is entered with. -/
abbrev G (c : Dev nD) : Vec Ideal S100000x128 .f32 :=
  lin (M := 100000) (K := 128) (N := 128) (V c main_v22) (V c main_v12) (V c main_arg0) (V c main_arg2) (V c main_v23) (V c main_arg4)

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay_eq, iblk_wl V c t, iblk_b V c t, iblk_wr V c t]
  refine funext fun (j : S5000x128.Idx) => ?_
  obtain ⟨a, q, rfl⟩ : ∃ (a : Fin 5000) (q : Fin 128), j = ix2 a q := ⟨j 0, j 1, eq_ix2 j⟩
  have hle : win0_6.index t (0 : Fin 2) ≤ 19 := (idx_facts t).2.2.2.2.2.2.2.2.2.2.2.2.1
  have e1 : win0_6.index t (1 : Fin 2) = 0 := (idx_facts t).2.2.2.2.2.2.2.2.2.2.2.2.2
  have hA : win0_6.index t (0 : Fin 2) * 5000 + a.val < 100000 := by have := a.isLt; omega
  have hemb : ((cfg0.win 6).blk t).view.emb (ix2 a q) = ix2 (⟨_, hA⟩ : Fin 100000) q := by
    funext ax; apply Fin.ext
    match ax with
    | ⟨0, _⟩ => show win0_6.index t (0 : Fin 2) * 5000 + 1 * a.val = win0_6.index t (0 : Fin 2) * 5000 + a.val; omega
    | ⟨1, _⟩ => show win0_6.index t (1 : Fin 2) * 128 + 1 * q.val = q.val; omega
  show lin (M := 5000) (K := 128) (N := 128) (iblk0 V c 0 t) (iblk0 V c 1 t) (iblk0 V c 2 t) (V c main_arg2) (V c main_v23) (V c main_arg4) (ix2 a q)
    = G V c (((cfg0.win 6).blk t).view.emb (ix2 a q))
  rw [hemb]
  exact lin_rows (V c main_v22) (V c main_v12) (V c main_arg0) (iblk0 V c 0 t) (iblk0 V c 1 t) (iblk0 V c 2 t)
    (V c main_arg2) (V c main_v23) (V c main_arg4) a ⟨_, hA⟩ q
    (fun c' => iblk_s V c t a c' ⟨_, hA⟩ rfl) (iblk_n V c t a ⟨_, hA⟩ rfl) (fun c' => iblk_x V c t a c' ⟨_, hA⟩ rfl)

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- The 20 row blocks cover the array: row r lies in block r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the layer's linear part of the entry arrays. -/
theorem final (c : Dev nD) : (dat0 V c).arrAt 6 cfg0.N = G V c :=
  (dat0 V c).arrAt_eq_of_cover 6 (G V c) (fun t _ => flushed_eq V c t) cover

end Cert.KernelIdeal.Region0

end
-- ==== Proof.LibSageNorm.lean ====
/-
  Batch normalisation followed by the ramp, entry by entry, at the ideal values.

  For a matrix h (M rows, K columns) and four rows mean, var, g, be (one row, K columns each),

      bnRelu h mean var g be (a, q) = max ((((h(a, q) − mean(0, q)) · rsqrt (var(0, q) + ε)) · g(0, q)) + be(0, q)) 0,

  with ε and 0 the extended reals that their words denote, kept as words. The operations are kept in exactly this order
  and association. Every entry reads one entry of h, at its own row, and the four rows at its own column, so a block of
  rows of the value is the same function of the same rows of h (`bnRelu_rows`): that is what lets a program compute it
  block by block.
-/
import proofs.«127273_j90726889160781_2_alg».proof.Proof.LibGraphLayer

noncomputable section

namespace Cert.Sage

open Idealize.ShloMosaic Idealize.ShloMosaic.ValueIdx Cert.GraphLayer

variable {M K : Nat}

/-- The extended real that the word of the variance's offset (the float nearest 1e-5) denotes, kept as its word. -/
abbrev epsWord : EReal := Ideal.ofBits .f32 0x3727C5AC#32

/-- Normalise by the mean and the variance rows, scale and shift by g and be, then the maximum with zero. -/
def bnRelu (h : FVec Ideal ⟨2, ![M, K]⟩ .f32) (mean var g be : FVec Ideal ⟨2, ![1, K]⟩ .f32) : FVec Ideal ⟨2, ![M, K]⟩ .f32 :=
  fun i => max ((((h i - mean (ix2 (0 : Fin 1) (show Fin K from i 1)))
      * Ideal.rsqrt (var (ix2 (0 : Fin 1) (show Fin K from i 1)) + epsWord))
      * g (ix2 (0 : Fin 1) (show Fin K from i 1))) + be (ix2 (0 : Fin 1) (show Fin K from i 1))) zeroWord

theorem bnRelu_apply (h : FVec Ideal ⟨2, ![M, K]⟩ .f32) (mean var g be : FVec Ideal ⟨2, ![1, K]⟩ .f32) (a : Fin M) (q : Fin K) :
    bnRelu h mean var g be (ix2 a q)
      = max ((((h (ix2 a q) - mean (ix2 (0 : Fin 1) q)) * Ideal.rsqrt (var (ix2 (0 : Fin 1) q) + epsWord))
          * g (ix2 (0 : Fin 1) q)) + be (ix2 (0 : Fin 1) q)) zeroWord := rfl

/-- Row by row: if the block's entry (a, q) is H's entry (A, q), the two values agree there; the four rows are shared. -/
theorem bnRelu_rows {R : Nat} (H : FVec Ideal ⟨2, ![M, K]⟩ .f32) (hb : FVec Ideal ⟨2, ![R, K]⟩ .f32)
    (mean var g be : FVec Ideal ⟨2, ![1, K]⟩ .f32) (a : Fin R) (A : Fin M) (q : Fin K)
    (hh : hb (ix2 a q) = H (ix2 A q)) :
    bnRelu hb mean var g be (ix2 a q) = bnRelu H mean var g be (ix2 A q) := by
  rw [bnRelu_apply, bnRelu_apply, hh]

/-- The tile's spelling: the variance row plus the scalar ε spread over the row, its reciprocal square root, the mean
    row broadcast down the tile and subtracted, the product with the broadcast reciprocal root, the product with the
    broadcast g, the broadcast be added, and the maximum with the scalar zero spread over the tile. -/
theorem tile_bnRelu (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩)
    (h : FVec Ideal ⟨2, ![M, K]⟩ .f32) (mean var g be : FVec Ideal ⟨2, ![1, K]⟩ .f32) :
    maximumf
        (addf
          (mulf
            (mulf
              (subf (shapeCast ⟨2, ![M, K]⟩ h h0) (broadcastTo ⟨2, ![M, K]⟩ (shapeCast ⟨2, ![1, K]⟩ mean h1) hb))
              (broadcastTo ⟨2, ![M, K]⟩
                (rsqrt (addf (shapeCast ⟨2, ![1, K]⟩ var h1)
                  (broadcast ⟨2, ![1, K]⟩ (Scalar.ofBits (F := Ideal) .f32 0x3727C5AC#32)))) hb))
            (broadcastTo ⟨2, ![M, K]⟩ (shapeCast ⟨2, ![1, K]⟩ g h1) hb))
          (broadcastTo ⟨2, ![M, K]⟩ (shapeCast ⟨2, ![1, K]⟩ be h1) hb))
        (broadcast ⟨2, ![M, K]⟩ (Scalar.ofBits (F := Ideal) .f32 0x00000000#32))
      = bnRelu h mean var g be := by
  rw [shapeCast_self h h0, shapeCast_self mean h1, shapeCast_self var h1, shapeCast_self g h1, shapeCast_self be h1]
  funext j
  obtain ⟨a, q, rfl⟩ : ∃ (a : Fin M) (q : Fin K), j = ix2 a q := ⟨j 0, j 1, eq_ix2 j⟩
  rw [bnRelu_apply, maximumf_apply, addf_apply, mulf_apply, mulf_apply, subf_apply, broadcastTo_1b_ab_apply mean hb,
    broadcastTo_1b_ab_apply _ hb, broadcastTo_1b_ab_apply g hb, broadcastTo_1b_ab_apply be hb, broadcast_apply]
  rfl

end Cert.Sage

end
-- ==== Proof.Region1.lean ====
/-
  What pallas_call region 1 leaves in its output array, as one function of the arrays it is entered with.

  The region walks 20 blocks of 5000 rows. At a block it computes the normalisation followed by the ramp,
  `Cert.Sage.bnRelu`, of the block's rows of the layer's linear output, with the whole mean, variance, scale and shift
  rows. Every entry of `bnRelu` reads one entry of its first operand, at its own row, so block t of the result is rows
  5000·t … 5000·t + 4999 of `bnRelu` of the whole arrays, and the 20 blocks tile the 100000 rows.
-/
import proofs.«127273_j90726889160781_2_alg».proof.Proof.Gen.KernelIdeal.Frame
import proofs.«127273_j90726889160781_2_alg».proof.Proof.LibSageNorm
import Idealize.ShloMosaic.Lib.Pipeline.Value
import Idealize.ShloMosaic.PureOps.Ideal

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the normalisation and ramp of the block's rows: the body reads the variance row
    before the mean row, the function takes the mean first. -/
theorem pay_eq (h : Vec Ideal S5000x128 .f32) (vr mn g be : Vec Ideal S1x128 .f32) :
    k1_pay1 (F := Ideal) h vr mn g be = bnRelu (M := 5000) (K := 128) h mn vr g be :=
  tile_bnRelu shapeCasts_S5000x128_S5000x128 shapeCasts_S1x128_S1x128 broadcasts_S1x128_S5000x128 h mn vr g be

/-- The printed block-index maps over the 20 grid points: the row-blocked input moves with the output's row block, the
    four rows stay at block (0, 0). -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every one of the 20 row blocks is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-! ## The input blocks, read off the arrays -/

/-- Row a of the linear output's block at point t is row 5000·t + a of the array. -/
theorem iblk_h (c : Dev nD) (t : Fin cfg1.N) (a : Fin 5000) (q : Fin 128) (A : Fin 100000)
    (hA : A.val = win1_5.index t (0 : Fin 2) * 5000 + a.val) :
    iblk1 V c 0 t (ix2 a q) = V c main_v24 (ix2 A q) := by
  obtain ⟨e0, e1, -⟩ := idx_facts t
  show V c main_v24 (((cfg1.win 0).blk t).view.emb (ix2 a q)) = V c main_v24 (ix2 A q)
  refine congrArg _ ?_
  funext ax; apply Fin.ext
  match ax with
  | ⟨0, _⟩ => show win1_0.index t (0 : Fin 2) * 5000 + 1 * a.val = A.val; omega
  | ⟨1, _⟩ => show win1_0.index t (1 : Fin 2) * 128 + 1 * q.val = q.val; omega

/-- The mean row is staged whole at every point. -/
theorem iblk_mean (c : Dev nD) (t : Fin cfg1.N) : iblk1 V c 1 t = V c main_v28 := by
  have e0 : win1_1.index t (0 : Fin 2) = 0 := (idx_facts t).2.2.1
  have e1 : win1_1.index t (1 : Fin 2) = 0 := (idx_facts t).2.2.2.1
  funext y
  show V c main_v28 (((cfg1.win 1).blk t).view.emb y) = V c main_v28 y
  refine congrArg _ ?_
  funext ax; apply Fin.ext
  match ax with
  | ⟨0, _⟩ => show win1_1.index t (0 : Fin 2) * 1 + 1 * (y 0).val = (y 0).val; omega
  | ⟨1, _⟩ => show win1_1.index t (1 : Fin 2) * 128 + 1 * (y 1).val = (y 1).val; omega

/-- The variance row is staged whole at every point. -/
theorem iblk_var (c : Dev nD) (t : Fin cfg1.N) : iblk1 V c 2 t = V c main_v31 := by
  have e0 : win1_2.index t (0 : Fin 2) = 0 := (idx_facts t).2.2.2.2.1
  have e1 : win1_2.index t (1 : Fin 2) = 0 := (idx_facts t).2.2.2.2.2.1
  funext y
  show V c main_v31 (((cfg1.win 2).blk t).view.emb y) = V c main_v31 y
  refine congrArg _ ?_
  funext ax; apply Fin.ext
  match ax with
  | ⟨0, _⟩ => show win1_2.index t (0 : Fin 2) * 1 + 1 * (y 0).val = (y 0).val; omega
  | ⟨1, _⟩ => show win1_2.index t (1 : Fin 2) * 128 + 1 * (y 1).val = (y 1).val; omega

/-- The scale row is staged whole at every point. -/
theorem iblk_g (c : Dev nD) (t : Fin cfg1.N) : iblk1 V c 3 t = V c main_v32 := by
  have e0 : win1_3.index t (0 : Fin 2) = 0 := (idx_facts t).2.2.2.2.2.2.1
  have e1 : win1_3.index t (1 : Fin 2) = 0 := (idx_facts t).2.2.2.2.2.2.2.1
  funext y
  show V c main_v32 (((cfg1.win 3).blk t).view.emb y) = V c main_v32 y
  refine congrArg _ ?_
  funext ax; apply Fin.ext
  match ax with
  | ⟨0, _⟩ => show win1_3.index t (0 : Fin 2) * 1 + 1 * (y 0).val = (y 0).val; omega
  | ⟨1, _⟩ => show win1_3.index t (1 : Fin 2) * 128 + 1 * (y 1).val = (y 1).val; omega

/-- The shift row is staged whole at every point. -/
theorem iblk_be (c : Dev nD) (t : Fin cfg1.N) : iblk1 V c 4 t = V c main_v33 := by
  have e0 : win1_4.index t (0 : Fin 2) = 0 := (idx_facts t).2.2.2.2.2.2.2.2.1
  have e1 : win1_4.index t (1 : Fin 2) = 0 := (idx_facts t).2.2.2.2.2.2.2.2.2.1
  funext y
  show V c main_v33 (((cfg1.win 4).blk t).view.emb y) = V c main_v33 y
  refine congrArg _ ?_
  funext ax; apply Fin.ext
  match ax with
  | ⟨0, _⟩ => show win1_4.index t (0 : Fin 2) * 1 + 1 * (y 0).val = (y 0).val; omega
  | ⟨1, _⟩ => show win1_4.index t (1 : Fin 2) * 128 + 1 * (y 1).val = (y 1).val; omega

/-! ## Blocks to the array -/

/-- The normalisation and ramp of the arrays the region is entered with. -/
abbrev G (c : Dev nD) : Vec Ideal S100000x128 .f32 :=
  bnRelu (M := 100000) (K := 128) (V c main_v24) (V c main_v28) (V c main_v31) (V c main_v32) (V c main_v33)

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  rw [pay_eq, iblk_mean V c t, iblk_var V c t, iblk_g V c t, iblk_be V c t]
  refine funext fun (j : S5000x128.Idx) => ?_
  obtain ⟨a, q, rfl⟩ : ∃ (a : Fin 5000) (q : Fin 128), j = ix2 a q := ⟨j 0, j 1, eq_ix2 j⟩
  have hle : win1_5.index t (0 : Fin 2) ≤ 19 := (idx_facts t).2.2.2.2.2.2.2.2.2.2.1
  have e1 : win1_5.index t (1 : Fin 2) = 0 := (idx_facts t).2.2.2.2.2.2.2.2.2.2.2
  have hA : win1_5.index t (0 : Fin 2) * 5000 + a.val < 100000 := by have := a.isLt; omega
  have hemb : ((cfg1.win 5).blk t).view.emb (ix2 a q) = ix2 (⟨_, hA⟩ : Fin 100000) q := by
    funext ax; apply Fin.ext
    match ax with
    | ⟨0, _⟩ => show win1_5.index t (0 : Fin 2) * 5000 + 1 * a.val = win1_5.index t (0 : Fin 2) * 5000 + a.val; omega
    | ⟨1, _⟩ => show win1_5.index t (1 : Fin 2) * 128 + 1 * q.val = q.val; omega
  show bnRelu (M := 5000) (K := 128) (iblk1 V c 0 t) (V c main_v28) (V c main_v31) (V c main_v32) (V c main_v33) (ix2 a q)
    = G V c (((cfg1.win 5).blk t).view.emb (ix2 a q))
  rw [hemb]
  exact bnRelu_rows (V c main_v24) (iblk1 V c 0 t) (V c main_v28) (V c main_v31) (V c main_v32) (V c main_v33) a ⟨_, hA⟩ q
    (iblk_h V c t a q ⟨_, hA⟩ rfl)

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v34).slice (win1_5.rect t)).set ↔ _
  rw [View.set_slice_whole, Rect.mem_set_unit]
  exact Iff.rfl

/-- The 20 row blocks cover the array: row r lies in block r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the normalisation and ramp of the entry arrays. -/
theorem final (c : Dev nD) : (dat1 V c).arrAt 5 cfg1.N
    = bnRelu (M := 100000) (K := 128) (V c main_v24) (V c main_v28) (V c main_v31) (V c main_v32) (V c main_v33) :=
  (dat1 V c).arrAt_eq_of_cover 5 (G V c) (fun t _ => flushed_eq V c t) cover

end Cert.KernelIdeal.Region1

end
-- ==== Proof.Region2.lean ====
/-
  What pallas_call region 2 leaves in its output array, as one function of the arrays it is entered with.

  The region walks 20 blocks of 5000 rows. At a block it computes the layer's linear part `Cert.Sage.lin` of the block's
  rows of the neighbour sums, of the reciprocal-count column and of the node features, with the whole weight matrices and
  the whole bias row. Every entry of `lin` reads one row of those three operands only, so block t of the result is rows
  5000·t … 5000·t + 4999 of `lin` of the whole arrays, and the 20 blocks tile the 100000 rows.
-/
import proofs.«127273_j90726889160781_2_alg».proof.Proof.Gen.KernelIdeal.Frame
import proofs.«127273_j90726889160781_2_alg».proof.Proof.LibSageLayer
import Idealize.ShloMosaic.Lib.Pipeline.Value
import Idealize.ShloMosaic.PureOps.Ideal

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer's linear part of the block's operands. -/
theorem pay_eq (s : Vec Ideal S5000x128 .f32) (n : Vec Ideal S5000x1 .f32) (x : Vec Ideal S5000x128 .f32)
    (wl wr : Vec Ideal S128x128 .f32) (b : Vec Ideal S1x128 .f32) :
    k2_pay1 (F := Ideal) s n x wl wr b = lin (M := 5000) (K := 128) (N := 128) s n x wl b wr := by
  unfold k2_pay1
  dsimp only
  rw [shapeCast_self x shapeCasts_S5000x128_S5000x128]
  exact tile_lin dot_S5000x128_S128x128_S5000x128_1_0_0_1_n_n rfl bitsLt_bf16_f32 shapeCasts_S5000x128_S5000x128
    shapeCasts_S5000x1_S5000x1 broadcasts_S5000x1_S5000x128 shapeCasts_S1x128_S1x128 broadcasts_S1x128_S5000x128 s n x wl b wr

/-- The printed block-index maps over the 20 grid points: the three row-blocked inputs move with the output's row
    block, the weights and the bias row stay at block (0, 0). -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every one of the 20 row blocks is some point's. -/
theorem idx_onto : ∀ q0 : Fin 20, ∃ t : Fin cfg2.N, win2_6.index t = ![q0.val, 0] :=
  (by decide +kernel : ∀ q0 : Fin 20, ∃ t : Fin grid2.N, win2_6.index t = ![q0.val, 0])

/-! ## The input blocks, read off the arrays -/

/-- Row a of the neighbour-sum block at point t is row 5000·t + a of the array. -/
theorem iblk_s (c : Dev nD) (t : Fin cfg2.N) (a : Fin 5000) (q : Fin 128) (A : Fin 100000)
    (hA : A.val = win2_6.index t (0 : Fin 2) * 5000 + a.val) :
    iblk2 V c 0 t (ix2 a q) = V c main_v44 (ix2 A q) := by
  obtain ⟨e0, e1, -⟩ := idx_facts t
  show V c main_v44 (((cfg2.win 0).blk t).view.emb (ix2 a q)) = V c main_v44 (ix2 A q)
  refine congrArg _ ?_
  funext ax; apply Fin.ext
  match ax with
  | ⟨0, _⟩ => show win2_0.index t (0 : Fin 2) * 5000 + 1 * a.val = A.val; omega
  | ⟨1, _⟩ => show win2_0.index t (1 : Fin 2) * 128 + 1 * q.val = q.val; omega

/-- Row a of the reciprocal-count block at point t is row 5000·t + a of the column. -/
theorem iblk_n (c : Dev nD) (t : Fin cfg2.N) (a : Fin 5000) (A : Fin 100000)
    (hA : A.val = win2_6.index t (0 : Fin 2) * 5000 + a.val) :
    iblk2 V c 1 t (ix2 a (0 : Fin 1)) = V c main_v12 (ix2 A (0 : Fin 1)) := by
  obtain ⟨-, -, e0, e1, -⟩ := idx_facts t
  show V c main_v12 (((cfg2.win 1).blk t).view.emb (ix2 a (0 : Fin 1))) = V c main_v12 (ix2 A (0 : Fin 1))
  refine congrArg _ ?_
  funext ax; apply Fin.ext
  match ax with
  | ⟨0, _⟩ => show win2_1.index t (0 : Fin 2) * 5000 + 1 * a.val = A.val; omega
  | ⟨1, _⟩ => show win2_1.index t (1 : Fin 2) * 1 + 1 * 0 = 0; omega

/-- Row a of the feature block at point t is row 5000·t + a of the array. -/
theorem iblk_x (c : Dev nD) (t : Fin cfg2.N) (a : Fin 5000) (q : Fin 128) (A : Fin 100000)
    (hA : A.val = win2_6.index t (0 : Fin 2) * 5000 + a.val) :
    iblk2 V c 2 t (ix2 a q) = V c main_v34 (ix2 A q) := by
  obtain ⟨-, -, -, -, e0, e1, -⟩ := idx_facts t
  show V c main_v34 (((cfg2.win 2).blk t).view.emb (ix2 a q)) = V c main_v34 (ix2 A q)
  refine congrArg _ ?_
  funext ax; apply Fin.ext
  match ax with
  | ⟨0, _⟩ => show win2_2.index t (0 : Fin 2) * 5000 + 1 * a.val = A.val; omega
  | ⟨1, _⟩ => show win2_2.index t (1 : Fin 2) * 128 + 1 * q.val = q.val; omega

/-- The left weight matrix is staged whole at every point. -/
theorem iblk_wl (c : Dev nD) (t : Fin cfg2.N) : iblk2 V c 3 t = V c main_arg7 := by
  obtain ⟨-, -, -, -, -, -, e0, e1, -⟩ := idx_facts t
  funext y
  show V c main_arg7 (((cfg2.win 3).blk t).view.emb y) = V c main_arg7 y
  refine congrArg _ ?_
  funext ax; apply Fin.ext
  match ax with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row is staged whole at every point. -/
theorem iblk_b (c : Dev nD) (t : Fin cfg2.N) : iblk2 V c 4 t = V c main_v45 := by
  obtain ⟨-, -, -, -, -, -, -, -, e0, e1, -⟩ := idx_facts t
  funext y
  show V c main_v45 (((cfg2.win 4).blk t).view.emb y) = V c main_v45 y
  refine congrArg _ ?_
  funext ax; apply Fin.ext
  match ax with
  | ⟨0, _⟩ => show win2_4.index t (0 : Fin 2) * 1 + 1 * (y 0).val = (y 0).val; omega
  | ⟨1, _⟩ => show win2_4.index t (1 : Fin 2) * 128 + 1 * (y 1).val = (y 1).val; omega

/-- The right weight matrix is staged whole at every point. -/
theorem iblk_wr (c : Dev nD) (t : Fin cfg2.N) : iblk2 V c 5 t = V c main_arg9 := by
  obtain ⟨-, -, -, -, -, -, -, -, -, -, e0, e1, -⟩ := idx_facts t
  funext y
  show V c main_arg9 (((cfg2.win 5).blk t).view.emb y) = V c main_arg9 y
  refine congrArg _ ?_
  funext ax; apply Fin.ext
  match ax with
  | ⟨0, _⟩ => show win2_5.index t (0 : Fin 2) * 128 + 1 * (y 0).val = (y 0).val; omega
  | ⟨1, _⟩ => show win2_5.index t (1 : Fin 2) * 128 + 1 * (y 1).val = (y 1).val; omega

/-! ## Blocks to the array -/

/-- The layer's linear part of the arrays the region is entered with. -/
abbrev G (c : Dev nD) : Vec Ideal S100000x128 .f32 :=
  lin (M := 100000) (K := 128) (N := 128) (V c main_v44) (V c main_v12) (V c main_v34) (V c main_arg7) (V c main_v45) (V c main_arg9)

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  rw [pay_eq, iblk_wl V c t, iblk_b V c t, iblk_wr V c t]
  refine funext fun (j : S5000x128.Idx) => ?_
  obtain ⟨a, q, rfl⟩ : ∃ (a : Fin 5000) (q : Fin 128), j = ix2 a q := ⟨j 0, j 1, eq_ix2 j⟩
  have hle : win2_6.index t (0 : Fin 2) ≤ 19 := (idx_facts t).2.2.2.2.2.2.2.2.2.2.2.2.1
  have e1 : win2_6.index t (1 : Fin 2) = 0 := (idx_facts t).2.2.2.2.2.2.2.2.2.2.2.2.2
  have hA : win2_6.index t (0 : Fin 2) * 5000 + a.val < 100000 := by have := a.isLt; omega
  have hemb : ((cfg2.win 6).blk t).view.emb (ix2 a q) = ix2 (⟨_, hA⟩ : Fin 100000) q := by
    funext ax; apply Fin.ext
    match ax with
    | ⟨0, _⟩ => show win2_6.index t (0 : Fin 2) * 5000 + 1 * a.val = win2_6.index t (0 : Fin 2) * 5000 + a.val; omega
    | ⟨1, _⟩ => show win2_6.index t (1 : Fin 2) * 128 + 1 * q.val = q.val; omega
  show lin (M := 5000) (K := 128) (N := 128) (iblk2 V c 0 t) (iblk2 V c 1 t) (iblk2 V c 2 t) (V c main_arg7) (V c main_v45) (V c main_arg9) (ix2 a q)
    = G V c (((cfg2.win 6).blk t).view.emb (ix2 a q))
  rw [hemb]
  exact lin_rows (V c main_v44) (V c main_v12) (V c main_v34) (iblk2 V c 0 t) (iblk2 V c 1 t) (iblk2 V c 2 t)
    (V c main_arg7) (V c main_v45) (V c main_arg9) a ⟨_, hA⟩ q
    (fun c' => iblk_s V c t a c' ⟨_, hA⟩ rfl) (iblk_n V c t a ⟨_, hA⟩ rfl) (fun c' => iblk_x V c t a c' ⟨_, hA⟩ rfl)

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v46).slice (win2_6.rect t)).set ↔ _
  rw [View.set_slice_whole, Rect.mem_set_unit]
  exact Iff.rfl

/-- The 20 row blocks cover the array: row r lies in block r / 5000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region: the layer's linear part of the entry arrays. -/
theorem final (c : Dev nD) : (dat2 V c).arrAt 6 cfg2.N = G V c :=
  (dat2 V c).arrAt_eq_of_cover 6 (G V c) (fun t _ => flushed_eq V c t) cover

end Cert.KernelIdeal.Region2

end
-- ==== Proof.Region3.lean ====
/-
  What pallas_call region 3 leaves in its output array, as one function of the arrays it is entered with.

  The region walks 20 blocks of 5000 rows. At a block it computes the normalisation followed by the ramp,
  `Cert.Sage.bnRelu`, of the block's rows of the layer's linear output, with the whole mean, variance, scale and shift
  rows. Every entry of `bnRelu` reads one entry of its first operand, at its own row, so block t of the result is rows
  5000·t … 5000·t + 4999 of `bnRelu` of the whole arrays, and the 20 blocks tile the 100000 rows.
-/
import proofs.«127273_j90726889160781_2_alg».proof.Proof.Gen.KernelIdeal.Frame
import proofs.«127273_j90726889160781_2_alg».proof.Proof.LibSageNorm
import Idealize.ShloMosaic.Lib.Pipeline.Value
import Idealize.ShloMosaic.PureOps.Ideal

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the normalisation and ramp of the block's rows: the body reads the variance row
    before the mean row, the function takes the mean first. -/
theorem pay_eq (h : Vec Ideal S5000x128 .f32) (vr mn g be : Vec Ideal S1x128 .f32) :
    k3_pay1 (F := Ideal) h vr mn g be = bnRelu (M := 5000) (K := 128) h mn vr g be :=
  tile_bnRelu shapeCasts_S5000x128_S5000x128 shapeCasts_S1x128_S1x128 broadcasts_S1x128_S5000x128 h mn vr g be

/-- The printed block-index maps over the 20 grid points: the row-blocked input moves with the output's row block, the
    four rows stay at block (0, 0). -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 ∧ win3_5.index t (1 : Fin 2) = 0 :=
  (by decide +kernel : ∀ t : Fin grid3.N, _)

/-- Every one of the 20 row blocks is some point's. -/
theorem idx_onto : ∀ q0 : Fin 20, ∃ t : Fin cfg3.N, win3_5.index t = ![q0.val, 0] :=
  (by decide +kernel : ∀ q0 : Fin 20, ∃ t : Fin grid3.N, win3_5.index t = ![q0.val, 0])

/-! ## The input blocks, read off the arrays -/

/-- Row a of the linear output's block at point t is row 5000·t + a of the array. -/
theorem iblk_h (c : Dev nD) (t : Fin cfg3.N) (a : Fin 5000) (q : Fin 128) (A : Fin 100000)
    (hA : A.val = win3_5.index t (0 : Fin 2) * 5000 + a.val) :
    iblk3 V c 0 t (ix2 a q) = V c main_v46 (ix2 A q) := by
  obtain ⟨e0, e1, -⟩ := idx_facts t
  show V c main_v46 (((cfg3.win 0).blk t).view.emb (ix2 a q)) = V c main_v46 (ix2 A q)
  refine congrArg _ ?_
  funext ax; apply Fin.ext
  match ax with
  | ⟨0, _⟩ => show win3_0.index t (0 : Fin 2) * 5000 + 1 * a.val = A.val; omega
  | ⟨1, _⟩ => show win3_0.index t (1 : Fin 2) * 128 + 1 * q.val = q.val; omega

/-- The mean row is staged whole at every point. -/
theorem iblk_mean (c : Dev nD) (t : Fin cfg3.N) : iblk3 V c 1 t = V c main_v50 := by
  have e0 : win3_1.index t (0 : Fin 2) = 0 := (idx_facts t).2.2.1
  have e1 : win3_1.index t (1 : Fin 2) = 0 := (idx_facts t).2.2.2.1
  funext y
  show V c main_v50 (((cfg3.win 1).blk t).view.emb y) = V c main_v50 y
  refine congrArg _ ?_
  funext ax; apply Fin.ext
  match ax with
  | ⟨0, _⟩ => show win3_1.index t (0 : Fin 2) * 1 + 1 * (y 0).val = (y 0).val; omega
  | ⟨1, _⟩ => show win3_1.index t (1 : Fin 2) * 128 + 1 * (y 1).val = (y 1).val; omega

/-- The variance row is staged whole at every point. -/
theorem iblk_var (c : Dev nD) (t : Fin cfg3.N) : iblk3 V c 2 t = V c main_v53 := by
  have e0 : win3_2.index t (0 : Fin 2) = 0 := (idx_facts t).2.2.2.2.1
  have e1 : win3_2.index t (1 : Fin 2) = 0 := (idx_facts t).2.2.2.2.2.1
  funext y
  show V c main_v53 (((cfg3.win 2).blk t).view.emb y) = V c main_v53 y
  refine congrArg _ ?_
  funext ax; apply Fin.ext
  match ax with
  | ⟨0, _⟩ => show win3_2.index t (0 : Fin 2) * 1 + 1 * (y 0).val = (y 0).val; omega
  | ⟨1, _⟩ => show win3_2.index t (1 : Fin 2) * 128 + 1 * (y 1).val = (y 1).val; omega

/-- The scale row is staged whole at every point. -/
theorem iblk_g (c : Dev nD) (t : Fin cfg3.N) : iblk3 V c 3 t = V c main_v54 := by
  have e0 : win3_3.index t (0 : Fin 2) = 0 := (idx_facts t).2.2.2.2.2.2.1
  have e1 : win3_3.index t (1 : Fin 2) = 0 := (idx_facts t).2.2.2.2.2.2.2.1
  funext y
  show V c main_v54 (((cfg3.win 3).blk t).view.emb y) = V c main_v54 y
  refine congrArg _ ?_
  funext ax; apply Fin.ext
  match ax with
  | ⟨0, _⟩ => show win3_3.index t (0 : Fin 2) * 1 + 1 * (y 0).val = (y 0).val; omega
  | ⟨1, _⟩ => show win3_3.index t (1 : Fin 2) * 128 + 1 * (y 1).val = (y 1).val; omega

/-- The shift row is staged whole at every point. -/
theorem iblk_be (c : Dev nD) (t : Fin cfg3.N) : iblk3 V c 4 t = V c main_v55 := by
  have e0 : win3_4.index t (0 : Fin 2) = 0 := (idx_facts t).2.2.2.2.2.2.2.2.1
  have e1 : win3_4.index t (1 : Fin 2) = 0 := (idx_facts t).2.2.2.2.2.2.2.2.2.1
  funext y
  show V c main_v55 (((cfg3.win 4).blk t).view.emb y) = V c main_v55 y
  refine congrArg _ ?_
  funext ax; apply Fin.ext
  match ax with
  | ⟨0, _⟩ => show win3_4.index t (0 : Fin 2) * 1 + 1 * (y 0).val = (y 0).val; omega
  | ⟨1, _⟩ => show win3_4.index t (1 : Fin 2) * 128 + 1 * (y 1).val = (y 1).val; omega

/-! ## Blocks to the array -/

/-- The normalisation and ramp of the arrays the region is entered with. -/
abbrev G (c : Dev nD) : Vec Ideal S100000x128 .f32 :=
  bnRelu (M := 100000) (K := 128) (V c main_v46) (V c main_v50) (V c main_v53) (V c main_v54) (V c main_v55)

/-- What point t writes back is block t of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  rw [pay_eq, iblk_mean V c t, iblk_var V c t, iblk_g V c t, iblk_be V c t]
  refine funext fun (j : S5000x128.Idx) => ?_
  obtain ⟨a, q, rfl⟩ : ∃ (a : Fin 5000) (q : Fin 128), j = ix2 a q := ⟨j 0, j 1, eq_ix2 j⟩
  have hle : win3_5.index t (0 : Fin 2) ≤ 19 := (idx_facts t).2.2.2.2.2.2.2.2.2.2.1
  have e1 : win3_5.index t (1 : Fin 2) = 0 := (idx_facts t).2.2.2.2.2.2.2.2.2.2.2
  have hA : win3_5.index t (0 : Fin 2) * 5000 + a.val < 100000 := by have := a.isLt; omega
  have hemb : ((cfg3.win 5).blk t).view.emb (ix2 a q) = ix2 (⟨_, hA⟩ : Fin 100000) q := by
    funext ax; apply Fin.ext
    match ax with
    | ⟨0, _⟩ => show win3_5.index t (0 : Fin 2) * 5000 + 1 * a.val = win3_5.index t (0 : Fin 2) * 5000 + a.val; omega
    | ⟨1, _⟩ => show win3_5.index t (1 : Fin 2) * 128 + 1 * q.val = q.val; omega
  show bnRelu (M := 5000) (K := 128) (iblk3 V c 0 t) (V c main_v50) (V c main_v53) (V c main_v54) (V c main_v55) (ix2 a q)
    = G V c (((cfg3.win 5).blk t).view.emb (ix2 a q))
  rw [hemb]
  exact bnRelu_rows (V c main_v46) (iblk3 V c 0 t) (V c main_v50) (V c main_v53) (V c main_v54) (V c main_v55) a ⟨_, hA⟩ q
    (iblk_h V c t a q ⟨_, hA⟩ rfl)

/-- An index of the array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v56).slice (win3_5.rect t)).set ↔ _
  rw [View.set_slice_whole, Rect.mem_set_unit]
  exact Iff.rfl

/-- The 20 row blocks cover the array: row r lies in block r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the normalisation and ramp of the entry arrays. -/
theorem final (c : Dev nD) : (dat3 V c).arrAt 5 cfg3.N
    = bnRelu (M := 100000) (K := 128) (V c main_v46) (V c main_v50) (V c main_v53) (V c main_v54) (V c main_v55) :=
  (dat3 V c).arrAt_eq_of_cover 5 (G V c) (fun t _ => flushed_eq V c t) cover

end Cert.KernelIdeal.Region3

end
-- ==== Proof.LibReduceRead.lean ====
/-
  Reductions of a matrix along one axis, and the column forms of reshape and broadcast, read at an entry.

  For a matrix src of extents [a, b]:

    sum over axis 0, at k          Σ_i src (i, k)                       (a column sum)
    sum over axis 1, at r          Σ_j src (r, j)                       (a row sum)
    maximum over axis 1, at r      sup_j src (r, j)                     (a row maximum: the fold of max from −∞,
                                                                          and −∞ is the bottom of the extended reals,
                                                                          so the fold is the finite supremum)

  The index of the matrix that lies over a reduced index with a given coordinate on the dropped axis is the pair of
  the two coordinates, in the matrix's order. A vector of extent a reshaped to the column [a, 1] reads its own entry,
  and a column [a, 1] broadcast to [a, b] reads the column's entry of the same row.
-/
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx

/-- The float word 0xFF800000 (−∞) denotes the bottom of the extended reals. -/
theorem ofBits_neg_inf : Ideal.ofBits .f32 0xFF800000#32 = ⊥ := by
  simp [Ideal.ofBits, Ideal.ieee]

/-- Over the reduced index k of a reduction along axis 0, the matrix index with coordinate i on that axis is (i, k). -/
theorem lift_axis0 {a b : ℕ} (h : (⟨2, ![a, b]⟩ : Shape).Reduces [0] ⟨1, ![b]⟩) (k : Fin b) (i : Fin a) :
    h.lift (ix1 k) i = ix2 i k :=
  funext fun c => Fin.ext (by match c with | ⟨0, _⟩ => rfl | ⟨1, _⟩ => rfl)

/-- Over the reduced index r of a reduction along axis 1, the matrix index with coordinate j on that axis is (r, j). -/
theorem lift_axis1 {a b : ℕ} (h : (⟨2, ![a, b]⟩ : Shape).Reduces [1] ⟨1, ![a]⟩) (r : Fin a) (j : Fin b) :
    h.lift (ix1 r) j = ix2 r j :=
  funext fun c => Fin.ext (by match c with | ⟨0, _⟩ => rfl | ⟨1, _⟩ => rfl)

/-- A sum over the rows of a matrix, at column k. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (k : Fin b) :
    multiReduction (F := Ideal) .add [0] ⟨1, ![b]⟩ src 0x00000000#32 h hφ hacc (ix1 k) = ∑ i : Fin a, src (ix2 i k) :=
  (Ideal.multiReduction_add_single src 0x00000000#32 h hφ hacc (ix1 k)).trans
    (Finset.sum_congr rfl fun i _ => congrArg src (lift_axis0 h k i))

/-- A sum along the rows of a matrix, at row r. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ j : Fin b, src (ix2 r j) :=
  (Ideal.multiReduction_add_single src 0x00000000#32 h hφ hacc (ix1 r)).trans
    (Finset.sum_congr rfl fun j _ => congrArg src (lift_axis1 h r j))

/-- The fold of max from the bottom over a finite index set is the finite supremum. -/
theorem fold_max_bot_eq_sup {ι : Type} [Fintype ι] (g : ι → EReal) :
    (Finset.univ : Finset ι).fold max ⊥ g = Finset.univ.sup g := rfl

/-- A maximum along the rows of a matrix from −∞, at row r. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = Finset.univ.sup fun j : Fin b => src (ix2 r j) := by
  have e : (fun j : Fin b => src (h.lift (ix1 r) j)) = fun j : Fin b => src (ix2 r j) :=
    funext fun j => congrArg src (lift_axis1 h r j)
  exact (Ideal.multiReduction_maximumf_single src 0xFF800000#32 h hφ hacc (ix1 r)).trans
    ((congrArg₂ (fun z (g : Fin b → EReal) => (Finset.univ : Finset (Fin b)).fold max z g) ofBits_neg_inf e).trans
      (fold_max_bot_eq_sup _))

variable {α : Type}

/-- A vector of extent a reshaped to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pay

end
-- ==== Proof.LibSageSoftmax.lean ====
/-
  The row-wise log-softmax, entry by entry, at the ideal values, and its two spellings.

  For a matrix z (M rows, N columns): rowMax z a is the supremum of row a; shifted z (a, q) = z(a, q) − rowMax z a; and

      logSoftmax z (a, q) = shifted z (a, q) − log (∑ q', exp (shifted z (a, q'))).

  The maximum of a row is taken as the fold of max from −∞, and −∞ is the bottom of the extended reals, so the fold is the
  finite supremum; a second maximum with −∞ changes nothing. The sum of a row is taken from the word of +0.0, which is
  zero. Every entry reads one row of z only (`logSoftmax_rows`).

  On a tile the two reductions run along the lanes, their results are reshaped to a column and broadcast across the
  columns. On the whole array they are the host's reductions along axis 1, broadcast to a column and then across the
  columns. Both are the function above.
-/
import proofs.«127273_j90726889160781_2_alg».proof.Proof.LibReduceRead
import Idealize.ShloMosaic.Lib.IdealHost
import Idealize.ShloMosaic.PureOps.Reduce

noncomputable section

namespace Cert.Sage

open Idealize.ShloMosaic Idealize.ShloMosaic.ValueIdx Cert.Pay

variable {M N : Nat}

/-- The supremum of row a. -/
def rowMax (z : FVec Ideal ⟨2, ![M, N]⟩ .f32) (a : Fin M) : EReal := Finset.univ.sup fun q : Fin N => z (ix2 a q)

/-- Each entry less its row's supremum. -/
def shifted (z : FVec Ideal ⟨2, ![M, N]⟩ .f32) : FVec Ideal ⟨2, ![M, N]⟩ .f32 :=
  fun i => z i - rowMax z (show Fin M from i 0)

theorem shifted_apply (z : FVec Ideal ⟨2, ![M, N]⟩ .f32) (a : Fin M) (q : Fin N) :
    shifted z (ix2 a q) = z (ix2 a q) - rowMax z a := rfl

/-- The sum of the exponentials of row a of the shifted matrix. -/
def rowExpSum (z : FVec Ideal ⟨2, ![M, N]⟩ .f32) (a : Fin M) : EReal := ∑ q : Fin N, Ideal.exp (shifted z (ix2 a q))

/-- The row-wise log-softmax. -/
def logSoftmax (z : FVec Ideal ⟨2, ![M, N]⟩ .f32) : FVec Ideal ⟨2, ![M, N]⟩ .f32 :=
  fun i => shifted z i - Ideal.log (rowExpSum z (show Fin M from i 0))

theorem logSoftmax_apply (z : FVec Ideal ⟨2, ![M, N]⟩ .f32) (a : Fin M) (q : Fin N) :
    logSoftmax z (ix2 a q) = shifted z (ix2 a q) - Ideal.log (rowExpSum z a) := rfl

/-- An entry of the log-softmax reads one row: if row a of the block is row A of Z, the two values agree there. -/
theorem logSoftmax_rows {R : Nat} (Z : FVec Ideal ⟨2, ![M, N]⟩ .f32) (zb : FVec Ideal ⟨2, ![R, N]⟩ .f32) (a : Fin R) (A : Fin M)
    (q : Fin N) (hz : ∀ c : Fin N, zb (ix2 a c) = Z (ix2 A c)) : logSoftmax zb (ix2 a q) = logSoftmax Z (ix2 A q) := by
  have hm : rowMax zb a = rowMax Z A := by
    unfold rowMax
    exact congrArg _ (funext fun c => hz c)
  have hs : ∀ c : Fin N, shifted zb (ix2 a c) = shifted Z (ix2 A c) := fun c => by
    rw [shifted_apply, shifted_apply, hz c, hm]
  have he : rowExpSum zb a = rowExpSum Z A := by
    unfold rowExpSum
    exact Finset.sum_congr rfl fun c _ => by rw [hs c]
  rw [logSoftmax_apply, logSoftmax_apply, hs q, he]

/-! ## Pointwise readings -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-! ## The tile's spelling -/

/-- On a tile: the lane maximum from −∞ reshaped to a column and broadcast, subtracted; the exponentials' lane sum from
    zero reshaped to a column, its logarithm broadcast, subtracted. -/
theorem tile_logSoftmax (hr : (⟨2, ![M, N]⟩ : Shape).Reduces [1] ⟨1, ![M]⟩) (hφ : FKind.Formats .f32)
    (hm : (0xFF800000#32 : BitVec 32) = 0xFF800000#32) (hs : (0x00000000#32 : BitVec 32) = 0x00000000#32)
    (hc : (⟨1, ![M]⟩ : Shape).ShapeCasts ⟨2, ![M, 1]⟩) (hb : (⟨2, ![M, 1]⟩ : Shape).Broadcasts ⟨2, ![M, N]⟩)
    (z : FVec Ideal ⟨2, ![M, N]⟩ .f32) :
    subf (subf z (broadcastTo ⟨2, ![M, N]⟩ (shapeCast ⟨2, ![M, 1]⟩ (multiReduction (F := Ideal) .maximumf [1] ⟨1, ![M]⟩ z 0xFF800000#32 hr hφ hm) hc) hb))
      (broadcastTo ⟨2, ![M, N]⟩ (log (shapeCast ⟨2, ![M, 1]⟩
        (multiReduction (F := Ideal) .add [1] ⟨1, ![M]⟩
          (exp (subf z (broadcastTo ⟨2, ![M, N]⟩ (shapeCast ⟨2, ![M, 1]⟩ (multiReduction (F := Ideal) .maximumf [1] ⟨1, ![M]⟩ z 0xFF800000#32 hr hφ hm) hc) hb)))
          0x00000000#32 hr hφ hs) hc)) hb)
      = logSoftmax z := by
  have hsh : subf z (broadcastTo ⟨2, ![M, N]⟩ (shapeCast ⟨2, ![M, 1]⟩ (multiReduction (F := Ideal) .maximumf [1] ⟨1, ![M]⟩ z 0xFF800000#32 hr hφ hm) hc) hb)
      = shifted z := by
    funext j
    obtain ⟨a, q, rfl⟩ : ∃ (a : Fin M) (q : Fin N), j = ix2 a q := ⟨j 0, j 1, eq_ix2 j⟩
    rw [shifted_apply, subf_apply, broadcastTo_a1_ab_apply, shapeCast_a_a1_apply, rowMax_apply]
    rfl
  rw [hsh]
  funext j
  obtain ⟨a, q, rfl⟩ : ∃ (a : Fin M) (q : Fin N), j = ix2 a q := ⟨j 0, j 1, eq_ix2 j⟩
  rw [logSoftmax_apply, subf_apply, broadcastTo_a1_ab_apply, log_apply, shapeCast_a_a1_apply, rowSum_apply]
  rfl

/-! ## The whole array's spelling -/

/-- A reduction onto a vector keeps at least one axis. -/
theorem reduces_of_reducesTo {s : Shape} {axes : List (Fin s.rank)} {K : Nat} (h : s.ReducesTo axes ⟨1, ![K]⟩) :
    s.Reduces axes ⟨1, ![K]⟩ := h.elim fun hr hs => ⟨hr, Nat.one_pos, hs⟩

/-- The maximum with −∞ is the identity on the extended reals. -/
theorem max_neg_inf (y : EReal) : max (Ideal.ofBits .f32 0xFF800000#32) y = y := by
  rw [ofBits_neg_inf]; exact max_eq_right bot_le

/-- The host's maximum along axis 1 from −∞, at row a, is the row's supremum. -/
theorem hostRowMax_apply (h' : (⟨2, ![M, N]⟩ : Shape).ReducesTo [1] ⟨1, ![M]⟩) (hu : 0 < (⟨0, ![]⟩ : Shape).numel)
    (z : FVec Ideal ⟨2, ![M, N]⟩ .f32) (a : Fin M) :
    Host.reduce (FloatOps.maximumf (F := Ideal) (φ := .f32)) z (constant (F := Ideal) ⟨0, ![]⟩ .f32 0xFF800000#32) h' hu (ix1 a)
      = rowMax z a := by
  rw [Host.reduce_eq_fold_single FloatOps.maximumf z _ h' (reduces_of_reducesTo h') hu]
  have e : (z ∘ (reduces_of_reducesTo h').lift (ix1 a)) = fun q : Fin N => z (ix2 a q) :=
    funext fun q => congrArg z (lift_axis1 (reduces_of_reducesTo h') a q)
  exact (congrArg₂ (fun w (g : Fin N → EReal) => (Finset.univ : Finset (Fin N)).fold max w g) ofBits_neg_inf e).trans
    (fold_max_bot_eq_sup _)

/-- The host's sum along axis 1 from zero, at row a, is the row's sum. -/
theorem hostRowSum_apply (h' : (⟨2, ![M, N]⟩ : Shape).ReducesTo [1] ⟨1, ![M]⟩) (hu : 0 < (⟨0, ![]⟩ : Shape).numel)
    (v : FVec Ideal ⟨2, ![M, N]⟩ .f32) (a : Fin M) :
    Host.reduceAdd (F := Ideal) v (constant (F := Ideal) ⟨0, ![]⟩ .f32 0x00000000#32) h' hu (ix1 a) = ∑ q : Fin N, v (ix2 a q) := by
  rw [hostReduceAdd_apply, Ideal.hostReduceAdd_single h' (reduces_of_reducesTo h')]
  show Ideal.ofBits .f32 0x00000000#32 + _ = _
  rw [Ideal.ofBits_zero_f32, zero_add]
  exact Finset.sum_congr rfl fun q _ => congrArg v (lift_axis1 (reduces_of_reducesTo h') a q)

end Cert.Sage

end
-- ==== Proof.Region4.lean ====
/-
  What pallas_call region 4 leaves in its output array, as one function of the arrays it is entered with.

  The region walks 20 blocks of 5000 rows. At a block it computes the last layer's linear part `Cert.Sage.lin` (47 output
  columns) of the block's rows, and then the row-wise log-softmax `Cert.Sage.logSoftmax` of that. Every entry of either
  reads one row only, so block t of the result is rows 5000·t … 5000·t + 4999 of the log-softmax of `lin` of the whole
  arrays, and the 20 blocks tile the 100000 rows.
-/
import proofs.«127273_j90726889160781_2_alg».proof.Proof.Gen.KernelIdeal.Frame
import proofs.«127273_j90726889160781_2_alg».proof.Proof.LibSageLayer
import proofs.«127273_j90726889160781_2_alg».proof.Proof.LibSageSoftmax
import Idealize.ShloMosaic.Lib.Pipeline.Value
import Idealize.ShloMosaic.PureOps.Ideal

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the log-softmax of the layer's linear part of the block's operands. -/
theorem pay_eq (s : Vec Ideal S5000x128 .f32) (n : Vec Ideal S5000x1 .f32) (x : Vec Ideal S5000x128 .f32)
    (wl wr : Vec Ideal S128x47 .f32) (b : Vec Ideal S1x47 .f32) :
    k4_pay1 (F := Ideal) s n x wl wr b
      = logSoftmax (M := 5000) (N := 47) (lin (M := 5000) (K := 128) (N := 47) s n x wl b wr) := by
  unfold k4_pay1
  dsimp only
  rw [shapeCast_self x shapeCasts_S5000x128_S5000x128,
    tile_lin dot_S5000x128_S128x47_S5000x47_1_0_0_1_n_n rfl bitsLt_bf16_f32 shapeCasts_S5000x128_S5000x128
      shapeCasts_S5000x1_S5000x1 broadcasts_S5000x1_S5000x128 shapeCasts_S1x47_S1x47 broadcasts_S1x47_S5000x47 s n x wl b wr]
  exact tile_logSoftmax reduces_S5000x47_S5000 (.inl rfl) rfl rfl shapeCasts_S5000_S5000x1 broadcasts_S5000x1_S5000x47 _

/-- The printed block-index maps over the 20 grid points: the three row-blocked inputs move with the output's row
    block, the weights and the bias row stay at block (0, 0). -/
theorem idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) ≤ 19 ∧ win4_6.index t (1 : Fin 2) = 0 :=
  (by decide +kernel : ∀ t : Fin grid4.N, _)

/-- Every one of the 20 row blocks is some point's. -/
theorem idx_onto : ∀ q0 : Fin 20, ∃ t : Fin cfg4.N, win4_6.index t = ![q0.val, 0] :=
  (by decide +kernel : ∀ q0 : Fin 20, ∃ t : Fin grid4.N, win4_6.index t = ![q0.val, 0])

/-! ## The input blocks, read off the arrays -/

/-- Row a of the neighbour-sum block at point t is row 5000·t + a of the array. -/
theorem iblk_s (c : Dev nD) (t : Fin cfg4.N) (a : Fin 5000) (q : Fin 128) (A : Fin 100000)
    (hA : A.val = win4_6.index t (0 : Fin 2) * 5000 + a.val) :
    iblk4 V c 0 t (ix2 a q) = V c main_v66 (ix2 A q) := by
  obtain ⟨e0, e1, -⟩ := idx_facts t
  show V c main_v66 (((cfg4.win 0).blk t).view.emb (ix2 a q)) = V c main_v66 (ix2 A q)
  refine congrArg _ ?_
  funext ax; apply Fin.ext
  match ax with
  | ⟨0, _⟩ => show win4_0.index t (0 : Fin 2) * 5000 + 1 * a.val = A.val; omega
  | ⟨1, _⟩ => show win4_0.index t (1 : Fin 2) * 128 + 1 * q.val = q.val; omega

/-- Row a of the reciprocal-count block at point t is row 5000·t + a of the column. -/
theorem iblk_n (c : Dev nD) (t : Fin cfg4.N) (a : Fin 5000) (A : Fin 100000)
    (hA : A.val = win4_6.index t (0 : Fin 2) * 5000 + a.val) :
    iblk4 V c 1 t (ix2 a (0 : Fin 1)) = V c main_v12 (ix2 A (0 : Fin 1)) := by
  obtain ⟨-, -, e0, e1, -⟩ := idx_facts t
  show V c main_v12 (((cfg4.win 1).blk t).view.emb (ix2 a (0 : Fin 1))) = V c main_v12 (ix2 A (0 : Fin 1))
  refine congrArg _ ?_
  funext ax; apply Fin.ext
  match ax with
  | ⟨0, _⟩ => show win4_1.index t (0 : Fin 2) * 5000 + 1 * a.val = A.val; omega
  | ⟨1, _⟩ => show win4_1.index t (1 : Fin 2) * 1 + 1 * 0 = 0; omega

/-- Row a of the feature block at point t is row 5000·t + a of the array. -/
theorem iblk_x (c : Dev nD) (t : Fin cfg4.N) (a : Fin 5000) (q : Fin 128) (A : Fin 100000)
    (hA : A.val = win4_6.index t (0 : Fin 2) * 5000 + a.val) :
    iblk4 V c 2 t (ix2 a q) = V c main_v56 (ix2 A q) := by
  obtain ⟨-, -, -, -, e0, e1, -⟩ := idx_facts t
  show V c main_v56 (((cfg4.win 2).blk t).view.emb (ix2 a q)) = V c main_v56 (ix2 A q)
  refine congrArg _ ?_
  funext ax; apply Fin.ext
  match ax with
  | ⟨0, _⟩ => show win4_2.index t (0 : Fin 2) * 5000 + 1 * a.val = A.val; omega
  | ⟨1, _⟩ => show win4_2.index t (1 : Fin 2) * 128 + 1 * q.val = q.val; omega

/-- The left weight matrix is staged whole at every point. -/
theorem iblk_wl (c : Dev nD) (t : Fin cfg4.N) : iblk4 V c 3 t = V c main_arg12 := by
  obtain ⟨-, -, -, -, -, -, e0, e1, -⟩ := idx_facts t
  funext y
  show V c main_arg12 (((cfg4.win 3).blk t).view.emb y) = V c main_arg12 y
  refine congrArg _ ?_
  funext ax; apply Fin.ext
  match ax with
  | ⟨0, _⟩ => show win4_3.index t (0 : Fin 2) * 128 + 1 * (y 0).val = (y 0).val; omega
  | ⟨1, _⟩ => show win4_3.index t (1 : Fin 2) * 47 + 1 * (y 1).val = (y 1).val; omega

/-- The bias row is staged whole at every point. -/
theorem iblk_b (c : Dev nD) (t : Fin cfg4.N) : iblk4 V c 4 t = V c main_v67 := by
  obtain ⟨-, -, -, -, -, -, -, -, e0, e1, -⟩ := idx_facts t
  funext y
  show V c main_v67 (((cfg4.win 4).blk t).view.emb y) = V c main_v67 y
  refine congrArg _ ?_
  funext ax; apply Fin.ext
  match ax with
  | ⟨0, _⟩ => show win4_4.index t (0 : Fin 2) * 1 + 1 * (y 0).val = (y 0).val; omega
  | ⟨1, _⟩ => show win4_4.index t (1 : Fin 2) * 47 + 1 * (y 1).val = (y 1).val; omega

/-- The right weight matrix is staged whole at every point. -/
theorem iblk_wr (c : Dev nD) (t : Fin cfg4.N) : iblk4 V c 5 t = V c main_arg14 := by
  obtain ⟨-, -, -, -, -, -, -, -, -, -, e0, e1, -⟩ := idx_facts t
  funext y
  show V c main_arg14 (((cfg4.win 5).blk t).view.emb y) = V c main_arg14 y
  refine congrArg _ ?_
  funext ax; apply Fin.ext
  match ax with
  | ⟨0, _⟩ => show win4_5.index t (0 : Fin 2) * 128 + 1 * (y 0).val = (y 0).val; omega
  | ⟨1, _⟩ => show win4_5.index t (1 : Fin 2) * 47 + 1 * (y 1).val = (y 1).val; omega

/-! ## Blocks to the array -/

/-- The last layer's linear part of the arrays the region is entered with. -/
abbrev Z (c : Dev nD) : Vec Ideal S100000x47 .f32 :=
  lin (M := 100000) (K := 128) (N := 47) (V c main_v66) (V c main_v12) (V c main_v56) (V c main_arg12) (V c main_v67) (V c main_arg14)

/-- Its row-wise log-softmax. -/
abbrev G (c : Dev nD) : Vec Ideal S100000x47 .f32 := logSoftmax (M := 100000) (N := 47) (Z V c)

/-- What point t writes back is block t of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S5000x128) hz, View.ld_unit_zero (S := S5000x1) hz,
    View.ld_unit_zero (S := S128x47) hz, View.ld_unit_zero (S := S1x47) hz]
  rw [pay_eq, iblk_wl V c t, iblk_b V c t, iblk_wr V c t]
  refine funext fun (j : S5000x47.Idx) => ?_
  obtain ⟨a, q, rfl⟩ : ∃ (a : Fin 5000) (q : Fin 47), j = ix2 a q := ⟨j 0, j 1, eq_ix2 j⟩
  have hle : win4_6.index t (0 : Fin 2) ≤ 19 := (idx_facts t).2.2.2.2.2.2.2.2.2.2.2.2.1
  have e1 : win4_6.index t (1 : Fin 2) = 0 := (idx_facts t).2.2.2.2.2.2.2.2.2.2.2.2.2
  have hA : win4_6.index t (0 : Fin 2) * 5000 + a.val < 100000 := by have := a.isLt; omega
  have hemb : ((cfg4.win 6).blk t).view.emb (ix2 a q) = ix2 (⟨_, hA⟩ : Fin 100000) q := by
    funext ax; apply Fin.ext
    match ax with
    | ⟨0, _⟩ => show win4_6.index t (0 : Fin 2) * 5000 + 1 * a.val = win4_6.index t (0 : Fin 2) * 5000 + a.val; omega
    | ⟨1, _⟩ => show win4_6.index t (1 : Fin 2) * 47 + 1 * q.val = q.val; omega
  show logSoftmax (M := 5000) (N := 47)
      (lin (M := 5000) (K := 128) (N := 47) (iblk4 V c 0 t) (iblk4 V c 1 t) (iblk4 V c 2 t) (V c main_arg12) (V c main_v67) (V c main_arg14)) (ix2 a q)
    = G V c (((cfg4.win 6).blk t).view.emb (ix2 a q))
  rw [hemb]
  exact logSoftmax_rows (Z V c) _ a ⟨_, hA⟩ q fun q' =>
    lin_rows (V c main_v66) (V c main_v12) (V c main_v56) (iblk4 V c 0 t) (iblk4 V c 1 t) (iblk4 V c 2 t)
      (V c main_arg12) (V c main_v67) (V c main_arg14) a ⟨_, hA⟩ q'
      (fun c' => iblk_s V c t a c' ⟨_, hA⟩ rfl) (iblk_n V c t a ⟨_, hA⟩ rfl) (fun c' => iblk_x V c t a c' ⟨_, hA⟩ rfl)

/-- An index of the array is in point t's block iff each coordinate is in the block's range on its axis. -/
theorem mem_blk (t : Fin cfg4.N) (i : S100000x47.Idx) :
    i ∈ ((cfg4.win 6).blk t).view.set ↔ ∀ a : Fin 2, win4_6.index t a * S5000x47.size a ≤ (i a).val
      ∧ (i a).val < win4_6.index t a * S5000x47.size a + S5000x47.size a := by
  show i ∈ ((View.whole main_v68).slice (win4_6.rect t)).set ↔ _
  rw [View.set_slice_whole, Rect.mem_set_unit]
  exact Iff.rfl

/-- The 20 row blocks cover the array: row r lies in block r / 5000. -/
theorem cover (i : S100000x47.Idx) :
    ∃ t : Fin cfg4.N, (cfg4.win 6).flush t = true ∧ i ∈ ((cfg4.win 6).blk t).view.set := by
  have hi0 : (i 0).val < 100000 := (i 0).isLt
  have hi1 : (i 1).val < 47 := (i 1).isLt
  obtain ⟨t, ht⟩ := idx_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 47 ≤ (i 1).val ∧ (i 1).val < win4_6.index t (1 : Fin 2) * 47 + 47; omega

/-- The output array after the region: the log-softmax of the last layer's linear part of the entry arrays. -/
theorem final (c : Dev nD) : (dat4 V c).arrAt 6 cfg4.N = G V c :=
  (dat4 V c).arrAt_eq_of_cover 6 (G V c) (fun t _ => flushed_eq V c t) cover

end Cert.KernelIdeal.Region4

end
-- ==== Proof.RefStages.lean ====
/-
  The reference program's result as a composition of named stage functions, at the ideal
  instance (a float an extended real, every operation its textbook one).

  Each stage is the composition of the pure functions of the corresponding printed operations of
  the reference's @main (the outlined functions' bodies substituted at their calls), over the
  reference's own shape records and side-condition facts: the edge-index preparation, the
  neighbour sum (gather then scatter-add), the in-degree count, the two linear maps of a layer,
  the batch statistics (mean and variance over the node axis), the normalisation followed by
  the rectifier, and the final row-wise log-softmax.  The three layers of the printed program
  spell the same functions over different buffers; the third maps to 47 columns.
-/
import proofs.«127273_j90726889160781_2_alg».proof.ReferenceIdeal
import Idealize.ShloMosaic.PureOps.Ideal

noncomputable section

namespace Cert.ReferenceIdeal.Stages

open Idealize.ShloMosaic Idealize.SL.Sem
open Cert.ReferenceIdeal

variable [Facts]
open Facts₀ Facts

/-! ## Edge indices -/

/-- Row `r` of the edge table as a vector of 1600000 node numbers: the slice of one row, reshaped. -/
def edgeRow0 (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

@[inherit_doc edgeRow0]
def edgeRow1 (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The gather's start indices (the printed %9): the source row, a negative entry wrapped once by
    the node count (`select (src < 0) (src + 100000) src`), as a column. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (edgeRow0 ei) (broadcastInDim S1600000 ![] bcast_S_S1600000 (constantI S_ 32 0#32)))
      (addi (edgeRow0 ei) (broadcastInDim S1600000 ![] bcast_S_S1600000 (constantI S_ 32 100000#32)))
      (edgeRow0 ei))

/-- The scatter's indices (the printed %12, and %16, %57, %61, %102, %106): the destination row as a column. -/
def dstIdx (ei : (⟨S2x1600000, .i32⟩ : BufTy).Contents (Elt Ideal)) : (⟨S1600000x1, .i32⟩ : BufTy).Contents (Elt Ideal) :=
  broadcastInDim S1600000x1 ![0] bcast_S1600000_S1600000x1_0 (edgeRow1 ei)

/-! ## Aggregation -/

/-- The neighbour sum (the printed %13 with `h` for %arg0): the rows of `h` gathered at the sources,
    scatter-added at the destinations into zeros. -/
def segsum (ei : (⟨S2x1600000, .i32⟩ : BufTy).Contents (Elt Ideal)) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (dstIdx ei)
    (Host.gather gather_S100000x128_S1600000x1_S1600000x128_1_0_n_n_0_1_1128 h (srcIdx ei))

/-- The in-degree, at least one (the printed %19): ones scatter-added at the destinations into zeros,
    then the maximum with one. -/
def cnt (ei : (⟨S2x1600000, .i32⟩ : BufTy).Contents (Elt Ideal)) : FVec Ideal S100000 .f32 :=
  maximumf (F := Ideal)
    (Host.scatterAdd (F := Ideal) scatter_S100000_S1600000x1_S1600000_n_0_0_1
      (broadcastInDim S100000 ![] bcast_S_S100000 (constant (F := Ideal) S_ .f32 0x00000000#32))
      (dstIdx ei)
      (broadcastInDim S1600000 ![] bcast_S_S1600000 (constant (F := Ideal) S_ .f32 0x3F800000#32)))
    (broadcastInDim S100000 ![] bcast_S_S100000 (constant (F := Ideal) S_ .f32 0x3F800000#32))

/-- A vector over the 128 columns repeated down the 100000 rows: the broadcast to one row, then to all. -/
def rows128 (v : FVec Ideal S128 .f32) : FVec Ideal S100000x128 .f32 :=
  broadcastInDim S100000x128 ![0, 1] bcast_S1x128_S100000x128_0_1 (broadcastInDim S1x128 ![1] bcast_S128_S1x128_1 v)

/-- A vector over the 47 columns repeated down the 100000 rows. -/
def rows47 (v : FVec Ideal S47 .f32) : FVec Ideal S100000x47 .f32 :=
  broadcastInDim S100000x47 ![0, 1] bcast_S1x47_S100000x47_0_1 (broadcastInDim S1x47 ![1] bcast_S47_S1x47_1 v)

/-- The mean of the neighbours (the printed %22 with `h` for %arg0): the neighbour sum divided by the
    count, the count repeated across the 128 columns. -/
def agg (ei : (⟨S2x1600000, .i32⟩ : BufTy).Contents (Elt Ideal)) (h : FVec Ideal S100000x128 .f32) : FVec Ideal S100000x128 .f32 :=
  Host.divf (F := Ideal) (segsum ei h)
    (broadcastInDim S100000x128 ![0, 1] bcast_S100000x1_S100000x128_0_1
      (broadcastInDim S100000x1 ![0] bcast_S100000_S100000x1_0 (cnt ei)))

/-- A layer's linear part at 128 output columns (the printed %28 with `h`, `Wl`, `bl`, `Wr` for %arg0,
    %arg2, %arg3, %arg4): `agg · Wl + bl + h · Wr`. -/
def lin128 (ei : (⟨S2x1600000, .i32⟩ : BufTy).Contents (Elt Ideal)) (h : FVec Ideal S100000x128 .f32)
    (Wl : FVec Ideal S128x128 .f32) (bl : FVec Ideal S128 .f32) (Wr : FVec Ideal S128x128 .f32) : FVec Ideal S100000x128 .f32 :=
  addf (F := Ideal)
    (addf (F := Ideal)
      (Host.dotGeneral (F := Ideal) dot_S100000x128_S128x128_S100000x128_1_0_0_1_n_n none (agg ei h) Wl)
      (rows128 bl))
    (Host.dotGeneral (F := Ideal) dot_S100000x128_S128x128_S100000x128_1_0_0_1_n_n none h Wr)

/-- The last layer's linear part, at 47 output columns (the printed %118 with `h` for %93). -/
def lin47 (ei : (⟨S2x1600000, .i32⟩ : BufTy).Contents (Elt Ideal)) (h : FVec Ideal S100000x128 .f32)
    (Wl : FVec Ideal S128x47 .f32) (bl : FVec Ideal S47 .f32) (Wr : FVec Ideal S128x47 .f32) : FVec Ideal S100000x47 .f32 :=
  addf (F := Ideal)
    (addf (F := Ideal)
      (Host.dotGeneral (F := Ideal) dot_S100000x128_S128x47_S100000x47_1_0_0_1_n_n none (agg ei h) Wl)
      (rows47 bl))
    (Host.dotGeneral (F := Ideal) dot_S100000x128_S128x47_S100000x47_1_0_0_1_n_n none h Wr)

/-! ## Batch statistics -/

/-- The column sums over the node axis, from zero. -/
def colSum (h : FVec Ideal S100000x128 .f32) : FVec Ideal S128 .f32 :=
  Host.reduceAdd (F := Ideal) h (constant (F := Ideal) S_ .f32 0x00000000#32) reducesTo_S100000x128_S128_d0 h_S_

/-- The column means (the printed %31 with `h` for %28): the column sums divided by 100000. -/
def mean128 (h : FVec Ideal S100000x128 .f32) : FVec Ideal S128 .f32 :=
  Host.divf (F := Ideal) (colSum h) (broadcastInDim S128 ![] bcast_S_S128 (constant (F := Ideal) S_ .f32 0x47C35000#32))

/-- `h` minus its column means, as the variance function computes them (its %5): the column sums as one
    row, divided by 100000 as one row, repeated down the rows, subtracted. -/
def centered128 (h : FVec Ideal S100000x128 .f32) : FVec Ideal S100000x128 .f32 :=
  subf (F := Ideal) h
    (broadcastInDim S100000x128 ![0, 1] bcast_S1x128_S100000x128_0_1
      (Host.divf (F := Ideal)
        (broadcastInDim S1x128 ![1] bcast_S128_S1x128_1 (colSum h))
        (broadcastInDim S1x128 ![] bcast_S_S1x128 (constant (F := Ideal) S_ .f32 0x47C35000#32))))

/-- The variance function's divisor (its %8): 100000 minus the correction, the correction the integer 0
    converted to a float. -/
def dofCount : FVec Ideal S_ .f32 :=
  subf (F := Ideal) (constant (F := Ideal) S_ .f32 0x47C35000#32) (sitofp (F := Ideal) .f32 (constantI S_ 32 0#32))

/-- The column variances (the printed %32 with `h` for %28): the column sums of the squared centred
    values divided by the divisor, where the divisor is positive, and the not-a-number constant elsewhere. -/
def var128 (h : FVec Ideal S100000x128 .f32) : FVec Ideal S128 .f32 :=
  select
    (broadcastInDim S128 ![] bcast_S_S128 (cmpf (F := Ideal) .ogt dofCount (constant (F := Ideal) S_ .f32 0x00000000#32)))
    (Host.divf (F := Ideal)
      (colSum (mulf (F := Ideal) (centered128 h) (centered128 h)))
      (broadcastInDim S128 ![] bcast_S_S128 dofCount))
    (broadcastInDim S128 ![] bcast_S_S128 (constant (F := Ideal) S_ .f32 0x7FC00000#32))

/-- Normalisation, scale, shift, rectifier (the printed %48 with `h`, `g`, `be` for %28, %arg5, %arg6):
    `max ((h - mean) * rsqrt (var + ε) * g + be) 0`, each column vector repeated down the rows. -/
def bnrelu (h : FVec Ideal S100000x128 .f32) (g be : FVec Ideal S128 .f32) : FVec Ideal S100000x128 .f32 :=
  maximumf (F := Ideal)
    (addf (F := Ideal)
      (mulf (F := Ideal)
        (mulf (F := Ideal)
          (subf (F := Ideal) h (rows128 (mean128 h)))
          (rows128 (Host.rsqrt (F := Ideal)
            (addf (F := Ideal) (var128 h) (broadcastInDim S128 ![] bcast_S_S128 (constant (F := Ideal) S_ .f32 0x3727C5AC#32))))))
        (rows128 g))
      (rows128 be))
    (broadcastInDim S100000x128 ![] bcast_S_S100000x128 (constant (F := Ideal) S_ .f32 0x00000000#32))

/-! ## The result -/

/-- `z` minus its row maxima (the log-softmax function's %5): the row maximum from minus infinity, the
    maximum with minus infinity again, as a column, repeated across the 47 columns, subtracted. -/
def shifted47 (z : FVec Ideal S100000x47 .f32) : FVec Ideal S100000x47 .f32 :=
  subf (F := Ideal) z
    (broadcastInDim S100000x47 ![0, 1] bcast_S100000x1_S100000x47_0_1
      (broadcastInDim S100000x1 ![0] bcast_S100000_S100000x1_0
        (maximumf (F := Ideal)
          (broadcastInDim S100000 ![] bcast_S_S100000 (constant (F := Ideal) S_ .f32 0xFF800000#32))
          (Host.reduce (FloatOps.maximumf (F := Ideal) (φ := .f32)) z (constant (F := Ideal) S_ .f32 0xFF800000#32)
            reducesTo_S100000x47_S100000_d1 h_S_))))

/-- The row-wise log-softmax (the printed %119 with `z` for %118): the shifted values minus the logarithm
    of the row sums of their exponentials. -/
def logsm (z : FVec Ideal S100000x47 .f32) : FVec Ideal S100000x47 .f32 :=
  subf (F := Ideal) (shifted47 z)
    (broadcastInDim S100000x47 ![0, 1] bcast_S100000x1_S100000x47_0_1
      (Host.log (F := Ideal)
        (broadcastInDim S100000x1 ![0] bcast_S100000_S100000x1_0
          (Host.reduceAdd (F := Ideal) (Host.exp (F := Ideal) (shifted47 z)) (constant (F := Ideal) S_ .f32 0x00000000#32)
            reducesTo_S100000x47_S100000_d1 h_S_))))

/-- The reference's result as a function of its fifteen arguments: three layers, the first two followed by
    the normalisation and the rectifier, then the log-softmax. -/
def refOut (x : FVec Ideal S100000x128 .f32) (ei : (⟨S2x1600000, .i32⟩ : BufTy).Contents (Elt Ideal))
    (Wl0 : FVec Ideal S128x128 .f32) (bl0 : FVec Ideal S128 .f32) (Wr0 : FVec Ideal S128x128 .f32) (g0 be0 : FVec Ideal S128 .f32)
    (Wl1 : FVec Ideal S128x128 .f32) (bl1 : FVec Ideal S128 .f32) (Wr1 : FVec Ideal S128x128 .f32) (g1 be1 : FVec Ideal S128 .f32)
    (Wl2 : FVec Ideal S128x47 .f32) (bl2 : FVec Ideal S47 .f32) (Wr2 : FVec Ideal S128x47 .f32) : FVec Ideal S100000x47 .f32 :=
  logsm (lin47 ei (bnrelu (lin128 ei (bnrelu (lin128 ei x Wl0 bl0 Wr0) g0 be0) Wl1 bl1 Wr1) g1 be1) Wl2 bl2 Wr2)

end Cert.ReferenceIdeal.Stages

end
-- ==== Proof.BridgeLin.lean ====
/-
  The layer's linear part: the block-wise program's operands against the whole-array program's.

  The block-wise program feeds `Cert.Sage.lin` the neighbour sums s, the column of reciprocal counts 1 / n and the bias
  reshaped to a row. The whole-array program divides s by n first (n repeated across the columns), multiplies by the
  weights with the host's product and adds the bias repeated down the rows. The neighbour sums are the same term in both
  programs. The count n of a node is the larger of its number of incoming edges and one, so n ≥ 1 and in particular
  n ≠ 0; hence 1 / n is the inverse n⁻¹ and s · (1 / n) = s · n⁻¹ = s / n on every extended real s. No other law of
  the extended reals is used: both sides keep the same order and association of sums and products.
-/
import proofs.«127273_j90726889160781_2_alg».proof.Proof.KerStages
import proofs.«127273_j90726889160781_2_alg».proof.Proof.RefStages
import proofs.«127273_j90726889160781_2_alg».proof.Proof.LibSageLayer

noncomputable section

namespace Cert.Bridge

open Idealize.ShloMosaic Idealize.ShloMosaic.ValueIdx Cert.GraphLayer Cert.Sage

/-- The extended real the word of 1.0 denotes. -/
abbrev oneWord : EReal := Ideal.ofBits .f32 0x3F800000#32

theorem oneWord_eq : oneWord = 1 := by
  have h : ((8388608 : ℝ) : EReal) * (((2 ^ 23 : ℝ)⁻¹ : ℝ) : EReal) = 1 := by
    rw [← EReal.coe_mul, ← EReal.coe_one]
    exact congrArg _ (by norm_num)
  simpa [oneWord, Ideal.ofBits, Ideal.ieee] using h

/-- The host's quotient is the extended reals' division, entry by entry. -/
theorem hostDiv_at {s : Shape} (x y : FVec Ideal s .f32) (i : s.Idx) : Host.divf x y i = Ideal.div (x i) (y i) := rfl

/-- A scalar word broadcast to a vector reads the word at every index. -/
theorem bcast_word_1 {M : Nat} (h0 : (⟨0, ![]⟩ : Shape).BroadcastsInDim ⟨1, ![M]⟩ ![]) (w : BitVec 32) (a : Fin M) :
    broadcastInDim ⟨1, ![M]⟩ ![] h0 (constant (F := Ideal) ⟨0, ![]⟩ .f32 w) (ix1 a) = Ideal.ofBits .f32 w := by
  rw [broadcastInDim_apply (![] : Fin 0 → Fin 1) h0 _ (ix1 a) ix0 (fun ax => ax.elim0)]
  rfl

/-- On the extended reals, s · (1 / n) = s / n when n ≠ 0. -/
theorem mul_div_one (s n : EReal) (hn : n ≠ 0) : s * Ideal.div oneWord n = Ideal.div s n := by
  unfold Ideal.div
  rw [if_neg hn, if_neg hn, oneWord_eq, one_mul]

variable [Cert.KernelIdeal.Facts₀] [Cert.ReferenceIdeal.Facts]

/-- The neighbour sums are one term in both programs. -/
theorem segsum_eq (ei : (⟨⟨2, ![2, 1600000]⟩, .i32⟩ : BufTy).Contents (Elt Ideal)) (h : FVec Ideal ⟨2, ![100000, 128]⟩ .f32) :
    Cert.KernelIdeal.Stages.segsum ei h = Cert.ReferenceIdeal.Stages.segsum ei h := rfl

/-- A node's count is at least one, so it is not zero. -/
theorem cnt_ne_zero (ei : (⟨⟨2, ![2, 1600000]⟩, .i32⟩ : BufTy).Contents (Elt Ideal)) (a : Fin 100000) :
    Cert.ReferenceIdeal.Stages.cnt ei (ix1 a) ≠ 0 := by
  unfold Cert.ReferenceIdeal.Stages.cnt
  rw [maximumf_apply, bcast_word_1]
  intro h0
  have h1 : oneWord ≤ 0 := h0 ▸ le_max_right _ _
  rw [oneWord_eq] at h1
  exact absurd h1 (by norm_num)

/-- The reciprocal-count column at row a is 1 divided by the node's count. -/
theorem cntInv_apply (ei : (⟨⟨2, ![2, 1600000]⟩, .i32⟩ : BufTy).Contents (Elt Ideal)) (a : Fin 100000) :
    Cert.KernelIdeal.Stages.cntInv ei (ix2 a (0 : Fin 1)) = Ideal.div oneWord (Cert.ReferenceIdeal.Stages.cnt ei (ix1 a)) := by
  unfold Cert.KernelIdeal.Stages.cntInv
  rw [shapeCast_a_a1_apply, hostDiv_at, bcast_word_1]
  rfl

/-- The scaled neighbour sums are the whole-array program's quotient, entry by entry. -/
theorem scale_eq_agg (ei : (⟨⟨2, ![2, 1600000]⟩, .i32⟩ : BufTy).Contents (Elt Ideal)) (h : FVec Ideal ⟨2, ![100000, 128]⟩ .f32)
    (a : Fin 100000) (c : Fin 128) :
    scaleRows (Cert.KernelIdeal.Stages.segsum ei h) (Cert.KernelIdeal.Stages.cntInv ei) (ix2 a c)
      = Cert.ReferenceIdeal.Stages.agg ei h (ix2 a c) := by
  rw [scaleRows_apply, cntInv_apply, mul_div_one _ _ (cnt_ne_zero ei a), segsum_eq]
  unfold Cert.ReferenceIdeal.Stages.agg
  rw [hostDiv_at, broadcastInDim_a1_ab_apply, broadcastInDim_a_a1_apply]

/-- The layer's linear part at 128 output columns: the two programs' values agree. -/
theorem lin128_eq (ei : (⟨⟨2, ![2, 1600000]⟩, .i32⟩ : BufTy).Contents (Elt Ideal)) (h : FVec Ideal ⟨2, ![100000, 128]⟩ .f32)
    (Wl : FVec Ideal ⟨2, ![128, 128]⟩ .f32) (bl : FVec Ideal ⟨1, ![128]⟩ .f32) (Wr : FVec Ideal ⟨2, ![128, 128]⟩ .f32) :
    lin (M := 100000) (K := 128) (N := 128) (Cert.KernelIdeal.Stages.segsum ei h) (Cert.KernelIdeal.Stages.cntInv ei) h Wl
        (Cert.KernelIdeal.Stages.rowOf bl) Wr
      = Cert.ReferenceIdeal.Stages.lin128 ei h Wl bl Wr := by
  unfold Cert.ReferenceIdeal.Stages.lin128 Cert.ReferenceIdeal.Stages.rows128
  rw [host_affine Cert.ReferenceIdeal.dot_S100000x128_S128x128_S100000x128_1_0_0_1_n_n rfl _ _
    Cert.KernelIdeal.Facts₀.shapeCasts_S128_S1x128]
  funext j
  obtain ⟨a, q, rfl⟩ : ∃ (a : Fin 100000) (q : Fin 128), j = ix2 a q := ⟨j 0, j 1, eq_ix2 j⟩
  rw [lin_apply, addf_apply, mm_apply]
  show _ = _ + Host.dotGeneral (DotDims.plain 100000 128 128) none h Wr (ix2 a q)
  rw [StackMember.dotGeneral_plain_apply]
  refine congrArg₂ (· + ·) ?_ rfl
  exact affine_rows (Cert.ReferenceIdeal.Stages.agg ei h) _ Wl _ a a q fun c => scale_eq_agg ei h a c

/-- The layer's linear part at 47 output columns. -/
theorem lin47_eq (ei : (⟨⟨2, ![2, 1600000]⟩, .i32⟩ : BufTy).Contents (Elt Ideal)) (h : FVec Ideal ⟨2, ![100000, 128]⟩ .f32)
    (Wl : FVec Ideal ⟨2, ![128, 47]⟩ .f32) (bl : FVec Ideal ⟨1, ![47]⟩ .f32) (Wr : FVec Ideal ⟨2, ![128, 47]⟩ .f32) :
    lin (M := 100000) (K := 128) (N := 47) (Cert.KernelIdeal.Stages.segsum ei h) (Cert.KernelIdeal.Stages.cntInv ei) h Wl
        (Cert.KernelIdeal.Stages.rowOf47 bl) Wr
      = Cert.ReferenceIdeal.Stages.lin47 ei h Wl bl Wr := by
  unfold Cert.ReferenceIdeal.Stages.lin47 Cert.ReferenceIdeal.Stages.rows47
  rw [host_affine Cert.ReferenceIdeal.dot_S100000x128_S128x47_S100000x47_1_0_0_1_n_n rfl _ _
    Cert.KernelIdeal.Facts₀.shapeCasts_S47_S1x47]
  funext j
  obtain ⟨a, q, rfl⟩ : ∃ (a : Fin 100000) (q : Fin 47), j = ix2 a q := ⟨j 0, j 1, eq_ix2 j⟩
  rw [lin_apply, addf_apply, mm_apply]
  show _ = _ + Host.dotGeneral (DotDims.plain 100000 128 47) none h Wr (ix2 a q)
  rw [StackMember.dotGeneral_plain_apply]
  refine congrArg₂ (· + ·) ?_ rfl
  exact affine_rows (Cert.ReferenceIdeal.Stages.agg ei h) _ Wl _ a a q fun c => scale_eq_agg ei h a c

end Cert.Bridge

end
-- ==== Proof.BridgeNorm.lean ====
/-
  The kernel program's normalisation stage equals the reference's, at the ideal values.

  Both programs normalise a layer's output h by its column means and column variances, scale by g, shift by be, and take
  the maximum with zero. They differ in spelling only. The kernel program keeps the mean and the variance as one row
  each ([1, 128]) and bounds the variance below by zero once more; the reference keeps them as vectors ([128]) repeated
  down the rows. Index by index:

  * the mean at column q is, in both, the column sum of h divided by the word of 100000;
  * the centred values are the same array, so the column sums of their squares are the same vector S; the variance's
    divisor is 100000 − 0 = 100000 in both, which is positive, so both take the quotient S(q) / 100000 and not the
    undefined value; every square of an extended real is nonnegative, so S(q) is, and so is the quotient: the kernel
    program's further maximum with zero changes nothing;
  * g and be reshaped to one row read, at column q, what the vector repeated down the rows reads.

  No property of the inputs is used.
-/
import proofs.«127273_j90726889160781_2_alg».proof.Proof.KerStages
import proofs.«127273_j90726889160781_2_alg».proof.Proof.RefStages
import proofs.«127273_j90726889160781_2_alg».proof.Proof.LibSageNorm

noncomputable section

namespace Cert.Bridge

open Idealize.ShloMosaic Idealize.ShloMosaic.ValueIdx Cert.GraphLayer Cert.Sage

/-! ## Literals and order facts of the extended reals -/

/-- The word 0x47C35000 denotes 100000. -/
theorem ofBits_100000 : Ideal.ofBits .f32 0x47C35000#32 = ((100000 : ℝ) : EReal) := by
  simp [Ideal.ofBits, Ideal.ieee, -EReal.coe_mul]; norm_num

/-- The square of any extended real is nonnegative: a real's square is, and both infinities square to +∞. -/
theorem mul_self_nonneg' (d : EReal) : 0 ≤ d * d := by
  induction d using EReal.rec with
  | bot => rw [EReal.bot_mul_bot]; exact le_top
  | coe r => rw [← EReal.coe_mul]; exact EReal.coe_nonneg.mpr (mul_self_nonneg r)
  | top => rw [EReal.top_mul_top]; exact le_top

/-- A nonnegative extended real divided by 100000 is nonnegative. -/
theorem div_100000_nonneg (x : EReal) (hx : 0 ≤ x) : 0 ≤ Ideal.div x ((100000 : ℝ) : EReal) := by
  rw [Ideal.div_coe (by norm_num : (100000 : ℝ) ≠ 0)]
  exact mul_nonneg hx (EReal.coe_nonneg.mpr (by norm_num))

/-- 100000 is greater than 0: the ordered comparison answers true. -/
theorem cmp_ogt_100000 : Ideal.cmp .ogt ((100000 : ℝ) : EReal) 0 = 1#1 := by
  unfold Ideal.cmp
  simp

/-! ## Array operations read at an index -/

theorem hostDivf_apply {s : Shape} (a b : FVec Ideal s .f32) (i : s.Idx) :
    Host.divf (F := Ideal) a b i = Ideal.div (a i) (b i) := rfl

theorem hostRsqrt_apply {s : Shape} (a : FVec Ideal s .f32) (i : s.Idx) :
    Host.rsqrt (F := Ideal) a i = Ideal.rsqrt (a i) := rfl

/-- A scalar broadcast to any shape reads the scalar everywhere. -/
theorem bcast0_apply {α : Type} {t : Shape} (h0 : (⟨0, ![]⟩ : Shape).BroadcastsInDim t ![])
    (v : (⟨0, ![]⟩ : Shape).Idx → α) (j : t.Idx) : broadcastInDim t ![] h0 v j = v ix0 :=
  broadcastInDim_apply (![] : Fin 0 → Fin t.rank) h0 v j ix0 (fun ax => ax.elim0)

section Stages

variable [Cert.KernelIdeal.Facts₀] [Cert.ReferenceIdeal.Facts]

/-- The column sums of the squared centred values, in the reference's spelling. -/
abbrev sumSq (h : FVec Ideal ⟨2, ![100000, 128]⟩ .f32) : FVec Ideal ⟨1, ![128]⟩ .f32 :=
  Cert.ReferenceIdeal.Stages.colSum (mulf (F := Ideal) (Cert.ReferenceIdeal.Stages.centered128 h) (Cert.ReferenceIdeal.Stages.centered128 h))

/-- A column sum of squares is nonnegative: zero plus a sum of nonnegative terms. -/
theorem colSum_sq_nonneg (d : FVec Ideal ⟨2, ![100000, 128]⟩ .f32) (j : (⟨1, ![128]⟩ : Shape).Idx) :
    0 ≤ Cert.ReferenceIdeal.Stages.colSum (mulf (F := Ideal) d d) j := by
  show 0 ≤ Ideal.hostReduceAdd _ (mulf (F := Ideal) d d) (Ideal.ofBits .f32 0x00000000#32) j
  unfold Ideal.hostReduceAdd
  rw [Ideal.ofBits_zero_f32, zero_add]
  exact Finset.sum_nonneg fun i _ => mul_self_nonneg' (d i)

/-- The variance's divisor is 100000: the word of 100000 minus the integer zero converted. -/
theorem varDenom_eq (j : (⟨0, ![]⟩ : Shape).Idx) : Cert.KernelIdeal.Stages.varDenom j = ((100000 : ℝ) : EReal) := by
  show Ideal.ofBits .f32 0x47C35000#32 - (((0#32 : BitVec 32).toInt : ℝ) : EReal) = _
  rw [ofBits_100000]
  simp

/-- The divisor is positive: the guard of the variance answers true. -/
theorem guard_true (j : (⟨0, ![]⟩ : Shape).Idx) :
    cmpf (F := Ideal) .ogt Cert.KernelIdeal.Stages.varDenom (constant (F := Ideal) ⟨0, ![]⟩ .f32 0x00000000#32) j = 1#1 := by
  show Ideal.cmp .ogt (Cert.KernelIdeal.Stages.varDenom j) (Ideal.ofBits .f32 0x00000000#32) = 1#1
  rw [varDenom_eq, Ideal.ofBits_zero_f32]
  exact cmp_ogt_100000

/-- The kernel program's mean row at column q: the column sum over the word of 100000. -/
theorem kmean_apply (h : FVec Ideal ⟨2, ![100000, 128]⟩ .f32) (q : Fin 128) :
    Cert.KernelIdeal.Stages.mean h (ix2 (0 : Fin 1) q)
      = Ideal.div (Cert.ReferenceIdeal.Stages.colSum h (ix1 q)) (Ideal.ofBits .f32 0x47C35000#32) := by
  unfold Cert.KernelIdeal.Stages.mean
  rw [hostDivf_apply, broadcastInDim_b_1b_apply, bcast0_apply]
  rfl

/-- The reference's mean vector at q: the same quotient. -/
theorem rmean_apply (h : FVec Ideal ⟨2, ![100000, 128]⟩ .f32) (q : Fin 128) :
    Cert.ReferenceIdeal.Stages.mean128 h (ix1 q)
      = Ideal.div (Cert.ReferenceIdeal.Stages.colSum h (ix1 q)) (Ideal.ofBits .f32 0x47C35000#32) := by
  unfold Cert.ReferenceIdeal.Stages.mean128
  rw [hostDivf_apply, bcast0_apply]
  rfl

theorem mean_eq (h : FVec Ideal ⟨2, ![100000, 128]⟩ .f32) (q : Fin 128) :
    Cert.KernelIdeal.Stages.mean h (ix2 (0 : Fin 1) q) = Cert.ReferenceIdeal.Stages.mean128 h (ix1 q) :=
  (kmean_apply h q).trans (rmean_apply h q).symm

/-- The kernel program's variance row at column q: the larger of the quotient and zero. -/
theorem kvar_apply (h : FVec Ideal ⟨2, ![100000, 128]⟩ .f32) (q : Fin 128) :
    Cert.KernelIdeal.Stages.var h (ix2 (0 : Fin 1) q)
      = max (Ideal.div (sumSq h (ix1 q)) (Cert.KernelIdeal.Stages.varDenom ix0)) (Ideal.ofBits .f32 0x00000000#32) := by
  unfold Cert.KernelIdeal.Stages.var
  rw [maximumf_apply, select_apply, bcast0_apply, guard_true, select_one, hostDivf_apply, broadcastInDim_b_1b_apply,
    bcast0_apply, bcast0_apply]
  rfl

/-- The reference's variance vector at q: the quotient. -/
theorem rvar_apply (h : FVec Ideal ⟨2, ![100000, 128]⟩ .f32) (q : Fin 128) :
    Cert.ReferenceIdeal.Stages.var128 h (ix1 q) = Ideal.div (sumSq h (ix1 q)) (Cert.KernelIdeal.Stages.varDenom ix0) := by
  unfold Cert.ReferenceIdeal.Stages.var128
  rw [select_apply, bcast0_apply, show Cert.ReferenceIdeal.Stages.dofCount = Cert.KernelIdeal.Stages.varDenom from rfl, guard_true, select_one,
    hostDivf_apply, bcast0_apply]

theorem var_eq (h : FVec Ideal ⟨2, ![100000, 128]⟩ .f32) (q : Fin 128) :
    Cert.KernelIdeal.Stages.var h (ix2 (0 : Fin 1) q) = Cert.ReferenceIdeal.Stages.var128 h (ix1 q) := by
  rw [kvar_apply, rvar_apply, varDenom_eq, Ideal.ofBits_zero_f32]
  exact max_eq_left (div_100000_nonneg _ (colSum_sq_nonneg _ _))

/-- A vector repeated down the rows reads, at (a, q), the vector's entry q. -/
theorem rows128_apply (v : FVec Ideal ⟨1, ![128]⟩ .f32) (a : Fin 100000) (q : Fin 128) :
    Cert.ReferenceIdeal.Stages.rows128 v (ix2 a q) = v (ix1 q) := by
  unfold Cert.ReferenceIdeal.Stages.rows128
  rw [broadcastInDim_1b_ab_apply, broadcastInDim_b_1b_apply]

/-- A vector reshaped to one row reads, at (0, q), the vector's entry q. -/
theorem rowOf_apply (v : FVec Ideal ⟨1, ![128]⟩ .f32) (q : Fin 128) :
    Cert.KernelIdeal.Stages.rowOf v (ix2 (0 : Fin 1) q) = v (ix1 q) := by
  unfold Cert.KernelIdeal.Stages.rowOf
  exact shapeCast_a_1a_apply v _ (0 : Fin 1) q

/-- The two programs' normalisation stages are the same function of the layer's output, g and be. -/
theorem bnrelu_eq (h : FVec Ideal ⟨2, ![100000, 128]⟩ .f32) (g be : FVec Ideal ⟨1, ![128]⟩ .f32) :
    Cert.Sage.bnRelu (M := 100000) (K := 128) h (Cert.KernelIdeal.Stages.mean h) (Cert.KernelIdeal.Stages.var h)
        (Cert.KernelIdeal.Stages.rowOf g) (Cert.KernelIdeal.Stages.rowOf be)
      = Cert.ReferenceIdeal.Stages.bnrelu h g be := by
  funext j
  obtain ⟨a, q, rfl⟩ : ∃ (a : Fin 100000) (q : Fin 128), j = ix2 a q := ⟨j 0, j 1, eq_ix2 j⟩
  rw [bnRelu_apply, mean_eq, var_eq, rowOf_apply, rowOf_apply]
  unfold Cert.ReferenceIdeal.Stages.bnrelu
  rw [maximumf_apply, addf_apply, mulf_apply, mulf_apply, subf_apply, rows128_apply, rows128_apply, rows128_apply,
    rows128_apply, hostRsqrt_apply, addf_apply, bcast0_apply, bcast0_apply]
  rfl

end Stages

end Cert.Bridge

end
-- ==== Proof.BridgeSoftmax.lean ====
/-
  The row-wise log-softmax of the whole-array program is `Cert.Sage.logSoftmax`.

  The whole-array program takes the row maxima with the host's reduction from −∞ and takes the maximum with −∞ once
  more (the identity), broadcasts them to a column and across the columns, and subtracts; then the row sums of the
  exponentials from zero, their logarithm as a column broadcast across the columns, subtracted. Entry by entry that is
  the function of `LibSageSoftmax`; no law of the extended reals is used beyond max (−∞) y = y and 0 + y = y.
-/
import proofs.«127273_j90726889160781_2_alg».proof.Proof.RefStages
import proofs.«127273_j90726889160781_2_alg».proof.Proof.LibSageSoftmax
import proofs.«127273_j90726889160781_2_alg».proof.Proof.BridgeLin

noncomputable section

namespace Cert.Bridge

open Idealize.ShloMosaic Idealize.ShloMosaic.ValueIdx Cert.Sage
open Cert.GraphLayer (broadcastInDim_a1_ab_apply broadcastInDim_a_a1_apply)

variable [Cert.ReferenceIdeal.Facts]

/-- The whole-array program's shifted matrix is each entry less its row's supremum. -/
theorem shifted47_eq (z : FVec Ideal ⟨2, ![100000, 47]⟩ .f32) :
    Cert.ReferenceIdeal.Stages.shifted47 z = shifted (M := 100000) (N := 47) z := by
  unfold Cert.ReferenceIdeal.Stages.shifted47
  funext j
  obtain ⟨a, q, rfl⟩ : ∃ (a : Fin 100000) (q : Fin 47), j = ix2 a q := ⟨j 0, j 1, eq_ix2 j⟩
  rw [shifted_apply, subf_apply, broadcastInDim_a1_ab_apply, broadcastInDim_a_a1_apply, maximumf_apply, bcast_word_1,
    hostRowMax_apply, max_neg_inf]

/-- The whole-array program's log-softmax is the row-wise log-softmax. -/
theorem logsm_eq (z : FVec Ideal ⟨2, ![100000, 47]⟩ .f32) :
    logSoftmax (M := 100000) (N := 47) z = Cert.ReferenceIdeal.Stages.logsm z := by
  unfold Cert.ReferenceIdeal.Stages.logsm
  rw [shifted47_eq]
  funext j
  obtain ⟨a, q, rfl⟩ : ∃ (a : Fin 100000) (q : Fin 47), j = ix2 a q := ⟨j 0, j 1, eq_ix2 j⟩
  rw [logSoftmax_apply, subf_apply, broadcastInDim_a1_ab_apply, hostLog_apply, broadcastInDim_a_a1_apply, hostRowSum_apply]
  rfl

end Cert.Bridge

end
-- ==== Proof.KernelValue.lean ====
/-
  The block-wise program's result is the whole-array program's function of the fifteen arguments.

  The result buffer after the last region is the log-softmax of the last layer's linear part of what that region is
  entered with; the region is entered with the neighbour sums of the second normalised layer, the reciprocal counts,
  that layer itself, the last weights and the bias as a row. Walking back region by region: each normalised layer is
  the rectified batch normalisation of a linear layer with that layer's own column means and variances, each linear
  layer is `Cert.Sage.lin` of the neighbour sums of the layer before (of the input features, for the first). Each of
  these is, stage by stage, the whole-array program's stage of the same arguments (`Cert.Bridge`), so the composition
  is the whole-array program's composition.
-/
import proofs.«127273_j90726889160781_2_alg».proof.Proof.Gen.ReferenceIdeal
import proofs.«127273_j90726889160781_2_alg».proof.Proof.KerEntry
import proofs.«127273_j90726889160781_2_alg».proof.Proof.Region0
import proofs.«127273_j90726889160781_2_alg».proof.Proof.Region1
import proofs.«127273_j90726889160781_2_alg».proof.Proof.Region2
import proofs.«127273_j90726889160781_2_alg».proof.Proof.Region3
import proofs.«127273_j90726889160781_2_alg».proof.Proof.Region4
import proofs.«127273_j90726889160781_2_alg».proof.Proof.BridgeLin
import proofs.«127273_j90726889160781_2_alg».proof.Proof.BridgeNorm
import proofs.«127273_j90726889160781_2_alg».proof.Proof.BridgeSoftmax

noncomputable section

namespace Cert.KernelIdeal.KernelValue

open Idealize.ShloMosaic Idealize.ShloMosaic.TcCoe
open Cert.KernelIdeal Cert.KernelIdeal.Gen Cert.KernelIdeal.KerEntry Cert.Sage

variable (m : (ℓ : Loc nD τ sig) → Buf (Elt Ideal) ℓ) (ρ : Dev nD → PrngReg) (c : Dev nD)

/-- The first linear layer. -/
theorem H0_eq : H0 m ρ c = Cert.ReferenceIdeal.Stages.lin128 (m ((c.tc : Thread nD τ).loc main_arg1))
    (m ((c.tc : Thread nD τ).loc main_arg0)) (m ((c.tc : Thread nD τ).loc main_arg2)) (m ((c.tc : Thread nD τ).loc main_arg3))
    (m ((c.tc : Thread nD τ).loc main_arg4)) := by
  refine (Region0.final (V1 m ρ) c).trans ?_
  have e0 : V1 m ρ c main_v22 = _ := entry0_0 m ρ c
  have e1 : V1 m ρ c main_v12 = _ := entry0_1 m ρ c
  have e2 : V1 m ρ c main_arg0 = _ := entry0_2 m ρ c
  have e3 : V1 m ρ c main_arg2 = _ := entry0_3 m ρ c
  have e4 : V1 m ρ c main_v23 = _ := entry0_4 m ρ c
  have e5 : V1 m ρ c main_arg4 = _ := entry0_5 m ρ c
  show lin (M := 100000) (K := 128) (N := 128) (V1 m ρ c main_v22) (V1 m ρ c main_v12) (V1 m ρ c main_arg0) (V1 m ρ c main_arg2)
    (V1 m ρ c main_v23) (V1 m ρ c main_arg4) = _
  rw [e0, e1, e2, e3, e4, e5]
  exact Cert.Bridge.lin128_eq _ _ _ _ _

/-- The first normalised layer. -/
theorem A0_eq : A0 m ρ c = Cert.ReferenceIdeal.Stages.bnrelu (H0 m ρ c) (m ((c.tc : Thread nD τ).loc main_arg5))
    (m ((c.tc : Thread nD τ).loc main_arg6)) := by
  refine (Region1.final (V5 m ρ) c).trans ?_
  have e0 : V5 m ρ c main_v24 = _ := entry1_0 m ρ c
  have e1 : V5 m ρ c main_v28 = _ := entry1_1 m ρ c
  have e2 : V5 m ρ c main_v31 = _ := entry1_2 m ρ c
  have e3 : V5 m ρ c main_v32 = _ := entry1_3 m ρ c
  have e4 : V5 m ρ c main_v33 = _ := entry1_4 m ρ c
  rw [e0, e1, e2, e3, e4]
  exact Cert.Bridge.bnrelu_eq _ _ _

/-- The second linear layer. -/
theorem H1_eq : H1 m ρ c = Cert.ReferenceIdeal.Stages.lin128 (m ((c.tc : Thread nD τ).loc main_arg1))
    (A0 m ρ c) (m ((c.tc : Thread nD τ).loc main_arg7)) (m ((c.tc : Thread nD τ).loc main_arg8))
    (m ((c.tc : Thread nD τ).loc main_arg9)) := by
  refine (Region2.final (V7 m ρ) c).trans ?_
  have e0 : V7 m ρ c main_v44 = _ := entry2_0 m ρ c
  have e1 : V7 m ρ c main_v12 = _ := entry2_1 m ρ c
  have e2 : V7 m ρ c main_v34 = _ := entry2_2 m ρ c
  have e3 : V7 m ρ c main_arg7 = _ := entry2_3 m ρ c
  have e4 : V7 m ρ c main_v45 = _ := entry2_4 m ρ c
  have e5 : V7 m ρ c main_arg9 = _ := entry2_5 m ρ c
  show lin (M := 100000) (K := 128) (N := 128) (V7 m ρ c main_v44) (V7 m ρ c main_v12) (V7 m ρ c main_v34) (V7 m ρ c main_arg7)
    (V7 m ρ c main_v45) (V7 m ρ c main_arg9) = _
  rw [e0, e1, e2, e3, e4, e5]
  exact Cert.Bridge.lin128_eq _ _ _ _ _

/-- The second normalised layer. -/
theorem A1_eq : A1 m ρ c = Cert.ReferenceIdeal.Stages.bnrelu (H1 m ρ c) (m ((c.tc : Thread nD τ).loc main_arg10))
    (m ((c.tc : Thread nD τ).loc main_arg11)) := by
  refine (Region3.final (V11 m ρ) c).trans ?_
  have e0 : V11 m ρ c main_v46 = _ := entry3_0 m ρ c
  have e1 : V11 m ρ c main_v50 = _ := entry3_1 m ρ c
  have e2 : V11 m ρ c main_v53 = _ := entry3_2 m ρ c
  have e3 : V11 m ρ c main_v54 = _ := entry3_3 m ρ c
  have e4 : V11 m ρ c main_v55 = _ := entry3_4 m ρ c
  rw [e0, e1, e2, e3, e4]
  exact Cert.Bridge.bnrelu_eq _ _ _

/-- The result buffer: the log-softmax of the last linear layer. -/
theorem out_eq : W14 m ρ c (Proc.devRef .tc main_v68)
    = Cert.ReferenceIdeal.Stages.logsm (Cert.ReferenceIdeal.Stages.lin47 (m ((c.tc : Thread nD τ).loc main_arg1)) (A1 m ρ c)
        (m ((c.tc : Thread nD τ).loc main_arg12)) (m ((c.tc : Thread nD τ).loc main_arg13)) (m ((c.tc : Thread nD τ).loc main_arg14))) := by
  refine (result m ρ c).trans ((Region4.final (V13 m ρ) c).trans ?_)
  have e0 : V13 m ρ c main_v66 = _ := entry4_0 m ρ c
  have e1 : V13 m ρ c main_v12 = _ := entry4_1 m ρ c
  have e2 : V13 m ρ c main_v56 = _ := entry4_2 m ρ c
  have e3 : V13 m ρ c main_arg12 = _ := entry4_3 m ρ c
  have e4 : V13 m ρ c main_v67 = _ := entry4_4 m ρ c
  have e5 : V13 m ρ c main_arg14 = _ := entry4_5 m ρ c
  show logSoftmax (M := 100000) (N := 47) (lin (M := 100000) (K := 128) (N := 47) (V13 m ρ c main_v66) (V13 m ρ c main_v12)
    (V13 m ρ c main_v56) (V13 m ρ c main_arg12) (V13 m ρ c main_v67) (V13 m ρ c main_arg14)) = _
  rw [e0, e1, e2, e3, e4, e5, Cert.Bridge.lin47_eq]
  exact Cert.Bridge.logsm_eq _

/-- The result buffer after the run is the whole-array program's function of the arguments. -/
theorem value : W14 m ρ c (Proc.devRef .tc main_v68)
    = Cert.ReferenceIdeal.Stages.refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) := by
  rw [out_eq, A1_eq, H1_eq, A0_eq, H0_eq]
  rfl

end Cert.KernelIdeal.KernelValue

end
-- ==== Proof.RefOps.lean ====
/-
  The reference program's @main as a LIST of its 206 host operations, in order, the outlined functions'
  bodies written at their calls over the calls' own buffer records (the variance function twice, its
  selection function inside it, the rectifier twice, the log-softmax once), and the run of that list:
  every weakly fair execution of @main terminates with each TensorCore buffer at the fold of the
  operations over the launch contents.

  The list is cut where the computation's stages end (the edge rows, a layer's linear part, a layer's
  statistics and normalisation, the log-softmax) and where @main's three printed windows end, so that
  each window is the concatenation of whole pieces and each stage can be read on its own piece.  Beside
  each piece stands the list of the buffers it writes: a buffer outside that list keeps its contents.
-/
import proofs.«127273_j90726889160781_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The operations -/

/-- The edge table's two rows as vectors: a slice and a reshape each (the printed %0 … %3). -/
abbrev opsE : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The first layer's linear part (the printed %c … %28): the wrapped source indices, the gather, the two scatter-adds, the division by the count, the two products and the bias. -/
abbrev opsL0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    StableHlo.binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v26 main_v27 main_v28 (addf : (⟨S100000x128, .f32⟩ : BufTy).Contents (Elt F) → (⟨S100000x128, .f32⟩ : BufTy).Contents (Elt F) → (⟨S100000x128, .f32⟩ : BufTy).Contents (Elt F)) ]

/-- The first layer's statistics, normalisation and rectifier (the printed %cst_4 … %48): the mean, the variance function's body with its selection function's, the affine map, the rectifier function's body. -/
abbrev opsB0 : List (HloOp τ sig (Elt F)) :=
  [ StableHlo.nullary main_cst_4 (constant S_ .f32 0x00000000#32),
    StableHlo.binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst ((constant S_ .f32 0x00000000#32) : (⟨S_, .f32⟩ : BufTy).Contents (Elt F)),
    StableHlo.TRef.binary (.of main_v28 : StableHlo.TRef sig ⟨S100000x128, .f32⟩) main_call0.cst main_call0.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.TRef.unary main_call0.v0 main_call0.v1 ((broadcastInDim S1x128 ![1] bcast_S128_S1x128_1) : (⟨S128, .f32⟩ : BufTy).Contents (Elt F) → (⟨S1x128, .f32⟩ : BufTy).Contents (Elt F)),
    StableHlo.TRef.nullary main_call0.cst_0 ((constant S_ .f32 0x47C35000#32) : (⟨S_, .f32⟩ : BufTy).Contents (Elt F)),
    StableHlo.TRef.unary main_call0.cst_0 main_call0.v2 ((broadcastInDim S1x128 ![] bcast_S_S1x128) : (⟨S_, .f32⟩ : BufTy).Contents (Elt F) → (⟨S1x128, .f32⟩ : BufTy).Contents (Elt F)),
    StableHlo.TRef.binary main_call0.v1 main_call0.v2 main_call0.v3 (Host.divf : (⟨S1x128, .f32⟩ : BufTy).Contents (Elt F) → (⟨S1x128, .f32⟩ : BufTy).Contents (Elt F) → (⟨S1x128, .f32⟩ : BufTy).Contents (Elt F)),
    StableHlo.TRef.unary main_call0.v3 main_call0.v4 ((broadcastInDim S100000x128 ![0, 1] bcast_S1x128_S100000x128_0_1) : (⟨S1x128, .f32⟩ : BufTy).Contents (Elt F) → (⟨S100000x128, .f32⟩ : BufTy).Contents (Elt F)),
    StableHlo.TRef.binary (.of main_v28 : StableHlo.TRef sig ⟨S100000x128, .f32⟩) main_call0.v4 main_call0.v5 (subf : (⟨S100000x128, .f32⟩ : BufTy).Contents (Elt F) → (⟨S100000x128, .f32⟩ : BufTy).Contents (Elt F) → (⟨S100000x128, .f32⟩ : BufTy).Contents (Elt F)),
    StableHlo.TRef.binary main_call0.v5 main_call0.v5 main_call0.v6 (mulf : (⟨S100000x128, .f32⟩ : BufTy).Contents (Elt F) → (⟨S100000x128, .f32⟩ : BufTy).Contents (Elt F) → (⟨S100000x128, .f32⟩ : BufTy).Contents (Elt F)),
    StableHlo.TRef.unary (.of main_c_6 : StableHlo.TRef sig ⟨S_, .i32⟩) main_call0.v7 ((sitofp .f32) : (⟨S_, .i32⟩ : BufTy).Contents (Elt F) → (⟨S_, .f32⟩ : BufTy).Contents (Elt F)),
    StableHlo.TRef.nullary main_call0.cst_1 ((constant S_ .f32 0x47C35000#32) : (⟨S_, .f32⟩ : BufTy).Contents (Elt F)),
    StableHlo.TRef.binary main_call0.cst_1 main_call0.v7 main_call0.v8 (subf : (⟨S_, .f32⟩ : BufTy).Contents (Elt F) → (⟨S_, .f32⟩ : BufTy).Contents (Elt F) → (⟨S_, .f32⟩ : BufTy).Contents (Elt F)),
    StableHlo.TRef.nullary main_call0.cst_2 ((constant S_ .f32 0x00000000#32) : (⟨S_, .f32⟩ : BufTy).Contents (Elt F)),
    StableHlo.TRef.binary main_call0.v6 main_call0.cst_2 main_call0.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.TRef.unary main_call0.v8 main_call0.v10 ((broadcastInDim S128 ![] bcast_S_S128) : (⟨S_, .f32⟩ : BufTy).Contents (Elt F) → (⟨S128, .f32⟩ : BufTy).Contents (Elt F)),
    StableHlo.TRef.binary main_call0.v9 main_call0.v10 main_call0.v11 (Host.divf : (⟨S128, .f32⟩ : BufTy).Contents (Elt F) → (⟨S128, .f32⟩ : BufTy).Contents (Elt F) → (⟨S128, .f32⟩ : BufTy).Contents (Elt F)),
    StableHlo.TRef.nullary main_call0.cst_3 ((constant S_ .f32 0x00000000#32) : (⟨S_, .f32⟩ : BufTy).Contents (Elt F)),
    StableHlo.TRef.binary main_call0.v8 main_call0.cst_3 main_call0.v12 ((cmpf .ogt) : (⟨S_, .f32⟩ : BufTy).Contents (Elt F) → (⟨S_, .f32⟩ : BufTy).Contents (Elt F) → (⟨S_, .i1⟩ : BufTy).Contents (Elt F)),
    StableHlo.TRef.nullary main_call0.cst_4 ((constant S_ .f32 0x7FC00000#32) : (⟨S_, .f32⟩ : BufTy).Contents (Elt F)),
    StableHlo.TRef.unary main_call0.cst_4 main_call0.call0.v0 (id : (⟨S_, .f32⟩ : BufTy).Contents (Elt F) → (⟨S_, .f32⟩ : BufTy).Contents (Elt F)),
    StableHlo.TRef.unary main_call0.call0.v0 main_call0.call0.v1 ((broadcastInDim S128 ![] bcast_S_S128) : (⟨S_, .f32⟩ : BufTy).Contents (Elt F) → (⟨S128, .f32⟩ : BufTy).Contents (Elt F)),
    StableHlo.TRef.ternary main_call0.v12 main_call0.v11 main_call0.call0.v1 main_call0.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg6 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst ((constant S_ .f32 0x00000000#32) : (⟨S_, .f32⟩ : BufTy).Contents (Elt F)),
    StableHlo.TRef.unary main_call1.cst main_call1.v0 ((broadcastInDim S100000x128 ![] bcast_S_S100000x128) : (⟨S_, .f32⟩ : BufTy).Contents (Elt F) → (⟨S100000x128, .f32⟩ : BufTy).Contents (Elt F)),
    StableHlo.TRef.binary (.of main_v47 : StableHlo.TRef sig ⟨S100000x128, .f32⟩) main_call1.v0 main_call1.v1 (maximumf : (⟨S100000x128, .f32⟩ : BufTy).Contents (Elt F) → (⟨S100000x128, .f32⟩ : BufTy).Contents (Elt F) → (⟨S100000x128, .f32⟩ : BufTy).Contents (Elt F)) ]

/-- The second layer's linear part, its first operation (the last statement of @main's first window). -/
abbrev opsL1a : List (HloOp τ sig (Elt F)) :=
  [ StableHlo.nullary main_c_8 (constantI S_ 32 0#32) ]

/-- The second layer's linear part, the rest (the printed %49 … %73). -/
abbrev opsL1b : List (HloOp τ sig (Elt F)) :=
  [ StableHlo.unary main_c_8 main_v49 (broadcastInDim S1600000 ![] bcast_S_S1600000 : (⟨S_, .i32⟩ : BufTy).Contents (Elt F) → (⟨S1600000, .i32⟩ : BufTy).Contents (Elt F)),
    StableHlo.binary main_v1 main_v49 main_v50 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v51 (broadcastInDim S1600000 ![] bcast_S_S1600000 : (⟨S_, .i32⟩ : BufTy).Contents (Elt F) → (⟨S1600000, .i32⟩ : BufTy).Contents (Elt F)),
    StableHlo.binary main_v1 main_v51 main_v52 (addi : (⟨S1600000, .i32⟩ : BufTy).Contents (Elt F) → (⟨S1600000, .i32⟩ : BufTy).Contents (Elt F) → (⟨S1600000, .i32⟩ : BufTy).Contents (Elt F)),
    StableHlo.ternary main_v50 main_v52 main_v1 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v53 main_v54 (broadcastInDim S1600000x1 ![0] bcast_S1600000_S1600000x1_0 : (⟨S1600000, .i32⟩ : BufTy).Contents (Elt F) → (⟨S1600000x1, .i32⟩ : BufTy).Contents (Elt F)),
    StableHlo.binary main_v48 main_v54 main_v55 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_11 (constant S_ .f32 0x3F800000#32),
    StableHlo.unary main_cst_11 main_v59 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v58 main_v66 main_v67 (Host.divf : (⟨S100000x128, .f32⟩ : BufTy).Contents (Elt F) → (⟨S100000x128, .f32⟩ : BufTy).Contents (Elt F) → (⟨S100000x128, .f32⟩ : BufTy).Contents (Elt F)),
    StableHlo.binary main_v67 main_arg7 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.binary main_v48 main_arg9 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v71 main_v72 main_v73 (addf : (⟨S100000x128, .f32⟩ : BufTy).Contents (Elt F) → (⟨S100000x128, .f32⟩ : BufTy).Contents (Elt F) → (⟨S100000x128, .f32⟩ : BufTy).Contents (Elt F)) ]

/-- The second layer's statistics, normalisation and rectifier (the printed %cst_14 … %93). -/
abbrev opsB1 : List (HloOp τ sig (Elt F)) :=
  [ StableHlo.nullary main_cst_14 (constant S_ .f32 0x00000000#32),
    StableHlo.binary main_v73 main_cst_14 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v75 (broadcastInDim S128 ![] bcast_S_S128 : (⟨S_, .f32⟩ : BufTy).Contents (Elt F) → (⟨S128, .f32⟩ : BufTy).Contents (Elt F)),
    StableHlo.binary main_v74 main_v75 main_v76 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst ((constant S_ .f32 0x00000000#32) : (⟨S_, .f32⟩ : BufTy).Contents (Elt F)),
    StableHlo.TRef.binary (.of main_v73 : StableHlo.TRef sig ⟨S100000x128, .f32⟩) main_call2.cst main_call2.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.TRef.unary main_call2.v0 main_call2.v1 ((broadcastInDim S1x128 ![1] bcast_S128_S1x128_1) : (⟨S128, .f32⟩ : BufTy).Contents (Elt F) → (⟨S1x128, .f32⟩ : BufTy).Contents (Elt F)),
    StableHlo.TRef.nullary main_call2.cst_0 ((constant S_ .f32 0x47C35000#32) : (⟨S_, .f32⟩ : BufTy).Contents (Elt F)),
    StableHlo.TRef.unary main_call2.cst_0 main_call2.v2 ((broadcastInDim S1x128 ![] bcast_S_S1x128) : (⟨S_, .f32⟩ : BufTy).Contents (Elt F) → (⟨S1x128, .f32⟩ : BufTy).Contents (Elt F)),
    StableHlo.TRef.binary main_call2.v1 main_call2.v2 main_call2.v3 (Host.divf : (⟨S1x128, .f32⟩ : BufTy).Contents (Elt F) → (⟨S1x128, .f32⟩ : BufTy).Contents (Elt F) → (⟨S1x128, .f32⟩ : BufTy).Contents (Elt F)),
    StableHlo.TRef.unary main_call2.v3 main_call2.v4 ((broadcastInDim S100000x128 ![0, 1] bcast_S1x128_S100000x128_0_1) : (⟨S1x128, .f32⟩ : BufTy).Contents (Elt F) → (⟨S100000x128, .f32⟩ : BufTy).Contents (Elt F)),
    StableHlo.TRef.binary (.of main_v73 : StableHlo.TRef sig ⟨S100000x128, .f32⟩) main_call2.v4 main_call2.v5 (subf : (⟨S100000x128, .f32⟩ : BufTy).Contents (Elt F) → (⟨S100000x128, .f32⟩ : BufTy).Contents (Elt F) → (⟨S100000x128, .f32⟩ : BufTy).Contents (Elt F)),
    StableHlo.TRef.binary main_call2.v5 main_call2.v5 main_call2.v6 (mulf : (⟨S100000x128, .f32⟩ : BufTy).Contents (Elt F) → (⟨S100000x128, .f32⟩ : BufTy).Contents (Elt F) → (⟨S100000x128, .f32⟩ : BufTy).Contents (Elt F)),
    StableHlo.TRef.unary (.of main_c_16 : StableHlo.TRef sig ⟨S_, .i32⟩) main_call2.v7 ((sitofp .f32) : (⟨S_, .i32⟩ : BufTy).Contents (Elt F) → (⟨S_, .f32⟩ : BufTy).Contents (Elt F)),
    StableHlo.TRef.nullary main_call2.cst_1 ((constant S_ .f32 0x47C35000#32) : (⟨S_, .f32⟩ : BufTy).Contents (Elt F)),
    StableHlo.TRef.binary main_call2.cst_1 main_call2.v7 main_call2.v8 (subf : (⟨S_, .f32⟩ : BufTy).Contents (Elt F) → (⟨S_, .f32⟩ : BufTy).Contents (Elt F) → (⟨S_, .f32⟩ : BufTy).Contents (Elt F)),
    StableHlo.TRef.nullary main_call2.cst_2 ((constant S_ .f32 0x00000000#32) : (⟨S_, .f32⟩ : BufTy).Contents (Elt F)),
    StableHlo.TRef.binary main_call2.v6 main_call2.cst_2 main_call2.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.TRef.unary main_call2.v8 main_call2.v10 ((broadcastInDim S128 ![] bcast_S_S128) : (⟨S_, .f32⟩ : BufTy).Contents (Elt F) → (⟨S128, .f32⟩ : BufTy).Contents (Elt F)),
    StableHlo.TRef.binary main_call2.v9 main_call2.v10 main_call2.v11 (Host.divf : (⟨S128, .f32⟩ : BufTy).Contents (Elt F) → (⟨S128, .f32⟩ : BufTy).Contents (Elt F) → (⟨S128, .f32⟩ : BufTy).Contents (Elt F)),
    StableHlo.TRef.nullary main_call2.cst_3 ((constant S_ .f32 0x00000000#32) : (⟨S_, .f32⟩ : BufTy).Contents (Elt F)),
    StableHlo.TRef.binary main_call2.v8 main_call2.cst_3 main_call2.v12 ((cmpf .ogt) : (⟨S_, .f32⟩ : BufTy).Contents (Elt F) → (⟨S_, .f32⟩ : BufTy).Contents (Elt F) → (⟨S_, .i1⟩ : BufTy).Contents (Elt F)),
    StableHlo.TRef.nullary main_call2.cst_4 ((constant S_ .f32 0x7FC00000#32) : (⟨S_, .f32⟩ : BufTy).Contents (Elt F)),
    StableHlo.TRef.unary main_call2.cst_4 main_call2.call0.v0 (id : (⟨S_, .f32⟩ : BufTy).Contents (Elt F) → (⟨S_, .f32⟩ : BufTy).Contents (Elt F)),
    StableHlo.TRef.unary main_call2.call0.v0 main_call2.call0.v1 ((broadcastInDim S128 ![] bcast_S_S128) : (⟨S_, .f32⟩ : BufTy).Contents (Elt F) → (⟨S128, .f32⟩ : BufTy).Contents (Elt F)),
    StableHlo.TRef.ternary main_call2.v12 main_call2.v11 main_call2.call0.v1 main_call2.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v76 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v79 main_v80 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v81 (broadcastInDim S128 ![] bcast_S_S128 : (⟨S_, .f32⟩ : BufTy).Contents (Elt F) → (⟨S128, .f32⟩ : BufTy).Contents (Elt F)),
    StableHlo.binary main_v77 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v85 main_v86 (mulf : (⟨S100000x128, .f32⟩ : BufTy).Contents (Elt F) → (⟨S100000x128, .f32⟩ : BufTy).Contents (Elt F) → (⟨S100000x128, .f32⟩ : BufTy).Contents (Elt F)),
    StableHlo.unary main_arg10 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v88 main_v89 (mulf : (⟨S100000x128, .f32⟩ : BufTy).Contents (Elt F) → (⟨S100000x128, .f32⟩ : BufTy).Contents (Elt F) → (⟨S100000x128, .f32⟩ : BufTy).Contents (Elt F)),
    StableHlo.unary main_arg11 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst ((constant S_ .f32 0x00000000#32) : (⟨S_, .f32⟩ : BufTy).Contents (Elt F)),
    StableHlo.TRef.unary main_call3.cst main_call3.v0 ((broadcastInDim S100000x128 ![] bcast_S_S100000x128) : (⟨S_, .f32⟩ : BufTy).Contents (Elt F) → (⟨S100000x128, .f32⟩ : BufTy).Contents (Elt F)),
    StableHlo.TRef.binary (.of main_v92 : StableHlo.TRef sig ⟨S100000x128, .f32⟩) main_call3.v0 main_call3.v1 (maximumf : (⟨S100000x128, .f32⟩ : BufTy).Contents (Elt F) → (⟨S100000x128, .f32⟩ : BufTy).Contents (Elt F) → (⟨S100000x128, .f32⟩ : BufTy).Contents (Elt F)) ]

/-- The third layer's linear part, its first six operations (the end of @main's second window). -/
abbrev opsL2a : List (HloOp τ sig (Elt F)) :=
  [ StableHlo.nullary main_c_18 (constantI S_ 32 0#32),
    StableHlo.unary main_c_18 main_v94 (broadcastInDim S1600000 ![] bcast_S_S1600000 : (⟨S_, .i32⟩ : BufTy).Contents (Elt F) → (⟨S1600000, .i32⟩ : BufTy).Contents (Elt F)),
    StableHlo.binary main_v1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v1 main_v96 main_v97 (addi : (⟨S1600000, .i32⟩ : BufTy).Contents (Elt F) → (⟨S1600000, .i32⟩ : BufTy).Contents (Elt F) → (⟨S1600000, .i32⟩ : BufTy).Contents (Elt F)) ]

/-- The third layer's linear part, the rest (the printed %98 … %118). -/
abbrev opsL2b : List (HloOp τ sig (Elt F)) :=
  [ StableHlo.ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v93 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_20 (constant S_ .f32 0x00000000#32),
    StableHlo.unary main_cst_20 main_v101 (broadcastInDim S100000x128 ![] bcast_S_S100000x128 : (⟨S_, .f32⟩ : BufTy).Contents (Elt F) → (⟨S100000x128, .f32⟩ : BufTy).Contents (Elt F)),
    StableHlo.unary main_v3 main_v102 (broadcastInDim S1600000x1 ![0] bcast_S1600000_S1600000x1_0 : (⟨S1600000, .i32⟩ : BufTy).Contents (Elt F) → (⟨S1600000x1, .i32⟩ : BufTy).Contents (Elt F)),
    StableHlo.ternary main_v101 main_v102 main_v100 main_v103 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_21 (constant S_ .f32 0x3F800000#32),
    StableHlo.unary main_cst_21 main_v104 (broadcastInDim S1600000 ![] bcast_S_S1600000 : (⟨S_, .f32⟩ : BufTy).Contents (Elt F) → (⟨S1600000, .f32⟩ : BufTy).Contents (Elt F)),
    StableHlo.nullary main_cst_22 (constant S_ .f32 0x00000000#32),
    StableHlo.unary main_cst_22 main_v105 (broadcastInDim S100000 ![] bcast_S_S100000 : (⟨S_, .f32⟩ : BufTy).Contents (Elt F) → (⟨S100000, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_23 (constant S_ .f32 0x3F800000#32),
    StableHlo.unary main_cst_23 main_v108 (broadcastInDim S100000 ![] bcast_S_S100000 : (⟨S_, .f32⟩ : BufTy).Contents (Elt F) → (⟨S100000, .f32⟩ : BufTy).Contents (Elt F)),
    StableHlo.binary main_v107 main_v108 main_v109 (maximumf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x128 ![0, 1] bcast_S100000x1_S100000x128_0_1 : (⟨S100000x1, .f32⟩ : BufTy).Contents (Elt F) → (⟨S100000x128, .f32⟩ : BufTy).Contents (Elt F)),
    StableHlo.binary main_v103 main_v111 main_v112 (Host.divf : (⟨S100000x128, .f32⟩ : BufTy).Contents (Elt F) → (⟨S100000x128, .f32⟩ : BufTy).Contents (Elt F) → (⟨S100000x128, .f32⟩ : BufTy).Contents (Elt F)),
    StableHlo.binary main_v112 main_arg12 main_v113 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    StableHlo.unary main_arg13 main_v114 (broadcastInDim S1x47 ![1] bcast_S47_S1x47_1 : (⟨S47, .f32⟩ : BufTy).Contents (Elt F) → (⟨S1x47, .f32⟩ : BufTy).Contents (Elt F)),
    StableHlo.unary main_v114 main_v115 (broadcastInDim S100000x47 ![0, 1] bcast_S1x47_S100000x47_0_1 : (⟨S1x47, .f32⟩ : BufTy).Contents (Elt F) → (⟨S100000x47, .f32⟩ : BufTy).Contents (Elt F)),
    StableHlo.binary main_v113 main_v115 main_v116 (addf : (⟨S100000x47, .f32⟩ : BufTy).Contents (Elt F) → (⟨S100000x47, .f32⟩ : BufTy).Contents (Elt F) → (⟨S100000x47, .f32⟩ : BufTy).Contents (Elt F)),
    StableHlo.binary main_v93 main_arg14 main_v117 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    StableHlo.binary main_v116 main_v117 main_v118 (addf : (⟨S100000x47, .f32⟩ : BufTy).Contents (Elt F) → (⟨S100000x47, .f32⟩ : BufTy).Contents (Elt F) → (⟨S100000x47, .f32⟩ : BufTy).Contents (Elt F)) ]

/-- The log-softmax function's body at the third layer's output (the printed %119). -/
abbrev opsS : List (HloOp τ sig (Elt F)) :=
  [ StableHlo.TRef.nullary main_call4.cst ((constant S_ .f32 0xFF800000#32) : (⟨S_, .f32⟩ : BufTy).Contents (Elt F)),
    StableHlo.TRef.binary (.of main_v118 : StableHlo.TRef sig ⟨S100000x47, .f32⟩) main_call4.cst main_call4.v0 ((fun x v => Host.reduce FloatOps.maximumf x v reducesTo_S100000x47_S100000_d1 h_S_) : (⟨S100000x47, .f32⟩ : BufTy).Contents (Elt F) → (⟨S_, .f32⟩ : BufTy).Contents (Elt F) → (⟨S100000, .f32⟩ : BufTy).Contents (Elt F)),
    StableHlo.TRef.nullary main_call4.cst_0 ((constant S_ .f32 0xFF800000#32) : (⟨S_, .f32⟩ : BufTy).Contents (Elt F)),
    StableHlo.TRef.unary main_call4.cst_0 main_call4.v1 ((broadcastInDim S100000 ![] bcast_S_S100000) : (⟨S_, .f32⟩ : BufTy).Contents (Elt F) → (⟨S100000, .f32⟩ : BufTy).Contents (Elt F)),
    StableHlo.TRef.binary main_call4.v1 main_call4.v0 main_call4.v2 (maximumf : (⟨S100000, .f32⟩ : BufTy).Contents (Elt F) → (⟨S100000, .f32⟩ : BufTy).Contents (Elt F) → (⟨S100000, .f32⟩ : BufTy).Contents (Elt F)),
    StableHlo.TRef.unary main_call4.v2 main_call4.v3 ((broadcastInDim S100000x1 ![0] bcast_S100000_S100000x1_0) : (⟨S100000, .f32⟩ : BufTy).Contents (Elt F) → (⟨S100000x1, .f32⟩ : BufTy).Contents (Elt F)),
    StableHlo.TRef.unary main_call4.v3 main_call4.v4 ((broadcastInDim S100000x47 ![0, 1] bcast_S100000x1_S100000x47_0_1) : (⟨S100000x1, .f32⟩ : BufTy).Contents (Elt F) → (⟨S100000x47, .f32⟩ : BufTy).Contents (Elt F)),
    StableHlo.TRef.binary (.of main_v118 : StableHlo.TRef sig ⟨S100000x47, .f32⟩) main_call4.v4 main_call4.v5 (subf : (⟨S100000x47, .f32⟩ : BufTy).Contents (Elt F) → (⟨S100000x47, .f32⟩ : BufTy).Contents (Elt F) → (⟨S100000x47, .f32⟩ : BufTy).Contents (Elt F)),
    StableHlo.TRef.unary main_call4.v5 main_call4.v6 (Host.exp : (⟨S100000x47, .f32⟩ : BufTy).Contents (Elt F) → (⟨S100000x47, .f32⟩ : BufTy).Contents (Elt F)),
    StableHlo.TRef.nullary main_call4.cst_1 ((constant S_ .f32 0x00000000#32) : (⟨S_, .f32⟩ : BufTy).Contents (Elt F)),
    StableHlo.TRef.binary main_call4.v6 main_call4.cst_1 main_call4.v7 ((fun x v => Host.reduceAdd x v reducesTo_S100000x47_S100000_d1 h_S_) : (⟨S100000x47, .f32⟩ : BufTy).Contents (Elt F) → (⟨S_, .f32⟩ : BufTy).Contents (Elt F) → (⟨S100000, .f32⟩ : BufTy).Contents (Elt F)),
    StableHlo.TRef.unary main_call4.v7 main_call4.v8 ((broadcastInDim S100000x1 ![0] bcast_S100000_S100000x1_0) : (⟨S100000, .f32⟩ : BufTy).Contents (Elt F) → (⟨S100000x1, .f32⟩ : BufTy).Contents (Elt F)),
    StableHlo.TRef.unary main_call4.v8 main_call4.v9 (Host.log : (⟨S100000x1, .f32⟩ : BufTy).Contents (Elt F) → (⟨S100000x1, .f32⟩ : BufTy).Contents (Elt F)),
    StableHlo.TRef.unary main_call4.v9 main_call4.v10 ((broadcastInDim S100000x47 ![0, 1] bcast_S100000x1_S100000x47_0_1) : (⟨S100000x1, .f32⟩ : BufTy).Contents (Elt F) → (⟨S100000x47, .f32⟩ : BufTy).Contents (Elt F)),
    StableHlo.TRef.binary main_call4.v5 main_call4.v10 main_call4.v11 (subf : (⟨S100000x47, .f32⟩ : BufTy).Contents (Elt F) → (⟨S100000x47, .f32⟩ : BufTy).Contents (Elt F) → (⟨S100000x47, .f32⟩ : BufTy).Contents (Elt F)) ]

/-- The second layer's linear part. -/
abbrev opsL1 : List (HloOp τ sig (Elt F)) := opsL1a ++ opsL1b
/-- The third layer's linear part. -/
abbrev opsL2 : List (HloOp τ sig (Elt F)) := opsL2a ++ opsL2b

/-- The operations of @main's first printed window (statements 1 … 60). -/
abbrev ops0 : List (HloOp τ sig (Elt F)) := opsE ++ (opsL0 ++ (opsB0 ++ opsL1a))
/-- The operations of @main's second printed window (statements 61 … 120). -/
abbrev ops1 : List (HloOp τ sig (Elt F)) := opsL1b ++ (opsB1 ++ opsL2a)
/-- The operations of @main's third printed window (statements 121 … 147). -/
abbrev ops2 : List (HloOp τ sig (Elt F)) := opsL2b ++ opsS

/-- @main's 206 operations, in order. -/
abbrev ops : List (HloOp τ sig (Elt F)) := ops0 ++ (ops1 ++ ops2)

/-- The same list cut by stages. -/
theorem ops_stages :
    (ops : List (HloOp τ sig (Elt F))) = opsE ++ (opsL0 ++ (opsB0 ++ (opsL1 ++ (opsB1 ++ (opsL2 ++ opsS))))) := by
  simp only [ops, ops0, ops1, ops2, opsL1, opsL2, List.append_assoc]

/-! ## @main is that straight line -/

set_option maxRecDepth 8192 in
set_option maxHeartbeats 4000000 in
/-- The first window: the two functions it calls unfolded at their calls and the records at their fields, both
    sides are one chain of steps once sequencing is reassociated. -/
theorem part0_eq (c : Dev nD) : main_part0 (F := F) c = seq ops0 := by
  simp only [main_part0, fn_var.body, fn_where.body, fn_relu.body, seq, bind_assoc, pure_bind, List.cons_append, List.nil_append]
  rfl

set_option maxRecDepth 8192 in
set_option maxHeartbeats 4000000 in
@[inherit_doc part0_eq]
theorem part1_eq (c : Dev nD) : main_part1 (F := F) c = seq ops1 := by
  simp only [main_part1, fn_var.body, fn_where.body, fn_relu.body, seq, bind_assoc, pure_bind, List.cons_append, List.nil_append]
  rfl

set_option maxRecDepth 8192 in
set_option maxHeartbeats 4000000 in
@[inherit_doc part0_eq]
theorem part2_eq (c : Dev nD) : main_part2 (F := F) c = seq ops2 := by
  simp only [main_part2, fn_log_softmax.body, seq, bind_assoc, pure_bind, List.cons_append, List.nil_append]

/-- @main runs its three windows in order: the concatenation of their operations as one line. -/
theorem main_eq (c : Dev nD) : main (F := F) c = seq ops := by
  calc main (F := F) c = (main_part0 c >>= fun _ => main_part1 c >>= fun _ => main_part2 c) := rfl
    _ = (seq ops0 >>= fun _ => seq ops1 >>= fun _ => seq ops2) := by rw [part0_eq, part1_eq, part2_eq]
    _ = seq ops := by rw [seq_append ops0 (ops1 ++ ops2), seq_append ops1 ops2]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

/-- A property of every element of two lists holds of every element of their concatenation. -/
theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  exacts [h₁ x h, h₂ x h]

theorem opsE_sub : (opsE : List (HloOp τ sig (Elt F))).Forall fun op => op.bufs ⊆ tcRefs τ sig :=
  ⟨unary_bufs_sub .., reshape_bufs_sub .., unary_bufs_sub .., reshape_bufs_sub ..⟩
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsB0_sub : (opsB0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL1a_sub : (opsL1a : List (HloOp τ sig (Elt F))).Forall fun op => op.bufs ⊆ tcRefs τ sig :=
  (nullary_bufs_sub ..)
theorem opsL1b_sub : (opsL1b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsB1_sub : (opsB1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL2a_sub : (opsL2a : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem opsL2b_sub : (opsL2b : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsS_sub : (opsS : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  forall_append (forall_append opsE_sub (forall_append opsL0_sub (forall_append opsB0_sub opsL1a_sub)))
    (forall_append (forall_append opsL1b_sub (forall_append opsB1_sub opsL2a_sub)) (forall_append opsL2b_sub opsS_sub))

/-! ## The run -/

/-- On every device, for any float values, from any memory with zero counters: every weakly fair execution of
    @main on the TensorCores terminates, and every final state has each TensorCore buffer at the operations'
    fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each piece writes -/

/-- One operation's single written reference is in the list: membership by computation. -/
local macro "wsub" : term =>
  `(Finset.singleton_subset_iff.mpr (List.mem_toFinset.mpr (List.mem_map_of_mem (by decide))))

/-- The buffers `opsE` writes, in order. -/
abbrev wE : List (Ref sig .tc) :=
  [main_v0, main_v1, main_v2, main_v3]
theorem wE_sub : (opsE : List (HloOp τ sig (Elt F))).Forall fun op => op.writes ⊆ (wE.map (Proc.devRef (τ := τ) .tc)).toFinset :=
  ⟨wsub, wsub, wsub, wsub⟩

/-- The buffers `opsL0` writes, in order. -/
abbrev wL0 : List (Ref sig .tc) :=
  [main_c, main_v4, main_v5, main_c_0, main_v6, main_v7, main_v8, main_v9, main_v10, main_cst, main_v11, main_v12,
   main_v13, main_cst_1, main_v14, main_cst_2, main_v15, main_v16, main_v17, main_cst_3, main_v18, main_v19,
   main_v20, main_v21, main_v22, main_v23, main_v24, main_v25, main_v26, main_v27, main_v28]
theorem wL0_sub : (opsL0 : List (HloOp τ sig (Elt F))).Forall fun op => op.writes ⊆ (wL0.map (Proc.devRef (τ := τ) .tc)).toFinset :=
  ⟨wsub, wsub, wsub, wsub, wsub, wsub, wsub, wsub, wsub, wsub, wsub, wsub, wsub, wsub, wsub, wsub, wsub, wsub,
   wsub, wsub, wsub, wsub, wsub, wsub, wsub, wsub, wsub, wsub, wsub, wsub, wsub⟩

/-- The buffers `opsB0` writes, in order. -/
abbrev wB0 : List (Ref sig .tc) :=
  [main_cst_4, main_v29, main_cst_5, main_v30, main_v31, main_c_6, main_call0.cst.ref, main_call0.v0.ref,
   main_call0.v1.ref, main_call0.cst_0.ref, main_call0.v2.ref, main_call0.v3.ref, main_call0.v4.ref,
   main_call0.v5.ref, main_call0.v6.ref, main_call0.v7.ref, main_call0.cst_1.ref, main_call0.v8.ref,
   main_call0.cst_2.ref, main_call0.v9.ref, main_call0.v10.ref, main_call0.v11.ref, main_call0.cst_3.ref,
   main_call0.v12.ref, main_call0.cst_4.ref, main_call0.call0.v0.ref, main_call0.call0.v1.ref,
   main_call0.call0.v2.ref, main_v33, main_v34, main_v35, main_cst_7, main_v36, main_v37, main_v38, main_v39,
   main_v40, main_v41, main_v42, main_v43, main_v44, main_v45, main_v46, main_v47, main_call1.cst.ref,
   main_call1.v0.ref, main_call1.v1.ref]
theorem wB0_sub : (opsB0 : List (HloOp τ sig (Elt F))).Forall fun op => op.writes ⊆ (wB0.map (Proc.devRef (τ := τ) .tc)).toFinset :=
  ⟨wsub, wsub, wsub, wsub, wsub, wsub, wsub, wsub, wsub, wsub, wsub, wsub, wsub, wsub, wsub, wsub, wsub, wsub,
   wsub, wsub, wsub, wsub, wsub, wsub, wsub, wsub, wsub, wsub, wsub, wsub, wsub, wsub, wsub, wsub, wsub, wsub,
   wsub, wsub, wsub, wsub, wsub, wsub, wsub, wsub, wsub, wsub, wsub⟩

/-- The buffers `opsL1a` writes, in order. -/
abbrev wL1a : List (Ref sig .tc) :=
  [main_c_8]
theorem wL1a_sub : (opsL1a : List (HloOp τ sig (Elt F))).Forall fun op => op.writes ⊆ (wL1a.map (Proc.devRef (τ := τ) .tc)).toFinset :=
  wsub

/-- The buffers `opsL1b` writes, in order. -/
abbrev wL1b : List (Ref sig .tc) :=
  [main_v49, main_v50, main_c_9, main_v51, main_v52, main_v53, main_v54, main_v55, main_cst_10, main_v56,
   main_v57, main_v58, main_cst_11, main_v59, main_cst_12, main_v60, main_v61, main_v62, main_cst_13, main_v63,
   main_v64, main_v65, main_v66, main_v67, main_v68, main_v69, main_v70, main_v71, main_v72, main_v73]
theorem wL1b_sub : (opsL1b : List (HloOp τ sig (Elt F))).Forall fun op => op.writes ⊆ (wL1b.map (Proc.devRef (τ := τ) .tc)).toFinset :=
  ⟨wsub, wsub, wsub, wsub, wsub, wsub, wsub, wsub, wsub, wsub, wsub, wsub, wsub, wsub, wsub, wsub, wsub, wsub,
   wsub, wsub, wsub, wsub, wsub, wsub, wsub, wsub, wsub, wsub, wsub, wsub⟩

/-- The buffers `opsB1` writes, in order. -/
abbrev wB1 : List (Ref sig .tc) :=
  [main_cst_14, main_v74, main_cst_15, main_v75, main_v76, main_c_16, main_call2.cst.ref, main_call2.v0.ref,
   main_call2.v1.ref, main_call2.cst_0.ref, main_call2.v2.ref, main_call2.v3.ref, main_call2.v4.ref,
   main_call2.v5.ref, main_call2.v6.ref, main_call2.v7.ref, main_call2.cst_1.ref, main_call2.v8.ref,
   main_call2.cst_2.ref, main_call2.v9.ref, main_call2.v10.ref, main_call2.v11.ref, main_call2.cst_3.ref,
   main_call2.v12.ref, main_call2.cst_4.ref, main_call2.call0.v0.ref, main_call2.call0.v1.ref,
   main_call2.call0.v2.ref, main_v78, main_v79, main_v80, main_cst_17, main_v81, main_v82, main_v83, main_v84,
   main_v85, main_v86, main_v87, main_v88, main_v89, main_v90, main_v91, main_v92, main_call3.cst.ref,
   main_call3.v0.ref, main_call3.v1.ref]
theorem wB1_sub : (opsB1 : List (HloOp τ sig (Elt F))).Forall fun op => op.writes ⊆ (wB1.map (Proc.devRef (τ := τ) .tc)).toFinset :=
  ⟨wsub, wsub, wsub, wsub, wsub, wsub, wsub, wsub, wsub, wsub, wsub, wsub, wsub, wsub, wsub, wsub, wsub, wsub,
   wsub, wsub, wsub, wsub, wsub, wsub, wsub, wsub, wsub, wsub, wsub, wsub, wsub, wsub, wsub, wsub, wsub, wsub,
   wsub, wsub, wsub, wsub, wsub, wsub, wsub, wsub, wsub, wsub, wsub⟩

/-- The buffers `opsL2a` writes, in order. -/
abbrev wL2a : List (Ref sig .tc) :=
  [main_c_18, main_v94, main_v95, main_c_19, main_v96, main_v97]
theorem wL2a_sub : (opsL2a : List (HloOp τ sig (Elt F))).Forall fun op => op.writes ⊆ (wL2a.map (Proc.devRef (τ := τ) .tc)).toFinset :=
  ⟨wsub, wsub, wsub, wsub, wsub, wsub⟩

/-- The buffers `opsL2b` writes, in order. -/
abbrev wL2b : List (Ref sig .tc) :=
  [main_v98, main_v99, main_v100, main_cst_20, main_v101, main_v102, main_v103, main_cst_21, main_v104,
   main_cst_22, main_v105, main_v106, main_v107, main_cst_23, main_v108, main_v109, main_v110, main_v111,
   main_v112, main_v113, main_v114, main_v115, main_v116, main_v117, main_v118]
theorem wL2b_sub : (opsL2b : List (HloOp τ sig (Elt F))).Forall fun op => op.writes ⊆ (wL2b.map (Proc.devRef (τ := τ) .tc)).toFinset :=
  ⟨wsub, wsub, wsub, wsub, wsub, wsub, wsub, wsub, wsub, wsub, wsub, wsub, wsub, wsub, wsub, wsub, wsub, wsub,
   wsub, wsub, wsub, wsub, wsub, wsub, wsub⟩

/-- The buffers `opsS` writes, in order. -/
abbrev wS : List (Ref sig .tc) :=
  [main_call4.cst.ref, main_call4.v0.ref, main_call4.cst_0.ref, main_call4.v1.ref, main_call4.v2.ref,
   main_call4.v3.ref, main_call4.v4.ref, main_call4.v5.ref, main_call4.v6.ref, main_call4.cst_1.ref,
   main_call4.v7.ref, main_call4.v8.ref, main_call4.v9.ref, main_call4.v10.ref, main_call4.v11.ref]
theorem wS_sub : (opsS : List (HloOp τ sig (Elt F))).Forall fun op => op.writes ⊆ (wS.map (Proc.devRef (τ := τ) .tc)).toFinset :=
  ⟨wsub, wsub, wsub, wsub, wsub, wsub, wsub, wsub, wsub, wsub, wsub, wsub, wsub, wsub, wsub⟩

end Cert.ReferenceIdeal.RefRun

end
-- ==== Proof.RefRun.lean ====
/-
  The reading of the reference's run: what the result buffer holds once the 206 operations have run, as the
  composition of the stage functions of the fifteen arguments' launch contents, and that the arguments'
  buffers hold what they held.

  The operations' fold is read stage by stage.  Each stage's piece of the list is read on an arbitrary
  valuation: its result buffer as the stage function of the buffers it reads, and every buffer it does not
  write as what was there.  The pieces are then chained: no operation after the first four writes an
  argument or one of the two edge rows, so those are carried along unchanged, and each stage's result is
  the next stage's operand.
-/
import proofs.«127273_j90726889160781_2_alg».proof.Proof.RefOps
import proofs.«127273_j90726889160781_2_alg».proof.Proof.RefStages

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-! ## The fold over a concatenation, and the buffers a piece leaves alone -/

section Generic
variable {Val : EltTy → Type}

/-- Two lines folded one after the other are their concatenation folded as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The statement that every operation of a line writes only references of a list. -/
abbrev WritesIn (l : List (HloOp τ sig Val)) (W : List (Ref sig .tc)) : Prop :=
  l.Forall fun op => op.writes ⊆ (W.map (Proc.devRef (τ := τ) .tc)).toFinset

/-- A reference outside a list that holds every reference a line writes keeps its contents. -/
theorem frame {l : List (HloOp τ sig Val)} {W : List (Ref sig .tc)} (hW : WritesIn l W) (V : Valuation τ sig Val)
    {r : Ref sig .tc} (hr : r ∉ W) : after l V (Proc.devRef .tc r) = V (Proc.devRef .tc r) :=
  after_of_writes_sub l V hW hr

theorem WritesIn.append {l₁ l₂ : List (HloOp τ sig Val)} {W₁ W₂ : List (Ref sig .tc)} (h₁ : WritesIn l₁ W₁) (h₂ : WritesIn l₂ W₂) :
    WritesIn (l₁ ++ l₂) (W₁ ++ W₂) := by
  refine forall_append ?_ ?_
  · exact (List.forall_iff_forall_mem.mp h₁ |> fun h => List.forall_iff_forall_mem.mpr fun op hop b hb => by
      have := h op hop hb; rw [List.mem_toFinset, List.map_append, List.mem_append] at *; exact Or.inl this)
  · exact (List.forall_iff_forall_mem.mp h₂ |> fun h => List.forall_iff_forall_mem.mpr fun op hop b hb => by
      have := h op hop hb; rw [List.mem_toFinset, List.map_append, List.mem_append] at *; exact Or.inr this)

end Generic

/-! ## Contents through a typed reference -/

section Casts
variable {Val : EltTy → Type} {T : BufTy}

/-- Contents written into a typed reference's buffer and read back are the contents: the two transports along
    the reference's type equation cancel. -/
theorem ofBuf_toBuf (x : TRef sig T) (v : T.Contents Val) : x.ofBuf (x.toBuf v) = v := by
  obtain ⟨r, rfl, _, _⟩ := x
  rfl

end Casts

/-! ## What the two layers cut at a window's end write -/

abbrev wL1 : List (Ref sig .tc) := wL1a ++ wL1b
abbrev wL2 : List (Ref sig .tc) := wL2a ++ wL2b
theorem wL1_sub {F : FTy → Type} [FloatOps F] : WritesIn (opsL1 : List (HloOp τ sig (Elt F))) wL1 := WritesIn.append wL1a_sub wL1b_sub
theorem wL2_sub {F : FTy → Type} [FloatOps F] : WritesIn (opsL2 : List (HloOp τ sig (Elt F))) wL2 := WritesIn.append wL2a_sub wL2b_sub

/-! ## The pieces read, on any valuation -/

/-- The first edge row after the first four operations. -/
theorem readE_v1 (W : Valuation τ sig (Elt Ideal)) :
    after opsE W (main_v1 : DevRef τ sig) = Stages.edgeRow0 (W (main_arg1 : DevRef τ sig)) := by
  after_results_simp
  rfl

/-- The second edge row after the first four operations. -/
theorem readE_v3 (W : Valuation τ sig (Elt Ideal)) :
    after opsE W (main_v3 : DevRef τ sig) = Stages.edgeRow1 (W (main_arg1 : DevRef τ sig)) := by
  after_results_simp
  rfl

attribute [local irreducible] Host.gather Host.scatterAdd Host.reduceAdd Host.reduce in
set_option maxRecDepth 8192 in
/-- The first layer's linear part, from a valuation whose edge-row buffers hold the rows of `ei`. -/
theorem readL0 (W : Valuation τ sig (Elt Ideal)) (ei : (⟨S2x1600000, .i32⟩ : BufTy).Contents (Elt Ideal))
    (h1 : W (main_v1 : DevRef τ sig) = Stages.edgeRow0 ei) (h3 : W (main_v3 : DevRef τ sig) = Stages.edgeRow1 ei) :
    after opsL0 W (main_v28 : DevRef τ sig)
      = Stages.lin128 ei (W (main_arg0 : DevRef τ sig)) (W (main_arg2 : DevRef τ sig)) (W (main_arg3 : DevRef τ sig)) (W (main_arg4 : DevRef τ sig)) := by
  after_results_simp
  rw [h1, h3]
  rfl

attribute [local irreducible] Host.gather Host.scatterAdd Host.reduceAdd Host.reduce in
set_option maxRecDepth 8192 in
/-- The first layer's normalisation and rectifier: the variance function's and the rectifier's operations read in line. -/
theorem readB0 (W : Valuation τ sig (Elt Ideal)) :
    after opsB0 W (main_v48 : DevRef τ sig)
      = Stages.bnrelu (W (main_v28 : DevRef τ sig)) (W (main_arg5 : DevRef τ sig)) (W (main_arg6 : DevRef τ sig)) := by
  after_results_simp
  rfl

attribute [local irreducible] Host.gather Host.scatterAdd Host.reduceAdd Host.reduce in
set_option maxRecDepth 8192 in
/-- The second layer's linear part. -/
theorem readL1 (W : Valuation τ sig (Elt Ideal)) (ei : (⟨S2x1600000, .i32⟩ : BufTy).Contents (Elt Ideal))
    (h1 : W (main_v1 : DevRef τ sig) = Stages.edgeRow0 ei) (h3 : W (main_v3 : DevRef τ sig) = Stages.edgeRow1 ei) :
    after opsL1 W (main_v73 : DevRef τ sig)
      = Stages.lin128 ei (W (main_v48 : DevRef τ sig)) (W (main_arg7 : DevRef τ sig)) (W (main_arg8 : DevRef τ sig)) (W (main_arg9 : DevRef τ sig)) := by
  rw [show (opsL1 : List (HloOp τ sig (Elt Ideal))) = opsL1a ++ opsL1b from rfl, after_append]
  after_results_simp
  rw [h1, h3]
  rfl

attribute [local irreducible] Host.gather Host.scatterAdd Host.reduceAdd Host.reduce in
set_option maxRecDepth 8192 in
/-- The second layer's normalisation and rectifier. -/
theorem readB1 (W : Valuation τ sig (Elt Ideal)) :
    after opsB1 W (main_v93 : DevRef τ sig)
      = Stages.bnrelu (W (main_v73 : DevRef τ sig)) (W (main_arg10 : DevRef τ sig)) (W (main_arg11 : DevRef τ sig)) := by
  after_results_simp
  rfl

attribute [local irreducible] Host.gather Host.scatterAdd Host.reduceAdd Host.reduce in
set_option maxRecDepth 8192 in
/-- The third layer's linear part. -/
theorem readL2 (W : Valuation τ sig (Elt Ideal)) (ei : (⟨S2x1600000, .i32⟩ : BufTy).Contents (Elt Ideal))
    (h1 : W (main_v1 : DevRef τ sig) = Stages.edgeRow0 ei) (h3 : W (main_v3 : DevRef τ sig) = Stages.edgeRow1 ei) :
    after opsL2 W (main_v118 : DevRef τ sig)
      = Stages.lin47 ei (W (main_v93 : DevRef τ sig)) (W (main_arg12 : DevRef τ sig)) (W (main_arg13 : DevRef τ sig)) (W (main_arg14 : DevRef τ sig)) := by
  rw [show (opsL2 : List (HloOp τ sig (Elt Ideal))) = opsL2a ++ opsL2b from rfl, after_append]
  after_results_simp
  rw [h1, h3]
  rfl

attribute [local irreducible] Host.gather Host.scatterAdd Host.reduceAdd Host.reduce in
set_option maxRecDepth 8192 in
/-- The log-softmax function's operations read in line: the transports through the function's typed references
    cancelled first, the two sides are then the same composition. -/
theorem readS (W : Valuation τ sig (Elt Ideal)) :
    after opsS W (main_v119 : DevRef τ sig) = Stages.logsm (W (main_v118 : DevRef τ sig)) := by
  after_results_simp
  simp only [ofBuf_toBuf]
  rfl

/-! ## The chain -/

/-- What every piece after the first carries along: the fifteen arguments as launched, the two edge-row buffers
    at the rows of the launched edge table. -/
structure Live (V W : Valuation τ sig (Elt Ideal)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)
  a13 : W (main_arg13 : DevRef τ sig) = V (main_arg13 : DevRef τ sig)
  a14 : W (main_arg14 : DevRef τ sig) = V (main_arg14 : DevRef τ sig)
  r0 : W (main_v1 : DevRef τ sig) = Stages.edgeRow0 (V (main_arg1 : DevRef τ sig))
  r1 : W (main_v3 : DevRef τ sig) = Stages.edgeRow1 (V (main_arg1 : DevRef τ sig))

/-- The references `Live` speaks of. -/
abbrev liveRefs : List (Ref sig .tc) :=
  [main_arg0, main_arg1, main_arg2, main_arg3, main_arg4, main_arg5, main_arg6, main_arg7, main_arg8, main_arg9,
   main_arg10, main_arg11, main_arg12, main_arg13, main_arg14, main_v1, main_v3]

/-- A piece that writes none of those references carries them along. -/
theorem Live.step {V W : Valuation τ sig (Elt Ideal)} (h : Live V W) {l : List (HloOp τ sig (Elt Ideal))} {Wl : List (Ref sig .tc)}
    (hW : WritesIn l Wl) (hd : ∀ r ∈ liveRefs, r ∉ Wl) : Live V (after l W) where
  a0 := (frame hW W (hd main_arg0 (by decide))).trans h.a0
  a1 := (frame hW W (hd main_arg1 (by decide))).trans h.a1
  a2 := (frame hW W (hd main_arg2 (by decide))).trans h.a2
  a3 := (frame hW W (hd main_arg3 (by decide))).trans h.a3
  a4 := (frame hW W (hd main_arg4 (by decide))).trans h.a4
  a5 := (frame hW W (hd main_arg5 (by decide))).trans h.a5
  a6 := (frame hW W (hd main_arg6 (by decide))).trans h.a6
  a7 := (frame hW W (hd main_arg7 (by decide))).trans h.a7
  a8 := (frame hW W (hd main_arg8 (by decide))).trans h.a8
  a9 := (frame hW W (hd main_arg9 (by decide))).trans h.a9
  a10 := (frame hW W (hd main_arg10 (by decide))).trans h.a10
  a11 := (frame hW W (hd main_arg11 (by decide))).trans h.a11
  a12 := (frame hW W (hd main_arg12 (by decide))).trans h.a12
  a13 := (frame hW W (hd main_arg13 (by decide))).trans h.a13
  a14 := (frame hW W (hd main_arg14 (by decide))).trans h.a14
  r0 := (frame hW W (hd main_v1 (by decide))).trans h.r0
  r1 := (frame hW W (hd main_v3 (by decide))).trans h.r1

/-- After the first four operations: the arguments untouched, the edge rows read. -/
theorem live_E (V : Valuation τ sig (Elt Ideal)) : Live V (after opsE V) where
  a0 := frame wE_sub V (by decide)
  a1 := frame wE_sub V (by decide)
  a2 := frame wE_sub V (by decide)
  a3 := frame wE_sub V (by decide)
  a4 := frame wE_sub V (by decide)
  a5 := frame wE_sub V (by decide)
  a6 := frame wE_sub V (by decide)
  a7 := frame wE_sub V (by decide)
  a8 := frame wE_sub V (by decide)
  a9 := frame wE_sub V (by decide)
  a10 := frame wE_sub V (by decide)
  a11 := frame wE_sub V (by decide)
  a12 := frame wE_sub V (by decide)
  a13 := frame wE_sub V (by decide)
  a14 := frame wE_sub V (by decide)
  r0 := readE_v1 V
  r1 := readE_v3 V

/-- The whole line read: the result buffer at the stages' composition of the launch contents, and what is carried along. -/
theorem read_all (V : Valuation τ sig (Elt Ideal)) :
    after ops V (main_v119 : DevRef τ sig) = Stages.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
      ∧ Live V (after ops V) := by
  rw [ops_stages, after_append opsE, after_append opsL0, after_append opsB0, after_append opsL1, after_append opsB1, after_append opsL2]
  have L1 := live_E V
  have L2 := L1.step wL0_sub (by decide)
  have L3 := L2.step wB0_sub (by decide)
  have L4 := L3.step wL1_sub (by decide)
  have L5 := L4.step wB1_sub (by decide)
  have L6 := L5.step wL2_sub (by decide)
  have L7 := L6.step wS_sub (by decide)
  refine ⟨?_, L7⟩
  rw [readS, readL2 _ _ L5.r0 L5.r1, readB1, readL1 _ _ L3.r0 L3.r1, readB0, readL0 _ _ L1.r0 L1.r1,
    L1.a0, L1.a2, L1.a3, L1.a4, L2.a5, L2.a6, L3.a7, L3.a8, L3.a9, L4.a10, L4.a11, L5.a12, L5.a13, L5.a14]
  rfl

/-! ## The run -/

/-- On every device, from any memory with zero counters: every weakly fair execution of the reference's @main
    terminates with the result buffer at the stages' composition of the arguments' launch contents, the
    arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v119) = Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run _ _ _).mono (fun _ h c =>
      have R := read_all (launchContents m c)
      ⟨(h c main_v119).trans R.1, (h c main_arg0).trans R.2.a0, (h c main_arg1).trans R.2.a1, (h c main_arg2).trans R.2.a2, (h c main_arg3).trans R.2.a3, (h c main_arg4).trans R.2.a4, (h c main_arg5).trans R.2.a5, (h c main_arg6).trans R.2.a6, (h c main_arg7).trans R.2.a7, (h c main_arg8).trans R.2.a8, (h c main_arg9).trans R.2.a9, (h c main_arg10).trans R.2.a10, (h c main_arg11).trans R.2.a11, (h c main_arg12).trans R.2.a12, (h c main_arg13).trans R.2.a13, (h c main_arg14).trans R.2.a14⟩)
    (run_all m ρ)

end Cert.ReferenceIdeal.RefRun

end
-- ==== Proof.lean ====
/-
  A three-layer graph network (mean aggregation over incoming edges, two linear maps per layer, batch normalisation
  and a rectifier after the first two layers, a row-wise log-softmax after the third), computed block by block by five
  kernel regions among host operations, against the same network computed on whole arrays.

  The frames of the two block-wise programs are the generated ones. The whole-array program's run is read off its list
  of host operations (`RefRun`), its result as a composition of named stages (`RefStages`). The block-wise program's
  run names its result buffer after the last region (`KerRun`); every region's output array is one function of the
  arrays the region is entered with (`Region0` … `Region4`: the layer's linear part, the rectified normalisation, the
  log-softmax, each row depending on the same row of its operands only, so the blocks of 5000 rows tile the result);
  every region's entry arrays are walked back through the run (`KerEntry`); and stage by stage the two programs compute
  the same function (`BridgeLin`, `BridgeNorm`, `BridgeSoftmax`). The laws of the extended reals that are used:
  a neighbour count is at least one, hence not zero, so s · (1 / n) = s / n; a column's variance is a sum of squares
  over a positive number, hence not negative, so its maximum with zero is itself; max (−∞) y = y; 0 + y = y. None of
  them needs the inputs to be finite, and the precondition is never opened. The idealisation rewrote nothing, so the
  preservation claim is trivial.
-/
import proofs.«127273_j90726889160781_2_alg».proof.Defs
import proofs.«127273_j90726889160781_2_alg».proof.Proof.Gen.Kernel
import proofs.«127273_j90726889160781_2_alg».proof.Proof.Gen.Kernel.Skeleton
import proofs.«127273_j90726889160781_2_alg».proof.Proof.Gen.Kernel.Launch
import proofs.«127273_j90726889160781_2_alg».proof.Proof.Gen.Kernel.Points
import proofs.«127273_j90726889160781_2_alg».proof.Proof.Gen.Kernel.Frame
import proofs.«127273_j90726889160781_2_alg».proof.Proof.Gen.KernelIdeal
import proofs.«127273_j90726889160781_2_alg».proof.Proof.Gen.KernelIdeal.Skeleton
import proofs.«127273_j90726889160781_2_alg».proof.Proof.Gen.KernelIdeal.Launch
import proofs.«127273_j90726889160781_2_alg».proof.Proof.Gen.KernelIdeal.Points
import proofs.«127273_j90726889160781_2_alg».proof.Proof.Gen.KernelIdeal.Frame
import proofs.«127273_j90726889160781_2_alg».proof.Proof.Gen.ReferenceIdeal
import proofs.«127273_j90726889160781_2_alg».proof.Proof.Gen.Pre_finite_inputs
import proofs.«127273_j90726889160781_2_alg».proof.Proof.KerRun
import proofs.«127273_j90726889160781_2_alg».proof.Proof.KernelValue
import proofs.«127273_j90726889160781_2_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The whole-array program's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the whole-array program's function of the arguments, which agree. -/
theorem algebraic : Cert.algebraic_KernelIdeal_ReferenceIdeal := by
  intro m ρ m' ρ' _ hagree
  refine ⟨fun c => Cert.ReferenceIdeal.Stages.refOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KernelValue.value m ρ c), (h c).2⟩)
      (Cert.KernelIdeal.KerRun.run m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
